-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x256 : Shape := ⟨3, ![4, 8192, 256]⟩
abbrev S1536x256 : Shape := ⟨2, ![1536, 256]⟩
abbrev S256x512 : Shape := ⟨2, ![256, 512]⟩
abbrev S256 : Shape := ⟨1, ![256]⟩
abbrev S_ : Shape := ⟨0, ![]⟩

class Facts : Prop where
  bcast_S_S4x8192x256 : S_.BroadcastsInDim S4x8192x256 (![] : Fin 0 → Fin S4x8192x256.rank)
  reducesTo_S4x8192x256_S_d0_1_2 : S4x8192x256.ReducesTo [0, 1, 2] S_
  h_S_ : 0 < S_.numel
  bcast_S_S1536x256 : S_.BroadcastsInDim S1536x256 (![] : Fin 0 → Fin S1536x256.rank)
  reducesTo_S1536x256_S_d0_1 : S1536x256.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S4x8192x256 .f32) (main_arg1 : FVec F S1536x256 .f32) (main_arg2 : FVec F S256x512 .f32) (main_arg3 : FVec F S256 .f32) : IVec S_ 1 :=
  let main_v0 : FVec F S4x8192x256 .f32 := Host.absf main_arg0
  let main_cst : FVec F S_ .f32 := constant S_ .f32 0x7F800000#32
  let main_v1 : FVec F S4x8192x256 .f32 := broadcastInDim S4x8192x256 ![] bcast_S_S4x8192x256 main_cst
  let main_v2 : IVec S4x8192x256 1 := cmpf .olt main_v0 main_v1
  let main_c : IVec S_ 1 := constantI S_ 1 1#1
  let main_v3 : IVec S_ 1 := (fun x v => Host.reduce IntOp.andi x v reducesTo_S4x8192x256_S_d0_1_2 h_S_) main_v2 main_c
  let main_v4 : FVec F S1536x256 .f32 := Host.absf main_arg1
  let main_cst_0 : FVec F S_ .f32 := constant S_ .f32 0x7F800000#32
  let main_v5 : FVec F S1536x256 .f32 := broadcastInDim S1536x256 ![] bcast_S_S1536x256 main_cst_0
  let main_v6 : IVec S1536x256 1 := cmpf .olt main_v4 main_v5
  let main_c_1 : IVec S_ 1 := constantI S_ 1 1#1
  let main_v7 : IVec S_ 1 := (fun x v => Host.reduce IntOp.andi x v reducesTo_S1536x256_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S4x8192x256 : Shape := ⟨3, ![4, 8192, 256]⟩
abbrev S1536x256 : Shape := ⟨2, ![1536, 256]⟩
abbrev S256x512 : Shape := ⟨2, ![256, 512]⟩
abbrev S256 : Shape := ⟨1, ![256]⟩
abbrev S512x256 : Shape := ⟨2, ![512, 256]⟩
abbrev S8x64x256 : Shape := ⟨3, ![8, 64, 256]⟩
abbrev S1x256 : Shape := ⟨2, ![1, 256]⟩
abbrev S4x8x64x256 : Shape := ⟨4, ![4, 8, 64, 256]⟩
abbrev S1x2048x256 : Shape := ⟨3, ![1, 2048, 256]⟩
abbrev S1x64x256 : Shape := ⟨3, ![1, 64, 256]⟩
abbrev S1x1x64x256 : Shape := ⟨4, ![1, 1, 64, 256]⟩
abbrev S64x64 : Shape := ⟨2, ![64, 64]⟩
abbrev S2048x256 : Shape := ⟨2, ![2048, 256]⟩
abbrev S64x256 : Shape := ⟨2, ![64, 256]⟩
abbrev S2048x64 : Shape := ⟨2, ![2048, 64]⟩
abbrev S2048 : Shape := ⟨1, ![2048]⟩
abbrev S2048x1 : Shape := ⟨2, ![2048, 1]⟩

abbrev nBuf : Space → Nat
  | .hbm => 15
  | .vmem => 21
  | .smem => 0
  | _ => 0

abbrev bufTy : (tb : Table) → Fin (tcTables nBuf tb) → BufTy
  | .hbm, ⟨0, _⟩ => ⟨S4x8192x256, .f32⟩
  | .hbm, ⟨1, _⟩ => ⟨S1536x256, .f32⟩
  | .hbm, ⟨2, _⟩ => ⟨S256x512, .f32⟩
  | .hbm, ⟨3, _⟩ => ⟨S256, .f32⟩
  | .hbm, ⟨4, _⟩ => ⟨S512x256, .f32⟩
  | .hbm, ⟨5, _⟩ => ⟨S8x64x256, .f32⟩
  | .hbm, ⟨6, _⟩ => ⟨S512x256, .f32⟩
  | .hbm, ⟨7, _⟩ => ⟨S8x64x256, .f32⟩
  | .hbm, ⟨8, _⟩ => ⟨S512x256, .f32⟩
  | .hbm, ⟨9, _⟩ => ⟨S8x64x256, .f32⟩
  | .hbm, ⟨10, _⟩ => ⟨S512x256, .f32⟩
  | .hbm, ⟨11, _⟩ => ⟨S8x64x256, .f32⟩
  | .hbm, ⟨12, _⟩ => ⟨S1x256, .f32⟩
  | .hbm, ⟨13, _⟩ => ⟨S4x8x64x256, .f32⟩
  | .hbm, ⟨14, _⟩ => ⟨S4x8192x256, .f32⟩
  | .local _ .vmem, ⟨0, _⟩ => ⟨S1x2048x256, .f32⟩
  | .local _ .vmem, ⟨1, _⟩ => ⟨S1x2048x256, .f32⟩
  | .local _ .vmem, ⟨2, _⟩ => ⟨S1x64x256, .f32⟩
  | .local _ .vmem, ⟨3, _⟩ => ⟨S1x64x256, .f32⟩
  | .local _ .vmem, ⟨4, _⟩ => ⟨S1x64x256, .f32⟩
  | .local _ .vmem, ⟨5, _⟩ => ⟨S1x64x256, .f32⟩
  | .local _ .vmem, ⟨6, _⟩ => ⟨S1x64x256, .f32⟩
  | .local _ .vmem, ⟨7, _⟩ => ⟨S1x64x256, .f32⟩
  | .local _ .vmem, ⟨8, _⟩ => ⟨S1x1x64x256, .f32⟩
  | .local _ .vmem, ⟨9, _⟩ => ⟨S1x1x64x256, .f32⟩
  | .local _ .vmem, ⟨10, _⟩ => ⟨S64x64, .f32⟩
  | .local _ .vmem, ⟨11, _⟩ => ⟨S1x2048x256, .f32⟩
  | .local _ .vmem, ⟨12, _⟩ => ⟨S1x2048x256, .f32⟩
  | .local _ .vmem, ⟨13, _⟩ => ⟨S1x64x256, .f32⟩
  | .local _ .vmem, ⟨14, _⟩ => ⟨S1x64x256, .f32⟩
  | .local _ .vmem, ⟨15, _⟩ => ⟨S1x1x64x256, .f32⟩
  | .local _ .vmem, ⟨16, _⟩ => ⟨S1x1x64x256, .f32⟩
  | .local _ .vmem, ⟨17, _⟩ => ⟨S1x256, .f32⟩
  | .local _ .vmem, ⟨18, _⟩ => ⟨S1x2048x256, .f32⟩
  | .local _ .vmem, ⟨19, _⟩ => ⟨S1x2048x256, .f32⟩
  | .local _ .vmem, ⟨20, _⟩ => ⟨S2048x256, .f32⟩
  | _, _ => ⟨S4x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v58 : BitVec 1 := Scalar.cmpi .eq arg2 c3_i32
  let v59 : BitVec 32 := Scalar.extui v58
  let c0_i32_25 : BitVec 32 := 0#32
  let v60 : BitVec 1 := Scalar.cmpi .ne v59 c0_i32_25
  v60

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v20 : BitVec 1 := Scalar.cmpi .eq arg2 c7_i32
  let v21 : BitVec 32 := Scalar.extui v20
  let c0_i32_15 : BitVec 32 := 0#32
  let v22 : BitVec 1 := Scalar.cmpi .ne v21 c0_i32_15
  v22

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x64x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true]

abbrev stage1_2 : Fin 2 → Memref sig .tc .vmem S1x1x64x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  slices_S1536x256_S512x256_0_0 : S1536x256.Slices ![0, 0] S512x256
  shapeCasts_S512x256_S8x64x256 : S512x256.ShapeCasts S8x64x256
  slices_S1536x256_S512x256_512_0 : S1536x256.Slices ![512, 0] S512x256
  slices_S1536x256_S512x256_1024_0 : S1536x256.Slices ![1024, 0] S512x256
  transposes_S256x512_S512x256_1_0 : S256x512.Transposes [1, 0] S512x256
  shapeCasts_S256_S1x256 : S256.ShapeCasts S1x256
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  reduces_S2048x64_S2048 : S2048x64.Reduces [1] S2048
  shapeCasts_S2048_S2048x1 : S2048.ShapeCasts S2048x1
  broadcasts_S2048x1_S2048x64 : S2048x1.Broadcasts S2048x64
  inb_S1x1x64x256_S1x1x64x256_0_0_0_0 : ∀ a, (![0, 0, 0, 0] : Fin 4 → Nat) a + S1x1x64x256.size a ≤ S1x1x64x256.size a
  h_S1x1x64x256 : 0 < S1x1x64x256.numel
  shapeCasts_S1x1x64x256_S64x256 : S1x1x64x256.ShapeCasts S64x256
  shapeCasts_S64x256_S1x1x64x256 : S64x256.ShapeCasts S1x1x64x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  shapeCasts_S2048x256_S1x2048x256 : S2048x256.ShapeCasts S1x2048x256
  dot_S2048x256_S64x256_S2048x64_1_1_0_0_n_n_wf : DotDims.WF S2048x256 S64x256 S2048x64 [1] [1] [0] [0] [] []
  dot_S2048x64_S2048x64_S64x64_0_0_1_1_n_n_wf : DotDims.WF S2048x64 S2048x64 S64x64 [0] [0] [1] [1] [] []
  dot_S64x64_S64x256_S64x256_1_0_0_1_n_n_wf : DotDims.WF S64x64 S64x256 S64x256 [1] [0] [0] [1] [] []
  dot_S2048x64_S64x256_S2048x256_1_0_0_1_n_n_wf : DotDims.WF S2048x64 S64x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S4x8192x256.size a
  hwx0_0 : ∀ i : grid0.Coords, EltTy.bits .f32 = 32 ∨ (Rect.block (s := S4x8192x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x256.size a ≤ S8x64x256.size a
  hwx0_1 : ∀ i : grid0.Coords, EltTy.bits .f32 = 32 ∨ (Rect.block (s := S8x64x256) S1x64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x256.size a ≤ S8x64x256.size a
  hwx0_2 : ∀ i : grid0.Coords, EltTy.bits .f32 = 32 ∨ (Rect.block (s := S8x64x256) S1x64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x256.size a ≤ S8x64x256.size a
  hwx0_3 : ∀ i : grid0.Coords, EltTy.bits .f32 = 32 ∨ (Rect.block (s := S8x64x256) S1x64x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64x256.size a ≤ S4x8x64x256.size a
  hwx0_4 : ∀ i : grid0.Coords, EltTy.bits .f32 = 32 ∨ (Rect.block (s := S4x8x64x256) S1x1x64x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x256.size a ≤ S4x8192x256.size a
  hwx1_0 : ∀ i : grid1.Coords, EltTy.bits .f32 = 32 ∨ (Rect.block (s := S4x8192x256) S1x2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x256.size a ≤ S8x64x256.size a
  hwx1_1 : ∀ i : grid1.Coords, EltTy.bits .f32 = 32 ∨ (Rect.block (s := S8x64x256) S1x64x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x64x256.size a ≤ S4x8x64x256.size a
  hwx1_2 : ∀ i : grid1.Coords, EltTy.bits .f32 = 32 ∨ (Rect.block (s := S4x8x64x256) S1x1x64x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x256.size a ≤ S4x8192x256.size a
  hwx1_4 : ∀ i : grid1.Coords, EltTy.bits .f32 = 32 ∨ (Rect.block (s := S4x8192x256) S1x2048x256.size (cc1_transform_4 i) (hinb1_4 i)).WholeWords (EltTy.packing .f32)

variable [Facts₀]

def dot_S2048x256_S64x256_S2048x64_1_1_0_0_n_n : DotDims S2048x256 S64x256 S2048x64 where
  lhsContracting := [1]
  rhsContracting := [1]
  lhsNonContracting := [0]
  rhsNonContracting := [0]
  lhsBatch := []
  rhsBatch := []
  wf := dot_S2048x256_S64x256_S2048x64_1_1_0_0_n_n_wf
def dot_S2048x64_S2048x64_S64x64_0_0_1_1_n_n : DotDims S2048x64 S2048x64 S64x64 where
  lhsContracting := [0]
  rhsContracting := [0]
  lhsNonContracting := [1]
  rhsNonContracting := [1]
  lhsBatch := []
  rhsBatch := []
  wf := dot_S2048x64_S2048x64_S64x64_0_0_1_1_n_n_wf
def dot_S64x64_S64x256_S64x256_1_0_0_1_n_n : DotDims S64x64 S64x256 S64x256 where
  lhsContracting := [1]
  rhsContracting := [0]
  lhsNonContracting := [0]
  rhsNonContracting := [1]
  lhsBatch := []
  rhsBatch := []
  wf := dot_S64x64_S64x256_S64x256_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x64x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1x64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S1x2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x64x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1x64x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x2048x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x8192x256 : Shape := ⟨3, ![4, 8192, 256]⟩
abbrev S1536x256 : Shape := ⟨2, ![1536, 256]⟩
abbrev S256x512 : Shape := ⟨2, ![256, 512]⟩
abbrev S256 : Shape := ⟨1, ![256]⟩
abbrev S4x8192x1536 : Shape := ⟨3, ![4, 8192, 1536]⟩
abbrev S4x8192x512 : Shape := ⟨3, ![4, 8192, 512]⟩
abbrev S4x8192x8x64 : Shape := ⟨4, ![4, 8192, 8, 64]⟩
abbrev S4x8x8192x64 : Shape := ⟨4, ![4, 8, 8192, 64]⟩
abbrev S_ : Shape := ⟨0, ![]⟩
abbrev S4x8x8192 : Shape := ⟨3, ![4, 8, 8192]⟩
abbrev S4x8x8192x1 : Shape := ⟨4, ![4, 8, 8192, 1]⟩
abbrev S4x8x64x64 : Shape := ⟨4, ![4, 8, 64, 64]⟩
abbrev S1x1x256 : Shape := ⟨3, ![1, 1, 256]⟩

abbrev nBuf : Space → Nat
  | .hbm => 71
  | .vmem => 0
  | .smem => 0
  | _ => 0

abbrev bufTy : (tb : Table) → Fin (tcTables nBuf tb) → BufTy
  | .hbm, ⟨0, _⟩ => ⟨S4x8192x256, .f32⟩
  | .hbm, ⟨1, _⟩ => ⟨S1536x256, .f32⟩
  | .hbm, ⟨2, _⟩ => ⟨S256x512, .f32⟩
  | .hbm, ⟨3, _⟩ => ⟨S256, .f32⟩
  | .hbm, ⟨4, _⟩ => ⟨S4x8192x1536, .f32⟩
  | .hbm, ⟨5, _⟩ => ⟨S4x8192x512, .f32⟩
  | .hbm, ⟨6, _⟩ => ⟨S4x8192x512, .f32⟩
  | .hbm, ⟨7, _⟩ => ⟨S4x8192x512, .f32⟩
  | .hbm, ⟨8, _⟩ => ⟨S4x8192x8x64, .f32⟩
  | .hbm, ⟨9, _⟩ => ⟨S4x8x8192x64, .f32⟩
  | .hbm, ⟨10, _⟩ => ⟨S4x8192x8x64, .f32⟩
  | .hbm, ⟨11, _⟩ => ⟨S4x8x8192x64, .f32⟩
  | .hbm, ⟨12, _⟩ => ⟨S4x8192x8x64, .f32⟩
  | .hbm, ⟨13, _⟩ => ⟨S4x8x8192x64, .f32⟩
  | .hbm, ⟨14, _⟩ => ⟨S_, .f32⟩
  | .hbm, ⟨15, _⟩ => ⟨S4x8x8192, .f32⟩
  | .hbm, ⟨16, _⟩ => ⟨S4x8x8192x1, .f32⟩
  | .hbm, ⟨17, _⟩ => ⟨S_, .f32⟩
  | .hbm, ⟨18, _⟩ => ⟨S4x8x8192x1, .f32⟩
  | .hbm, ⟨19, _⟩ => ⟨S4x8x8192x1, .f32⟩
  | .hbm, ⟨20, _⟩ => ⟨S4x8x8192x64, .f32⟩
  | .hbm, ⟨21, _⟩ => ⟨S4x8x8192x64, .f32⟩
  | .hbm, ⟨22, _⟩ => ⟨S4x8x8192x64, .f32⟩
  | .hbm, ⟨23, _⟩ => ⟨S_, .f32⟩
  | .hbm, ⟨24, _⟩ => ⟨S4x8x8192, .f32⟩
  | .hbm, ⟨25, _⟩ => ⟨S4x8x8192x1, .f32⟩
  | .hbm, ⟨26, _⟩ => ⟨S_, .f32⟩
  | .hbm, ⟨27, _⟩ => ⟨S4x8x8192x1, .f32⟩
  | .hbm, ⟨28, _⟩ => ⟨S4x8x8192x1, .f32⟩
  | .hbm, ⟨29, _⟩ => ⟨S4x8x8192x64, .f32⟩
  | .hbm, ⟨30, _⟩ => ⟨S4x8x8192x64, .f32⟩
  | .hbm, ⟨31, _⟩ => ⟨S_, .f32⟩
  | .hbm, ⟨32, _⟩ => ⟨S4x8x8192x1, .f32⟩
  | .hbm, ⟨33, _⟩ => ⟨S4x8x8192x1, .f32⟩
  | .hbm, ⟨34, _⟩ => ⟨S4x8x8192x1, .f32⟩
  | .hbm, ⟨35, _⟩ => ⟨S4x8x8192x64, .f32⟩
  | .hbm, ⟨36, _⟩ => ⟨S4x8x8192x64, .f32⟩
  | .hbm, ⟨37, _⟩ => ⟨S_, .f32⟩
  | .hbm, ⟨38, _⟩ => ⟨S4x8x8192, .f32⟩
  | .hbm, ⟨39, _⟩ => ⟨S4x8x8192x1, .f32⟩
  | .hbm, ⟨40, _⟩ => ⟨S_, .f32⟩
  | .hbm, ⟨41, _⟩ => ⟨S4x8x8192x1, .f32⟩
  | .hbm, ⟨42, _⟩ => ⟨S4x8x8192x1, .f32⟩
  | .hbm, ⟨43, _⟩ => ⟨S4x8x8192x64, .f32⟩
  | .hbm, ⟨44, _⟩ => ⟨S4x8x8192x64, .f32⟩
  | .hbm, ⟨45, _⟩ => ⟨S4x8x8192x64, .f32⟩
  | .hbm, ⟨46, _⟩ => ⟨S_, .f32⟩
  | .hbm, ⟨47, _⟩ => ⟨S4x8x8192, .f32⟩
  | .hbm, ⟨48, _⟩ => ⟨S4x8x8192x1, .f32⟩
  | .hbm, ⟨49, _⟩ => ⟨S_, .f32⟩
  | .hbm, ⟨50, _⟩ => ⟨S4x8x8192x1, .f32⟩
  | .hbm, ⟨51, _⟩ => ⟨S4x8x8192x1, .f32⟩
  | .hbm, ⟨52, _⟩ => ⟨S4x8x8192x64, .f32⟩
  | .hbm, ⟨53, _⟩ => ⟨S4x8x8192x64, .f32⟩
  | .hbm, ⟨54, _⟩ => ⟨S_, .f32⟩
  | .hbm, ⟨55, _⟩ => ⟨S4x8x8192x1, .f32⟩
  | .hbm, ⟨56, _⟩ => ⟨S4x8x8192x1, .f32⟩
  | .hbm, ⟨57, _⟩ => ⟨S4x8x8192x1, .f32⟩
  | .hbm, ⟨58, _⟩ => ⟨S4x8x8192x64, .f32⟩
  | .hbm, ⟨59, _⟩ => ⟨S4x8x8192x64, .f32⟩
  | .hbm, ⟨60, _⟩ => ⟨S4x8x64x64, .f32⟩
  | .hbm, ⟨61, _⟩ => ⟨S4x8x8192x64, .f32⟩
  | .hbm, ⟨62, _⟩ => ⟨S_, .f32⟩
  | .hbm, ⟨63, _⟩ => ⟨S4x8x8192x64, .f32⟩
  | .hbm, ⟨64, _⟩ => ⟨S4x8x8192x64, .f32⟩
  | .hbm, ⟨65, _⟩ => ⟨S4x8192x8x64, .f32⟩
  | .hbm, ⟨66, _⟩ => ⟨S4x8192x512, .f32⟩
  | .hbm, ⟨67, _⟩ => ⟨S4x8192x256, .f32⟩
  | .hbm, ⟨68, _⟩ => ⟨S1x1x256, .f32⟩
  | .hbm, ⟨69, _⟩ => ⟨S4x8192x256, .f32⟩
  | .hbm, ⟨70, _⟩ => ⟨S4x8192x256, .f32⟩
  | _, _ => ⟨S4x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]

class Facts₀ : Prop where
  slices_S4x8192x1536_S4x8192x512_0_0_0 : S4x8192x1536.Slices ![0, 0, 0] S4x8192x512
  slices_S4x8192x1536_S4x8192x512_0_0_512 : S4x8192x1536.Slices ![0, 0, 512] S4x8192x512
  slices_S4x8192x1536_S4x8192x512_0_0_1024 : S4x8192x1536.Slices ![0, 0, 1024] S4x8192x512
  shapeCasts_S4x8192x512_S4x8192x8x64 : S4x8192x512.ShapeCasts S4x8192x8x64
  transposes_S4x8192x8x64_S4x8x8192x64_0_2_1_3 : S4x8192x8x64.Transposes [0, 2, 1, 3] S4x8x8192x64
  reducesTo_S4x8x8192x64_S4x8x8192_d3 : S4x8x8192x64.ReducesTo [3] S4x8x8192
  h_S_ : 0 < S_.numel
  bcast_S4x8x8192_S4x8x8192x1_0_1_2 : S4x8x8192.BroadcastsInDim S4x8x8192x1 (![0, 1, 2] : Fin 3 → Fin S4x8x8192x1.rank)
  bcast_S_S4x8x8192x1 : S_.BroadcastsInDim S4x8x8192x1 (![] : Fin 0 → Fin S4x8x8192x1.rank)
  bcast_S4x8x8192x1_S4x8x8192x64_0_1_2_3 : S4x8x8192x1.BroadcastsInDim S4x8x8192x64 (![0, 1, 2, 3] : Fin 4 → Fin S4x8x8192x64.rank)
  bcast_S_S4x8x8192x64 : S_.BroadcastsInDim S4x8x8192x64 (![] : Fin 0 → Fin S4x8x8192x64.rank)
  transposes_S4x8x8192x64_S4x8192x8x64_0_2_1_3 : S4x8x8192x64.Transposes [0, 2, 1, 3] S4x8192x8x64
  shapeCasts_S4x8192x8x64_S4x8192x512 : S4x8192x8x64.ShapeCasts S4x8192x512
  bcast_S256_S1x1x256_2 : S256.BroadcastsInDim S1x1x256 (![2] : Fin 1 → Fin S1x1x256.rank)
  bcast_S1x1x256_S4x8192x256_0_1_2 : S1x1x256.BroadcastsInDim S4x8192x256 (![0, 1, 2] : Fin 3 → Fin S4x8192x256.rank)
  dot_S4x8192x256_S1536x256_S4x8192x1536_2_1_01_0_n_n_wf : DotDims.WF S4x8192x256 S1536x256 S4x8192x1536 [2] [1] [0, 1] [0] [] []
  dot_S4x8x8192x64_S4x8x8192x64_S4x8x64x64_2_2_3_3_01_01_wf : DotDims.WF S4x8x8192x64 S4x8x8192x64 S4x8x64x64 [2] [2] [3] [3] [0, 1] [0, 1]
  dot_S4x8x8192x64_S4x8x64x64_S4x8x8192x64_3_2_2_3_01_01_wf : DotDims.WF S4x8x8192x64 S4x8x64x64 S4x8x8192x64 [3] [2] [2] [3] [0, 1] [0, 1]
  dot_S4x8192x512_S256x512_S4x8192x256_2_1_01_0_n_n_wf : DotDims.WF S4x8192x512 S256x512 S4x8192x256 [2] [1] [0, 1] [0] [] []

variable [Facts₀]

def dot_S4x8192x256_S1536x256_S4x8192x1536_2_1_01_0_n_n : DotDims S4x8192x256 S1536x256 S4x8192x1536 where
  lhsContracting := [2]
  rhsContracting := [1]
  lhsNonContracting := [0, 1]
  rhsNonContracting := [0]
  lhsBatch := []
  rhsBatch := []
  wf := dot_S4x8192x256_S1536x256_S4x8192x1536_2_1_01_0_n_n_wf
def dot_S4x8x8192x64_S4x8x8192x64_S4x8x64x64_2_2_3_3_01_01 : DotDims S4x8x8192x64 S4x8x8192x64 S4x8x64x64 where
  lhsContracting := [2]
  rhsContracting := [2]
  lhsNonContracting := [3]
  rhsNonContracting := [3]
  lhsBatch := [0, 1]
  rhsBatch := [0, 1]
  wf := dot_S4x8x8192x64_S4x8x8192x64_S4x8x64x64_2_2_3_3_01_01_wf
def dot_S4x8x8192x64_S4x8x64x64_S4x8x8192x64_3_2_2_3_01_01 : DotDims S4x8x8192x64 S4x8x64x64 S4x8x8192x64 where
  lhsContracting := [3]
  rhsContracting := [2]
  lhsNonContracting := [2]
  rhsNonContracting := [3]
  lhsBatch := [0, 1]
  rhsBatch := [0, 1]
  wf := dot_S4x8x8192x64_S4x8x64x64_S4x8x8192x64_3_2_2_3_01_01_wf
def dot_S4x8192x512_S256x512_S4x8192x256_2_1_01_0_n_n : DotDims S4x8192x512 S256x512 S4x8192x256 where
  lhsContracting := [2]
  rhsContracting := [1]
  lhsNonContracting := [0, 1]
  rhsNonContracting := [0]
  lhsBatch := []
  rhsBatch := []
  wf := dot_S4x8192x512_S256x512_S4x8192x256_2_1_01_0_n_n_wf

class Facts : Prop extends Facts₀ where

variable [Facts]
-- ==== Proof.KB0Shared.lean ====
/-
  The key-value reduction kernel (the first of the two regions), as the pipeline runs it: what both of its
  control cases share. A grid point is (batch b, head h, sequence tile n) with the tile fastest, so the
  tile is the point's number mod 4. The 64×64 scratch is reset at tile 0, added to at every tile, and at
  tile 3 its product with the head's slice of the output weights, scaled, is stored into the output
  window — which is idle at the other tiles.
-/
import proofs.«123484_j5523327943104_1_alg».proof.Proof.Gen.Kernel.Launch
import proofs.«123484_j5523327943104_1_alg».proof.Proof.Gen.Kernel.Skeleton
import proofs.«123484_j5523327943104_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: when it
    is not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The first branch (reset the scratch): the sequence tile is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (store the output block): the sequence tile is the last, 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last tile the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last tile it is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x64x256 .f32 := win0_4.stage (cfg0.slots t 4)
abbrev hs0_4 (t : Fin cfg0.N) : (ms0_4 t).IsWhole := hstage0_4 ((cfg0.slots t 4).cast nbuf0_4)
/-- The 64×64 scratch accumulator, a whole scoped buffer of the kernel's own. -/
abbrev scM0_0 : Memref sig .tc .vmem S64x64 .f32 := Memref.whole cc0_scratch0
abbrev VS0_0 : View sig .tc .vmem S64x64 .f32 := scM0_0.view
/-- One staging buffer of the output window, through which its contents are stated. -/
abbrev VO0_4 : View sig .tc .vmem S1x1x64x256 .f32 := (Memref.whole cc0_stg4_0 : Memref sig .tc .vmem S1x1x64x256 .f32).view

/-- The scoped buffers the first region does not touch (the second region's staging and scratch), each at
    some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class's invariant, with the scratch as a memref owned at some contents. -/
theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA others0; rw [scopedRest0_eq]; simp only [scM0_0, owns_whole]; try rfl

end Cert.Kernel.Fr

end
-- ==== Proof.KB0RunA.lean ====
/-
  The key-value reduction kernel's body run once, at the first sequence tile: the scratch is reset, then added to; nothing is stored into the output window.
  The pieces each buffer ends with are found by running the body.
-/
import proofs.«123484_j5523327943104_1_alg».proof.Proof.KB0Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs — the four inputs at their contents, the idle output window's buffer at contents handed back untouched, the scratch at anything — runs to the continuation
    holding the inputs as they were and the scratch with its pieces written. -/
noncomputable def kernelRun0_A (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : cond0_0 i) (hc1 : ¬cond0_1 i)
    (x0 : Vec F S1x2048x256 .f32) (x1 : Vec F S1x64x256 .f32) (x2 : Vec F S1x64x256 .f32) (x3 : Vec F S1x64x256 .f32) :
    Σ' (L4 : List (View.Piece (Elt F) S1x1x64x256 .f32)), { LS0 : List (View.Piece (Elt F) S64x64 .f32) //
      ∀ (xi4 : Vec F S1x1x64x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__kv_reduce_kernel i arg3 harg3 arg4 harg4 arg5 harg5 arg6 harg6 arg7 harg7 arg8 harg8) K } := by
  refine ⟨[], ?_, fun xi4 E K => ?run⟩
  case run =>
    simp only [cc0__kv_reduce_kernel_eq_skeleton]; unfold cc0__kv_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Fr

end
-- ==== Proof.KB0RunB.lean ====
/-
  The key-value reduction kernel's body run once, at a middle sequence tile: the scratch is added to; nothing is stored into the output window.
  The pieces each buffer ends with are found by running the body.
-/
import proofs.«123484_j5523327943104_1_alg».proof.Proof.KB0Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs — the four inputs at their contents, the idle output window's buffer at contents handed back untouched, the scratch at what the point before left — runs to the continuation
    holding the inputs as they were and the scratch with its pieces written. -/
noncomputable def kernelRun0_B (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : ¬cond0_0 i) (hc1 : ¬cond0_1 i)
    (x0 : Vec F S1x2048x256 .f32) (x1 : Vec F S1x64x256 .f32) (x2 : Vec F S1x64x256 .f32) (x3 : Vec F S1x64x256 .f32) (xs0 : Vec F S64x64 .f32) :
    Σ' (L4 : List (View.Piece (Elt F) S1x1x64x256 .f32)), { LS0 : List (View.Piece (Elt F) S64x64 .f32) //
      ∀ (xi4 : Vec F S1x1x64x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__kv_reduce_kernel i arg3 harg3 arg4 harg4 arg5 harg5 arg6 harg6 arg7 harg7 arg8 harg8) K } := by
  refine ⟨[], ?_, fun xi4 E K => ?run⟩
  case run =>
    simp only [cc0__kv_reduce_kernel_eq_skeleton]; unfold cc0__kv_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Fr

end
-- ==== Proof.KB0RunC.lean ====
/-
  The key-value reduction kernel's body run once, at the last sequence tile: the scratch is added to, then its scaled product with the weights is stored into the output window.
  The pieces each buffer ends with are found by running the body.
-/
import proofs.«123484_j5523327943104_1_alg».proof.Proof.KB0Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs — the four inputs at their contents, the output window's buffer at anything, the scratch at what the point before left — runs to the continuation
    holding the inputs as they were, the output buffer with its pieces written and the scratch with its pieces written. -/
noncomputable def kernelRun0_C (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : ¬cond0_0 i) (hc1 : cond0_1 i)
    (x0 : Vec F S1x2048x256 .f32) (x1 : Vec F S1x64x256 .f32) (x2 : Vec F S1x64x256 .f32) (x3 : Vec F S1x64x256 .f32) (xs0 : Vec F S64x64 .f32) :
    Σ' (L4 : List (View.Piece (Elt F) S1x1x64x256 .f32)), { LS0 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__kv_reduce_kernel i arg3 harg3 arg4 harg4 arg5 harg5 arg6 harg6 arg7 harg7 arg8 harg8) K } := by
  refine ⟨?_, ?_, fun E K => ?run⟩
  case run =>
    simp only [cc0__kv_reduce_kernel_eq_skeleton]; unfold cc0__kv_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Fr

end
-- ==== Proof.KB0Frame.lean ====
/-
  The key-value reduction kernel over its whole grid: what its scratch and its output window's buffer hold after each
  grid point, by recursion on the point (the scratch is reset at sequence tile 0 and afterwards holds what the
  point before left plus this point's product; the output block is stored at the last sequence tile from the
  scratch), the invariant that carries the scratch between points, the pipeline's proof data, and the
  body's obligation at every point.
-/
import proofs.«123484_j5523327943104_1_alg».proof.Proof.KB0RunA
import proofs.«123484_j5523327943104_1_alg».proof.Proof.KB0RunB
import proofs.«123484_j5523327943104_1_alg».proof.Proof.KB0RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## What each case leaves -/

theorem scover0_A_0 (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : cond0_0 i) (hc1 : ¬cond0_1 i)
    (x0 : Vec F S1x2048x256 .f32) (x1 : Vec F S1x64x256 .f32) (x2 : Vec F S1x64x256 .f32) (x3 : Vec F S1x64x256 .f32) (y : S64x64.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S64x64.size (by sl_kernel_rfl) y
/-- What the scratch holds after the body in this case: its pieces read back. -/
def sout0_A_0 (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : cond0_0 i) (hc1 : ¬cond0_1 i)
    (x0 : Vec F S1x2048x256 .f32) (x1 : Vec F S1x64x256 .f32) (x2 : Vec F S1x64x256 .f32) (x3 : Vec F S1x64x256 .f32) : Vec F S64x64 .f32 :=
  VS0_0.read (Elt F) (VS0_0.writes (Elt F) VS0_0.junk (kernelRun0_A c i arg3 harg3 arg4 harg4 arg5 harg5 arg6 harg6 arg7 harg7 arg8 harg8 hc0 hc1 x0 x1 x2 x3).2.1)
theorem scover0_B_0 (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : ¬cond0_0 i) (hc1 : ¬cond0_1 i)
    (x0 : Vec F S1x2048x256 .f32) (x1 : Vec F S1x64x256 .f32) (x2 : Vec F S1x64x256 .f32) (x3 : Vec F S1x64x256 .f32) (xs0 : Vec F S64x64 .f32) (y : S64x64.Idx) :
    ∃ pc ∈ (kernelRun0_B c i arg3 harg3 arg4 harg4 arg5 harg5 arg6 harg6 arg7 harg7 arg8 harg8 hc0 hc1 x0 x1 x2 x3 xs0).2.1, y ∈ pc.1.set :=
  View.cover_of_tiledL (kernelRun0_B c i arg3 harg3 arg4 harg4 arg5 harg5 arg6 harg6 arg7 harg7 arg8 harg8 hc0 hc1 x0 x1 x2 x3 xs0).2.1 S64x64.size (by sl_kernel_rfl) y
/-- What the scratch holds after the body in this case: its pieces read back. -/
def sout0_B_0 (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : ¬cond0_0 i) (hc1 : ¬cond0_1 i)
    (x0 : Vec F S1x2048x256 .f32) (x1 : Vec F S1x64x256 .f32) (x2 : Vec F S1x64x256 .f32) (x3 : Vec F S1x64x256 .f32) (xs0 : Vec F S64x64 .f32) : Vec F S64x64 .f32 :=
  VS0_0.read (Elt F) (VS0_0.writes (Elt F) VS0_0.junk (kernelRun0_B c i arg3 harg3 arg4 harg4 arg5 harg5 arg6 harg6 arg7 harg7 arg8 harg8 hc0 hc1 x0 x1 x2 x3 xs0).2.1)
theorem cover0_C_4 (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : ¬cond0_0 i) (hc1 : cond0_1 i)
    (x0 : Vec F S1x2048x256 .f32) (x1 : Vec F S1x64x256 .f32) (x2 : Vec F S1x64x256 .f32) (x3 : Vec F S1x64x256 .f32) (xs0 : Vec F S64x64 .f32) (y : S1x1x64x256.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S1x1x64x256.size (by sl_kernel_rfl) y
/-- What the output window's buffer holds after the body at the last sequence tile: its pieces read back. -/
def out0_C_4 (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : ¬cond0_0 i) (hc1 : cond0_1 i)
    (x0 : Vec F S1x2048x256 .f32) (x1 : Vec F S1x64x256 .f32) (x2 : Vec F S1x64x256 .f32) (x3 : Vec F S1x64x256 .f32) (xs0 : Vec F S64x64 .f32) : Vec F S1x1x64x256 .f32 :=
  VO0_4.read (Elt F) (VO0_4.writes (Elt F) VO0_4.junk (kernelRun0_C c i arg3 harg3 arg4 harg4 arg5 harg5 arg6 harg6 arg7 harg7 arg8 harg8 hc0 hc1 x0 x1 x2 x3 xs0).1)
theorem scover0_C_0 (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : ¬cond0_0 i) (hc1 : cond0_1 i)
    (x0 : Vec F S1x2048x256 .f32) (x1 : Vec F S1x64x256 .f32) (x2 : Vec F S1x64x256 .f32) (x3 : Vec F S1x64x256 .f32) (xs0 : Vec F S64x64 .f32) (y : S64x64.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S64x64.size (by sl_kernel_rfl) y
/-- What the scratch holds after the body in this case: its pieces read back. -/
def sout0_C_0 (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : ¬cond0_0 i) (hc1 : cond0_1 i)
    (x0 : Vec F S1x2048x256 .f32) (x1 : Vec F S1x64x256 .f32) (x2 : Vec F S1x64x256 .f32) (x3 : Vec F S1x64x256 .f32) (xs0 : Vec F S64x64 .f32) : Vec F S64x64 .f32 :=
  VS0_0.read (Elt F) (VS0_0.writes (Elt F) VS0_0.junk (kernelRun0_C c i arg3 harg3 arg4 harg4 arg5 harg5 arg6 harg6 arg7 harg7 arg8 harg8 hc0 hc1 x0 x1 x2 x3 xs0).2.1)

/-! ## What the buffers hold after each point -/

/-- After the body at position `n`: the output window's buffer (a placeholder where the window is idle) and the
    scratch — the case the point's sequence tile selects, run on the point's blocks and on what the point before left in
    the scratch. -/
def outsAt0 (c : Dev nD) : (n : ℕ) → n < cfg0.N → Vec F S1x1x64x256 .f32 × Vec F S64x64 .f32
  | 0, hn => ((VO0_4.read (Elt F) VO0_4.junk), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 4 = 0 then
      if h1 : (n + 1) % 4 = 3 then
        False.elim (by omega)
      else
        ((VO0_4.read (Elt F) VO0_4.junk), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        ((VO0_4.read (Elt F) VO0_4.junk), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

set_option maxHeartbeats 2000000 in
theorem outsAt0_A (c : Dev nD) (t : Fin cfg0.N) (h0 : t.val % 4 = 0) (h1 : ¬t.val % 4 = 3) :
    outsAt0 V c t.val t.isLt = ((VO0_4.read (Elt F) VO0_4.junk), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

set_option maxHeartbeats 2000000 in
theorem outsAt0_B (c : Dev nD) (t : Fin cfg0.N) (h0 : ¬t.val % 4 = 0) (h1 : ¬t.val % 4 = 3) :
    outsAt0 V c t.val t.isLt = ((VO0_4.read (Elt F) VO0_4.junk), sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

set_option maxHeartbeats 2000000 in
theorem outsAt0_C (c : Dev nD) (t : Fin cfg0.N) (h0 : ¬t.val % 4 = 0) (h1 : t.val % 4 = 3) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carried between points -/

/-- Before the first point: the scoped buffers at anything. Afterwards: the scratch at what the point before
    left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ others0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 (F := F) c) ∗ (∃ r, prngReg c r)) := by
  cases n with
  | zero => exact absurd rfl hz
  | succ n => rfl

/-! ## The pipeline's proof data -/

/-- The arrays as the region finds them; after the body at a point each input's buffer at its block and the output's
    at `outsAt0`; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' buffers hold their blocks; the point's sequence tile says which case applies; the
    invariant hands the body the scratch at what the point before left (at anything at the first point) and takes it
    back at this point's contents; nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_4 sout0_C_0; (try dsimp only)
      by_cases hz : t.val = 0
      · exfalso; omega
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS0, Hoth⟩, Hg⟩
  isplitl [HS0 Hoth]
  · isplitl [HS0]
    · iexists _; iexact HS0
    iexact Hoth
  iexact Hg

end Region0

end Cert.Kernel.Fr

end
-- ==== Proof.KB1Shared.lean ====
/-
  The query-application kernel (the second region), as the pipeline runs it: what its control cases share.
  A grid point is (batch b, sequence tile n, head h) with the head fastest, so the head is the point's
  number mod 8. The 2048×256 scratch is reset at head 0, added to at every head, and at head 7 the scratch
  plus the bias row is stored into the output window — which is idle at the other heads.
-/
import proofs.«123484_j5523327943104_1_alg».proof.Proof.Gen.Kernel.Launch
import proofs.«123484_j5523327943104_1_alg».proof.Proof.Gen.Kernel.Skeleton
import proofs.«123484_j5523327943104_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-- The first branch (reset the scratch): the head is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second branch (store the output block): the head is the last, 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last head the output window is idle and is not written back; at the last head it is live. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

abbrev ms1_0 (t : Fin cfg1.N) : Memref sig .tc .vmem S1x2048x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x64x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2048x256 .f32 := win1_4.stage (cfg1.slots t 4)
abbrev hs1_4 (t : Fin cfg1.N) : (ms1_4 t).IsWhole := hstage1_4 ((cfg1.slots t 4).cast nbuf1_4)
/-- The 2048×256 scratch accumulator, a whole scoped buffer of the kernel's own. -/
abbrev scM1_0 : Memref sig .tc .vmem S2048x256 .f32 := Memref.whole cc1_scratch0
abbrev VS1_0 : View sig .tc .vmem S2048x256 .f32 := scM1_0.view
abbrev VO1_4 : View sig .tc .vmem S1x2048x256 .f32 := (Memref.whole cc1_stg4_0 : Memref sig .tc .vmem S1x2048x256 .f32).view

/-- The scoped buffers the second region does not touch (the first region's staging and scratch), each at
    some contents, beside what is said of the second region's scratch (`S`). -/
def rest1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ S)

/-- The class's invariant, with the scratch as a memref owned at some contents. -/
theorem PhiA1_eq (c : Dev nD) :
    (Pipeline.ΦA spec1 c : sProp 𝕄)
      = iprop(rest1 (F := F) c iprop(∃ d, owns (c : Thread nD τ) scM1_0 fullShare d) ∗ (∃ r, prngReg c r)) := by
  unfold Pipeline.ΦA rest1; rw [scopedRest1_eq]; simp only [scM1_0, owns_whole]; try rfl

end Cert.Kernel.Fr

end
-- ==== Proof.KB1RunA.lean ====
/-
  The query-application kernel's body run once, at the first head: the scratch is reset, then added to; nothing is stored into the output window.
  The pieces each buffer ends with are found by running the body.
-/
import proofs.«123484_j5523327943104_1_alg».proof.Proof.KB1Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs — the four inputs at their contents, the idle output window's buffer at contents handed back untouched, the scratch at anything — runs to the continuation
    holding the inputs as they were and the scratch with its pieces written. -/
noncomputable def kernelRun1_A (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : cond1_0 i) (hc1 : ¬cond1_1 i)
    (x0 : Vec F S1x2048x256 .f32) (x1 : Vec F S1x64x256 .f32) (x2 : Vec F S1x1x64x256 .f32) (x3 : Vec F S1x256 .f32) :
    Σ' (L4 : List (View.Piece (Elt F) S1x2048x256 .f32)), { LS0 : List (View.Piece (Elt F) S2048x256 .f32) //
      ∀ (xi4 : Vec F S1x2048x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__apply_q_kernel i arg3 harg3 arg4 harg4 arg5 harg5 arg6 harg6 arg7 harg7 arg8 harg8) K } := by
  refine ⟨[], ?_, fun xi4 E K => ?run⟩
  case run =>
    simp only [cc1__apply_q_kernel_eq_skeleton]; unfold cc1__apply_q_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Fr

end
-- ==== Proof.KB1RunB.lean ====
/-
  The query-application kernel's body run once, at a middle head: the scratch is added to; nothing is stored into the output window.
  The pieces each buffer ends with are found by running the body.
-/
import proofs.«123484_j5523327943104_1_alg».proof.Proof.KB1Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs — the four inputs at their contents, the idle output window's buffer at contents handed back untouched, the scratch at what the point before left — runs to the continuation
    holding the inputs as they were and the scratch with its pieces written. -/
noncomputable def kernelRun1_B (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : ¬cond1_0 i) (hc1 : ¬cond1_1 i)
    (x0 : Vec F S1x2048x256 .f32) (x1 : Vec F S1x64x256 .f32) (x2 : Vec F S1x1x64x256 .f32) (x3 : Vec F S1x256 .f32) (xs0 : Vec F S2048x256 .f32) :
    Σ' (L4 : List (View.Piece (Elt F) S1x2048x256 .f32)), { LS0 : List (View.Piece (Elt F) S2048x256 .f32) //
      ∀ (xi4 : Vec F S1x2048x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__apply_q_kernel i arg3 harg3 arg4 harg4 arg5 harg5 arg6 harg6 arg7 harg7 arg8 harg8) K } := by
  refine ⟨[], ?_, fun xi4 E K => ?run⟩
  case run =>
    simp only [cc1__apply_q_kernel_eq_skeleton]; unfold cc1__apply_q_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Fr

end
-- ==== Proof.KB1RunC.lean ====
/-
  The query-application kernel's body run once, at the last head: the scratch is added to, then the scratch plus the bias row is stored into the output window.
  The pieces each buffer ends with are found by running the body.
-/
import proofs.«123484_j5523327943104_1_alg».proof.Proof.KB1Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs — the four inputs at their contents, the output window's buffer at anything, the scratch at what the point before left — runs to the continuation
    holding the inputs as they were, the output buffer with its pieces written and the scratch with its pieces written. -/
noncomputable def kernelRun1_C (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : ¬cond1_0 i) (hc1 : cond1_1 i)
    (x0 : Vec F S1x2048x256 .f32) (x1 : Vec F S1x64x256 .f32) (x2 : Vec F S1x1x64x256 .f32) (x3 : Vec F S1x256 .f32) (xs0 : Vec F S2048x256 .f32) :
    Σ' (L4 : List (View.Piece (Elt F) S1x2048x256 .f32)), { LS0 : List (View.Piece (Elt F) S2048x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__apply_q_kernel i arg3 harg3 arg4 harg4 arg5 harg5 arg6 harg6 arg7 harg7 arg8 harg8) K } := by
  refine ⟨?_, ?_, fun E K => ?run⟩
  case run =>
    simp only [cc1__apply_q_kernel_eq_skeleton]; unfold cc1__apply_q_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Fr

end
-- ==== Proof.KB1Frame.lean ====
/-
  The query-application kernel over its whole grid: what its scratch and its output window's buffer hold after each
  grid point, by recursion on the point (the scratch is reset at head 0 and afterwards holds what the
  point before left plus this point's product; the output block is stored at the last head from the
  scratch), the invariant that carries the scratch between points, the pipeline's proof data, and the
  body's obligation at every point.
-/
import proofs.«123484_j5523327943104_1_alg».proof.Proof.KB1RunA
import proofs.«123484_j5523327943104_1_alg».proof.Proof.KB1RunB
import proofs.«123484_j5523327943104_1_alg».proof.Proof.KB1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## What each case leaves -/

theorem scover1_A_0 (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : cond1_0 i) (hc1 : ¬cond1_1 i)
    (x0 : Vec F S1x2048x256 .f32) (x1 : Vec F S1x64x256 .f32) (x2 : Vec F S1x1x64x256 .f32) (x3 : Vec F S1x256 .f32) (y : S2048x256.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S2048x256.size (by sl_kernel_rfl) y
/-- What the scratch holds after the body in this case: its pieces read back. -/
def sout1_A_0 (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : cond1_0 i) (hc1 : ¬cond1_1 i)
    (x0 : Vec F S1x2048x256 .f32) (x1 : Vec F S1x64x256 .f32) (x2 : Vec F S1x1x64x256 .f32) (x3 : Vec F S1x256 .f32) : Vec F S2048x256 .f32 :=
  VS1_0.read (Elt F) (VS1_0.writes (Elt F) VS1_0.junk (kernelRun1_A c i arg3 harg3 arg4 harg4 arg5 harg5 arg6 harg6 arg7 harg7 arg8 harg8 hc0 hc1 x0 x1 x2 x3).2.1)
theorem scover1_B_0 (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : ¬cond1_0 i) (hc1 : ¬cond1_1 i)
    (x0 : Vec F S1x2048x256 .f32) (x1 : Vec F S1x64x256 .f32) (x2 : Vec F S1x1x64x256 .f32) (x3 : Vec F S1x256 .f32) (xs0 : Vec F S2048x256 .f32) (y : S2048x256.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S2048x256.size (by sl_kernel_rfl) y
/-- What the scratch holds after the body in this case: its pieces read back. -/
def sout1_B_0 (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : ¬cond1_0 i) (hc1 : ¬cond1_1 i)
    (x0 : Vec F S1x2048x256 .f32) (x1 : Vec F S1x64x256 .f32) (x2 : Vec F S1x1x64x256 .f32) (x3 : Vec F S1x256 .f32) (xs0 : Vec F S2048x256 .f32) : Vec F S2048x256 .f32 :=
  VS1_0.read (Elt F) (VS1_0.writes (Elt F) VS1_0.junk (kernelRun1_B c i arg3 harg3 arg4 harg4 arg5 harg5 arg6 harg6 arg7 harg7 arg8 harg8 hc0 hc1 x0 x1 x2 x3 xs0).2.1)
theorem cover1_C_4 (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : ¬cond1_0 i) (hc1 : cond1_1 i)
    (x0 : Vec F S1x2048x256 .f32) (x1 : Vec F S1x64x256 .f32) (x2 : Vec F S1x1x64x256 .f32) (x3 : Vec F S1x256 .f32) (xs0 : Vec F S2048x256 .f32) (y : S1x2048x256.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1x2048x256.size (by sl_kernel_rfl) y
/-- What the output window's buffer holds after the body at the last head: its pieces read back. -/
def out1_C_4 (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : ¬cond1_0 i) (hc1 : cond1_1 i)
    (x0 : Vec F S1x2048x256 .f32) (x1 : Vec F S1x64x256 .f32) (x2 : Vec F S1x1x64x256 .f32) (x3 : Vec F S1x256 .f32) (xs0 : Vec F S2048x256 .f32) : Vec F S1x2048x256 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)
theorem scover1_C_0 (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : ¬cond1_0 i) (hc1 : cond1_1 i)
    (x0 : Vec F S1x2048x256 .f32) (x1 : Vec F S1x64x256 .f32) (x2 : Vec F S1x1x64x256 .f32) (x3 : Vec F S1x256 .f32) (xs0 : Vec F S2048x256 .f32) (y : S2048x256.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S2048x256.size (by sl_kernel_rfl) y
/-- What the scratch holds after the body in this case: its pieces read back. -/
def sout1_C_0 (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : ¬cond1_0 i) (hc1 : cond1_1 i)
    (x0 : Vec F S1x2048x256 .f32) (x1 : Vec F S1x64x256 .f32) (x2 : Vec F S1x1x64x256 .f32) (x3 : Vec F S1x256 .f32) (xs0 : Vec F S2048x256 .f32) : Vec F S2048x256 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)

/-! ## What the buffers hold after each point -/

/-- After the body at position `n`: the output window's buffer (a placeholder where the window is idle) and the
    scratch — the case the point's head selects, run on the point's blocks and on what the point before left in
    the scratch. -/
def outsAt1 (c : Dev nD) : (n : ℕ) → n < cfg1.N → Vec F S1x2048x256 .f32 × Vec F S2048x256 .f32
  | 0, hn => ((VO1_4.read (Elt F) VO1_4.junk), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        ((VO1_4.read (Elt F) VO1_4.junk), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        ((VO1_4.read (Elt F) VO1_4.junk), sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

set_option maxHeartbeats 2000000 in
theorem outsAt1_A (c : Dev nD) (t : Fin cfg1.N) (h0 : t.val % 8 = 0) (h1 : ¬t.val % 8 = 7) :
    outsAt1 V c t.val t.isLt = ((VO1_4.read (Elt F) VO1_4.junk), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

set_option maxHeartbeats 2000000 in
theorem outsAt1_B (c : Dev nD) (t : Fin cfg1.N) (h0 : ¬t.val % 8 = 0) (h1 : ¬t.val % 8 = 7) :
    outsAt1 V c t.val t.isLt = ((VO1_4.read (Elt F) VO1_4.junk), sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

set_option maxHeartbeats 2000000 in
theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carried between points -/

/-- Before the first point: the scoped buffers at anything. Afterwards: the scratch at what the point before
    left, the other scoped buffers at anything, the generator register at some state. -/
def PhiS1 (c : Dev nD) : (n : ℕ) → n ≤ cfg1.N → sProp 𝕄
  | 0, _ => Pipeline.ΦA spec1 c
  | n + 1, hn => iprop(rest1 (F := F) c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(rest1 (F := F) c (owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(rest1 (F := F) c (owns (c : Thread nD τ) scM1_0 fullShare ((outsAt1 V c (n - 1) (by omega)).2)) ∗ (∃ r, prngReg c r)) := by
  cases n with
  | zero => exact absurd rfl hz
  | succ n => rfl

/-! ## The pipeline's proof data -/

/-- The arrays as the region finds them; after the body at a point each input's buffer at its block and the output's
    at `outsAt1`; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' buffers hold their blocks; the point's head says which case applies; the
    invariant hands the body the scratch at what the point before left (at anything at the first point) and takes it
    back at this point's contents; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        unfold rest1; iintro ⟨⟨⟨HB0, HB1, HB2, HB3, HB4, HB5, HB6, HB7, HB8, HB9, HB10, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HB0 HB1 HB2 HB3 HB4 HB5 HB6 HB7 HB8 HB9 HB10 Hg]
        · isplitl [HS0 HB0 HB1 HB2 HB3 HB4 HB5 HB6 HB7 HB8 HB9 HB10]
          · skip
            isplitl [HB0]; · iexact HB0
            isplitl [HB1]; · iexact HB1
            isplitl [HB2]; · iexact HB2
            isplitl [HB3]; · iexact HB3
            isplitl [HB4]; · iexact HB4
            isplitl [HB5]; · iexact HB5
            isplitl [HB6]; · iexact HB6
            isplitl [HB7]; · iexact HB7
            isplitl [HB8]; · iexact HB8
            isplitl [HB9]; · iexact HB9
            isplitl [HB10]; · iexact HB10
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        unfold rest1; iintro ⟨⟨⟨HB0, HB1, HB2, HB3, HB4, HB5, HB6, HB7, HB8, HB9, HB10, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HB0 HB1 HB2 HB3 HB4 HB5 HB6 HB7 HB8 HB9 HB10 Hg]
        · isplitl [HS0 HB0 HB1 HB2 HB3 HB4 HB5 HB6 HB7 HB8 HB9 HB10]
          · skip
            isplitl [HB0]; · iexact HB0
            isplitl [HB1]; · iexact HB1
            isplitl [HB2]; · iexact HB2
            isplitl [HB3]; · iexact HB3
            isplitl [HB4]; · iexact HB4
            isplitl [HB5]; · iexact HB5
            isplitl [HB6]; · iexact HB6
            isplitl [HB7]; · iexact HB7
            isplitl [HB8]; · iexact HB8
            isplitl [HB9]; · iexact HB9
            isplitl [HB10]; · iexact HB10
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C_0; (try dsimp only)
      by_cases hz : t.val = 0
      · exfalso; omega
      · rw [PhiS1_castSucc V c t, PhiS1_pos V c _ _ hz]
        unfold rest1; iintro ⟨⟨⟨HB0, HB1, HB2, HB3, HB4, HB5, HB6, HB7, HB8, HB9, HB10, HS0⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HB0 HB1 HB2 HB3 HB4 HB5 HB6 HB7 HB8 HB9 HB10 Hg]
        · isplitl [HS0 HB0 HB1 HB2 HB3 HB4 HB5 HB6 HB7 HB8 HB9 HB10]
          · skip
            isplitl [HB0]; · iexact HB0
            isplitl [HB1]; · iexact HB1
            isplitl [HB2]; · iexact HB2
            isplitl [HB3]; · iexact HB3
            isplitl [HB4]; · iexact HB4
            isplitl [HB5]; · iexact HB5
            isplitl [HB6]; · iexact HB6
            isplitl [HB7]; · iexact HB7
            isplitl [HB8]; · iexact HB8
            isplitl [HB9]; · iexact HB9
            isplitl [HB10]; · iexact HB10
            unfold owns; iexists _; isplitr
            swap; · iexact HS0
            ipureintro; exact View.read_writes_of_cover _ _ _ _ _ (scover1_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        unfold rest1; iintro ⟨⟨⟨HB0, HB1, HB2, HB3, HB4, HB5, HB6, HB7, HB8, HB9, HB10, HS0⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HB0 HB1 HB2 HB3 HB4 HB5 HB6 HB7 HB8 HB9 HB10 Hg]
        · isplitl [HS0 HB0 HB1 HB2 HB3 HB4 HB5 HB6 HB7 HB8 HB9 HB10]
          · skip
            isplitl [HB0]; · iexact HB0
            isplitl [HB1]; · iexact HB1
            isplitl [HB2]; · iexact HB2
            isplitl [HB3]; · iexact HB3
            isplitl [HB4]; · iexact HB4
            isplitl [HB5]; · iexact HB5
            isplitl [HB6]; · iexact HB6
            isplitl [HB7]; · iexact HB7
            isplitl [HB8]; · iexact HB8
            isplitl [HB9]; · iexact HB9
            isplitl [HB10]; · iexact HB10
            unfold owns; iexists _; isplitr
            swap; · iexact HS0
            ipureintro; exact View.read_writes_of_cover _ _ _ _ _ (scover1_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  unfold rest1
  iintro ⟨⟨HB0, HB1, HB2, HB3, HB4, HB5, HB6, HB7, HB8, HB9, HB10, HS0⟩, Hg⟩
  isplitl [HS0 HB0 HB1 HB2 HB3 HB4 HB5 HB6 HB7 HB8 HB9 HB10]
  · isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    isplitl [HB8]; · iexact HB8
    isplitl [HB9]; · iexact HB9
    isplitl [HB10]; · iexact HB10
    iexists _; iexact HS0
  iexact Hg

end Region1

end Cert.Kernel.Fr

end
-- ==== Proof.KBRun.lean ====
/-
  The whole program run: the host stretch (the weight slices, reshapes and the transpose), the key-value reduction
  region, the query-application region. The contents of every unscoped buffer are followed through the three items;
  every weakly fair execution terminates with each unscoped buffer at the last of these contents — in particular the
  arguments as launched and the result array at what the second region's pipeline leaves.
-/
import proofs.«123484_j5523327943104_1_alg».proof.Proof.KB0Frame
import proofs.«123484_j5523327943104_1_alg».proof.Proof.KB1Frame
import proofs.«123484_j5523327943104_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit (it is entered straight from the first's exit). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

/-- The first argument is an input window's array in both regions: each leaves it as it found it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
/-- No region stages argument 1 and no host operation writes it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
/-- No region stages argument 2 and no host operation writes it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
/-- No region stages argument 3 and no host operation writes it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The result array at the end is what the second region's pipeline leaves in its output window's array. -/
theorem W3_main_v10 (c : Dev nD) : W3 m ρ c (Proc.devRef .tc main_v10) = (dat1 (V2 m ρ) c).arrAt 4 cfg1.N :=
  W3_arr m ρ c 4

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at the exit contents; the generator register goes into the invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of the program terminates, nothing faulting, with every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The value run: the result array ends at what the second region's pipeline leaves, the arguments as launched. -/
theorem run_value : θ_run defs (onTc (τ := τ) (main (F := F))) ⟨m, fun _ => 0, ρ⟩ (fun r => ∀ c : Dev nD,
      r.2.mem ((c.tc : Thread nD τ).loc main_v10) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v10 (by decide))).trans (W3_main_v10 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Fr

end
-- ==== Proof.KI0Shared.lean ====
/-
  The key-value reduction kernel (the first of the two regions), as the pipeline runs it: what both of its
  control cases share. A grid point is (batch b, head h, sequence tile n) with the tile fastest, so the
  tile is the point's number mod 4. The 64×64 scratch is reset at tile 0, added to at every tile, and at
  tile 3 its product with the head's slice of the output weights, scaled, is stored into the output
  window — which is idle at the other tiles.
-/
import proofs.«123484_j5523327943104_1_alg».proof.Proof.Gen.KernelIdeal.Launch
import proofs.«123484_j5523327943104_1_alg».proof.Proof.Gen.KernelIdeal.Skeleton
import proofs.«123484_j5523327943104_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: when it
    is not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The first branch (reset the scratch): the sequence tile is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (store the output block): the sequence tile is the last, 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last tile the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last tile it is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x64x256 .f32 := win0_4.stage (cfg0.slots t 4)
abbrev hs0_4 (t : Fin cfg0.N) : (ms0_4 t).IsWhole := hstage0_4 ((cfg0.slots t 4).cast nbuf0_4)
/-- The 64×64 scratch accumulator, a whole scoped buffer of the kernel's own. -/
abbrev scM0_0 : Memref sig .tc .vmem S64x64 .f32 := Memref.whole cc0_scratch0
abbrev VS0_0 : View sig .tc .vmem S64x64 .f32 := scM0_0.view
/-- One staging buffer of the output window, through which its contents are stated. -/
abbrev VO0_4 : View sig .tc .vmem S1x1x64x256 .f32 := (Memref.whole cc0_stg4_0 : Memref sig .tc .vmem S1x1x64x256 .f32).view

/-- The scoped buffers the first region does not touch (the second region's staging and scratch), each at
    some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class's invariant, with the scratch as a memref owned at some contents. -/
theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA others0; rw [scopedRest0_eq]; simp only [scM0_0, owns_whole]; try rfl

end Cert.KernelIdeal.Fr

end
-- ==== Proof.KI0RunA.lean ====
/-
  The key-value reduction kernel's body run once, at the first sequence tile: the scratch is reset, then added to; nothing is stored into the output window.
  The pieces each buffer ends with are found by running the body.
-/
import proofs.«123484_j5523327943104_1_alg».proof.Proof.KI0Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs — the four inputs at their contents, the idle output window's buffer at contents handed back untouched, the scratch at anything — runs to the continuation
    holding the inputs as they were and the scratch with its pieces written. -/
noncomputable def kernelRun0_A (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : cond0_0 i) (hc1 : ¬cond0_1 i)
    (x0 : Vec F S1x2048x256 .f32) (x1 : Vec F S1x64x256 .f32) (x2 : Vec F S1x64x256 .f32) (x3 : Vec F S1x64x256 .f32) :
    Σ' (L4 : List (View.Piece (Elt F) S1x1x64x256 .f32)), { LS0 : List (View.Piece (Elt F) S64x64 .f32) //
      ∀ (xi4 : Vec F S1x1x64x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__kv_reduce_kernel i arg3 harg3 arg4 harg4 arg5 harg5 arg6 harg6 arg7 harg7 arg8 harg8) K } := by
  refine ⟨[], ?_, fun xi4 E K => ?run⟩
  case run =>
    simp only [cc0__kv_reduce_kernel_eq_skeleton]; unfold cc0__kv_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.KI0RunB.lean ====
/-
  The key-value reduction kernel's body run once, at a middle sequence tile: the scratch is added to; nothing is stored into the output window.
  The pieces each buffer ends with are found by running the body.
-/
import proofs.«123484_j5523327943104_1_alg».proof.Proof.KI0Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs — the four inputs at their contents, the idle output window's buffer at contents handed back untouched, the scratch at what the point before left — runs to the continuation
    holding the inputs as they were and the scratch with its pieces written. -/
noncomputable def kernelRun0_B (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : ¬cond0_0 i) (hc1 : ¬cond0_1 i)
    (x0 : Vec F S1x2048x256 .f32) (x1 : Vec F S1x64x256 .f32) (x2 : Vec F S1x64x256 .f32) (x3 : Vec F S1x64x256 .f32) (xs0 : Vec F S64x64 .f32) :
    Σ' (L4 : List (View.Piece (Elt F) S1x1x64x256 .f32)), { LS0 : List (View.Piece (Elt F) S64x64 .f32) //
      ∀ (xi4 : Vec F S1x1x64x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__kv_reduce_kernel i arg3 harg3 arg4 harg4 arg5 harg5 arg6 harg6 arg7 harg7 arg8 harg8) K } := by
  refine ⟨[], ?_, fun xi4 E K => ?run⟩
  case run =>
    simp only [cc0__kv_reduce_kernel_eq_skeleton]; unfold cc0__kv_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.KI0RunC.lean ====
/-
  The key-value reduction kernel's body run once, at the last sequence tile: the scratch is added to, then its scaled product with the weights is stored into the output window.
  The pieces each buffer ends with are found by running the body.
-/
import proofs.«123484_j5523327943104_1_alg».proof.Proof.KI0Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs — the four inputs at their contents, the output window's buffer at anything, the scratch at what the point before left — runs to the continuation
    holding the inputs as they were, the output buffer with its pieces written and the scratch with its pieces written. -/
noncomputable def kernelRun0_C (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : ¬cond0_0 i) (hc1 : cond0_1 i)
    (x0 : Vec F S1x2048x256 .f32) (x1 : Vec F S1x64x256 .f32) (x2 : Vec F S1x64x256 .f32) (x3 : Vec F S1x64x256 .f32) (xs0 : Vec F S64x64 .f32) :
    Σ' (L4 : List (View.Piece (Elt F) S1x1x64x256 .f32)), { LS0 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__kv_reduce_kernel i arg3 harg3 arg4 harg4 arg5 harg5 arg6 harg6 arg7 harg7 arg8 harg8) K } := by
  refine ⟨?_, ?_, fun E K => ?run⟩
  case run =>
    simp only [cc0__kv_reduce_kernel_eq_skeleton]; unfold cc0__kv_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Fr

end
-- ==== Proof.KI0Frame.lean ====
/-
  The key-value reduction kernel over its whole grid: what its scratch and its output window's buffer hold after each
  grid point, by recursion on the point (the scratch is reset at sequence tile 0 and afterwards holds what the
  point before left plus this point's product; the output block is stored at the last sequence tile from the
  scratch), the invariant that carries the scratch between points, the pipeline's proof data, and the
  body's obligation at every point.
-/
import proofs.«123484_j5523327943104_1_alg».proof.Proof.KI0RunA
import proofs.«123484_j5523327943104_1_alg».proof.Proof.KI0RunB
import proofs.«123484_j5523327943104_1_alg».proof.Proof.KI0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## What each case leaves -/

theorem scover0_A_0 (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : cond0_0 i) (hc1 : ¬cond0_1 i)
    (x0 : Vec F S1x2048x256 .f32) (x1 : Vec F S1x64x256 .f32) (x2 : Vec F S1x64x256 .f32) (x3 : Vec F S1x64x256 .f32) (y : S64x64.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S64x64.size (by sl_kernel_rfl) y
/-- What the scratch holds after the body in this case: its pieces read back. -/
def sout0_A_0 (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : cond0_0 i) (hc1 : ¬cond0_1 i)
    (x0 : Vec F S1x2048x256 .f32) (x1 : Vec F S1x64x256 .f32) (x2 : Vec F S1x64x256 .f32) (x3 : Vec F S1x64x256 .f32) : Vec F S64x64 .f32 :=
  VS0_0.read (Elt F) (VS0_0.writes (Elt F) VS0_0.junk (kernelRun0_A c i arg3 harg3 arg4 harg4 arg5 harg5 arg6 harg6 arg7 harg7 arg8 harg8 hc0 hc1 x0 x1 x2 x3).2.1)
theorem scover0_B_0 (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : ¬cond0_0 i) (hc1 : ¬cond0_1 i)
    (x0 : Vec F S1x2048x256 .f32) (x1 : Vec F S1x64x256 .f32) (x2 : Vec F S1x64x256 .f32) (x3 : Vec F S1x64x256 .f32) (xs0 : Vec F S64x64 .f32) (y : S64x64.Idx) :
    ∃ pc ∈ (kernelRun0_B c i arg3 harg3 arg4 harg4 arg5 harg5 arg6 harg6 arg7 harg7 arg8 harg8 hc0 hc1 x0 x1 x2 x3 xs0).2.1, y ∈ pc.1.set :=
  View.cover_of_tiledL (kernelRun0_B c i arg3 harg3 arg4 harg4 arg5 harg5 arg6 harg6 arg7 harg7 arg8 harg8 hc0 hc1 x0 x1 x2 x3 xs0).2.1 S64x64.size (by sl_kernel_rfl) y
/-- What the scratch holds after the body in this case: its pieces read back. -/
def sout0_B_0 (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : ¬cond0_0 i) (hc1 : ¬cond0_1 i)
    (x0 : Vec F S1x2048x256 .f32) (x1 : Vec F S1x64x256 .f32) (x2 : Vec F S1x64x256 .f32) (x3 : Vec F S1x64x256 .f32) (xs0 : Vec F S64x64 .f32) : Vec F S64x64 .f32 :=
  VS0_0.read (Elt F) (VS0_0.writes (Elt F) VS0_0.junk (kernelRun0_B c i arg3 harg3 arg4 harg4 arg5 harg5 arg6 harg6 arg7 harg7 arg8 harg8 hc0 hc1 x0 x1 x2 x3 xs0).2.1)
theorem cover0_C_4 (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : ¬cond0_0 i) (hc1 : cond0_1 i)
    (x0 : Vec F S1x2048x256 .f32) (x1 : Vec F S1x64x256 .f32) (x2 : Vec F S1x64x256 .f32) (x3 : Vec F S1x64x256 .f32) (xs0 : Vec F S64x64 .f32) (y : S1x1x64x256.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S1x1x64x256.size (by sl_kernel_rfl) y
/-- What the output window's buffer holds after the body at the last sequence tile: its pieces read back. -/
def out0_C_4 (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : ¬cond0_0 i) (hc1 : cond0_1 i)
    (x0 : Vec F S1x2048x256 .f32) (x1 : Vec F S1x64x256 .f32) (x2 : Vec F S1x64x256 .f32) (x3 : Vec F S1x64x256 .f32) (xs0 : Vec F S64x64 .f32) : Vec F S1x1x64x256 .f32 :=
  VO0_4.read (Elt F) (VO0_4.writes (Elt F) VO0_4.junk (kernelRun0_C c i arg3 harg3 arg4 harg4 arg5 harg5 arg6 harg6 arg7 harg7 arg8 harg8 hc0 hc1 x0 x1 x2 x3 xs0).1)
theorem scover0_C_0 (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : ¬cond0_0 i) (hc1 : cond0_1 i)
    (x0 : Vec F S1x2048x256 .f32) (x1 : Vec F S1x64x256 .f32) (x2 : Vec F S1x64x256 .f32) (x3 : Vec F S1x64x256 .f32) (xs0 : Vec F S64x64 .f32) (y : S64x64.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S64x64.size (by sl_kernel_rfl) y
/-- What the scratch holds after the body in this case: its pieces read back. -/
def sout0_C_0 (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : ¬cond0_0 i) (hc1 : cond0_1 i)
    (x0 : Vec F S1x2048x256 .f32) (x1 : Vec F S1x64x256 .f32) (x2 : Vec F S1x64x256 .f32) (x3 : Vec F S1x64x256 .f32) (xs0 : Vec F S64x64 .f32) : Vec F S64x64 .f32 :=
  VS0_0.read (Elt F) (VS0_0.writes (Elt F) VS0_0.junk (kernelRun0_C c i arg3 harg3 arg4 harg4 arg5 harg5 arg6 harg6 arg7 harg7 arg8 harg8 hc0 hc1 x0 x1 x2 x3 xs0).2.1)

/-! ## What the buffers hold after each point -/

/-- After the body at position `n`: the output window's buffer (a placeholder where the window is idle) and the
    scratch — the case the point's sequence tile selects, run on the point's blocks and on what the point before left in
    the scratch. -/
def outsAt0 (c : Dev nD) : (n : ℕ) → n < cfg0.N → Vec F S1x1x64x256 .f32 × Vec F S64x64 .f32
  | 0, hn => ((VO0_4.read (Elt F) VO0_4.junk), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 4 = 0 then
      if h1 : (n + 1) % 4 = 3 then
        False.elim (by omega)
      else
        ((VO0_4.read (Elt F) VO0_4.junk), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        ((VO0_4.read (Elt F) VO0_4.junk), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

set_option maxHeartbeats 2000000 in
theorem outsAt0_A (c : Dev nD) (t : Fin cfg0.N) (h0 : t.val % 4 = 0) (h1 : ¬t.val % 4 = 3) :
    outsAt0 V c t.val t.isLt = ((VO0_4.read (Elt F) VO0_4.junk), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

set_option maxHeartbeats 2000000 in
theorem outsAt0_B (c : Dev nD) (t : Fin cfg0.N) (h0 : ¬t.val % 4 = 0) (h1 : ¬t.val % 4 = 3) :
    outsAt0 V c t.val t.isLt = ((VO0_4.read (Elt F) VO0_4.junk), sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

set_option maxHeartbeats 2000000 in
theorem outsAt0_C (c : Dev nD) (t : Fin cfg0.N) (h0 : ¬t.val % 4 = 0) (h1 : t.val % 4 = 3) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carried between points -/

/-- Before the first point: the scoped buffers at anything. Afterwards: the scratch at what the point before
    left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ others0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 (F := F) c) ∗ (∃ r, prngReg c r)) := by
  cases n with
  | zero => exact absurd rfl hz
  | succ n => rfl

/-! ## The pipeline's proof data -/

/-- The arrays as the region finds them; after the body at a point each input's buffer at its block and the output's
    at `outsAt0`; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' buffers hold their blocks; the point's sequence tile says which case applies; the
    invariant hands the body the scratch at what the point before left (at anything at the first point) and takes it
    back at this point's contents; nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_4 sout0_C_0; (try dsimp only)
      by_cases hz : t.val = 0
      · exfalso; omega
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS0, Hoth⟩, Hg⟩
  isplitl [HS0 Hoth]
  · isplitl [HS0]
    · iexists _; iexact HS0
    iexact Hoth
  iexact Hg

end Region0

end Cert.KernelIdeal.Fr

end
-- ==== Proof.KI1Shared.lean ====
/-
  The query-application kernel (the second region), as the pipeline runs it: what its control cases share.
  A grid point is (batch b, sequence tile n, head h) with the head fastest, so the head is the point's
  number mod 8. The 2048×256 scratch is reset at head 0, added to at every head, and at head 7 the scratch
  plus the bias row is stored into the output window — which is idle at the other heads.
-/
import proofs.«123484_j5523327943104_1_alg».proof.Proof.Gen.KernelIdeal.Launch
import proofs.«123484_j5523327943104_1_alg».proof.Proof.Gen.KernelIdeal.Skeleton
import proofs.«123484_j5523327943104_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-- The first branch (reset the scratch): the head is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second branch (store the output block): the head is the last, 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last head the output window is idle and is not written back; at the last head it is live. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

abbrev ms1_0 (t : Fin cfg1.N) : Memref sig .tc .vmem S1x2048x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x64x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2048x256 .f32 := win1_4.stage (cfg1.slots t 4)
abbrev hs1_4 (t : Fin cfg1.N) : (ms1_4 t).IsWhole := hstage1_4 ((cfg1.slots t 4).cast nbuf1_4)
/-- The 2048×256 scratch accumulator, a whole scoped buffer of the kernel's own. -/
abbrev scM1_0 : Memref sig .tc .vmem S2048x256 .f32 := Memref.whole cc1_scratch0
abbrev VS1_0 : View sig .tc .vmem S2048x256 .f32 := scM1_0.view
abbrev VO1_4 : View sig .tc .vmem S1x2048x256 .f32 := (Memref.whole cc1_stg4_0 : Memref sig .tc .vmem S1x2048x256 .f32).view

/-- The scoped buffers the second region does not touch (the first region's staging and scratch), each at
    some contents, beside what is said of the second region's scratch (`S`). -/
def rest1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ S)

/-- The class's invariant, with the scratch as a memref owned at some contents. -/
theorem PhiA1_eq (c : Dev nD) :
    (Pipeline.ΦA spec1 c : sProp 𝕄)
      = iprop(rest1 (F := F) c iprop(∃ d, owns (c : Thread nD τ) scM1_0 fullShare d) ∗ (∃ r, prngReg c r)) := by
  unfold Pipeline.ΦA rest1; rw [scopedRest1_eq]; simp only [scM1_0, owns_whole]; try rfl

end Cert.KernelIdeal.Fr

end
-- ==== Proof.KI1RunA.lean ====
/-
  The query-application kernel's body run once, at the first head: the scratch is reset, then added to; nothing is stored into the output window.
  The pieces each buffer ends with are found by running the body.
-/
import proofs.«123484_j5523327943104_1_alg».proof.Proof.KI1Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs — the four inputs at their contents, the idle output window's buffer at contents handed back untouched, the scratch at anything — runs to the continuation
    holding the inputs as they were and the scratch with its pieces written. -/
noncomputable def kernelRun1_A (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : cond1_0 i) (hc1 : ¬cond1_1 i)
    (x0 : Vec F S1x2048x256 .f32) (x1 : Vec F S1x64x256 .f32) (x2 : Vec F S1x1x64x256 .f32) (x3 : Vec F S1x256 .f32) :
    Σ' (L4 : List (View.Piece (Elt F) S1x2048x256 .f32)), { LS0 : List (View.Piece (Elt F) S2048x256 .f32) //
      ∀ (xi4 : Vec F S1x2048x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__apply_q_kernel i arg3 harg3 arg4 harg4 arg5 harg5 arg6 harg6 arg7 harg7 arg8 harg8) K } := by
  refine ⟨[], ?_, fun xi4 E K => ?run⟩
  case run =>
    simp only [cc1__apply_q_kernel_eq_skeleton]; unfold cc1__apply_q_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.KI1RunB.lean ====
/-
  The query-application kernel's body run once, at a middle head: the scratch is added to; nothing is stored into the output window.
  The pieces each buffer ends with are found by running the body.
-/
import proofs.«123484_j5523327943104_1_alg».proof.Proof.KI1Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs — the four inputs at their contents, the idle output window's buffer at contents handed back untouched, the scratch at what the point before left — runs to the continuation
    holding the inputs as they were and the scratch with its pieces written. -/
noncomputable def kernelRun1_B (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : ¬cond1_0 i) (hc1 : ¬cond1_1 i)
    (x0 : Vec F S1x2048x256 .f32) (x1 : Vec F S1x64x256 .f32) (x2 : Vec F S1x1x64x256 .f32) (x3 : Vec F S1x256 .f32) (xs0 : Vec F S2048x256 .f32) :
    Σ' (L4 : List (View.Piece (Elt F) S1x2048x256 .f32)), { LS0 : List (View.Piece (Elt F) S2048x256 .f32) //
      ∀ (xi4 : Vec F S1x2048x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__apply_q_kernel i arg3 harg3 arg4 harg4 arg5 harg5 arg6 harg6 arg7 harg7 arg8 harg8) K } := by
  refine ⟨[], ?_, fun xi4 E K => ?run⟩
  case run =>
    simp only [cc1__apply_q_kernel_eq_skeleton]; unfold cc1__apply_q_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.KI1RunC.lean ====
/-
  The query-application kernel's body run once, at the last head: the scratch is added to, then the scratch plus the bias row is stored into the output window.
  The pieces each buffer ends with are found by running the body.
-/
import proofs.«123484_j5523327943104_1_alg».proof.Proof.KI1Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs — the four inputs at their contents, the output window's buffer at anything, the scratch at what the point before left — runs to the continuation
    holding the inputs as they were, the output buffer with its pieces written and the scratch with its pieces written. -/
noncomputable def kernelRun1_C (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : ¬cond1_0 i) (hc1 : cond1_1 i)
    (x0 : Vec F S1x2048x256 .f32) (x1 : Vec F S1x64x256 .f32) (x2 : Vec F S1x1x64x256 .f32) (x3 : Vec F S1x256 .f32) (xs0 : Vec F S2048x256 .f32) :
    Σ' (L4 : List (View.Piece (Elt F) S1x2048x256 .f32)), { LS0 : List (View.Piece (Elt F) S2048x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__apply_q_kernel i arg3 harg3 arg4 harg4 arg5 harg5 arg6 harg6 arg7 harg7 arg8 harg8) K } := by
  refine ⟨?_, ?_, fun E K => ?run⟩
  case run =>
    simp only [cc1__apply_q_kernel_eq_skeleton]; unfold cc1__apply_q_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Fr

end
-- ==== Proof.KI1Frame.lean ====
/-
  The query-application kernel over its whole grid: what its scratch and its output window's buffer hold after each
  grid point, by recursion on the point (the scratch is reset at head 0 and afterwards holds what the
  point before left plus this point's product; the output block is stored at the last head from the
  scratch), the invariant that carries the scratch between points, the pipeline's proof data, and the
  body's obligation at every point.
-/
import proofs.«123484_j5523327943104_1_alg».proof.Proof.KI1RunA
import proofs.«123484_j5523327943104_1_alg».proof.Proof.KI1RunB
import proofs.«123484_j5523327943104_1_alg».proof.Proof.KI1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## What each case leaves -/

theorem scover1_A_0 (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : cond1_0 i) (hc1 : ¬cond1_1 i)
    (x0 : Vec F S1x2048x256 .f32) (x1 : Vec F S1x64x256 .f32) (x2 : Vec F S1x1x64x256 .f32) (x3 : Vec F S1x256 .f32) (y : S2048x256.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S2048x256.size (by sl_kernel_rfl) y
/-- What the scratch holds after the body in this case: its pieces read back. -/
def sout1_A_0 (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : cond1_0 i) (hc1 : ¬cond1_1 i)
    (x0 : Vec F S1x2048x256 .f32) (x1 : Vec F S1x64x256 .f32) (x2 : Vec F S1x1x64x256 .f32) (x3 : Vec F S1x256 .f32) : Vec F S2048x256 .f32 :=
  VS1_0.read (Elt F) (VS1_0.writes (Elt F) VS1_0.junk (kernelRun1_A c i arg3 harg3 arg4 harg4 arg5 harg5 arg6 harg6 arg7 harg7 arg8 harg8 hc0 hc1 x0 x1 x2 x3).2.1)
theorem scover1_B_0 (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : ¬cond1_0 i) (hc1 : ¬cond1_1 i)
    (x0 : Vec F S1x2048x256 .f32) (x1 : Vec F S1x64x256 .f32) (x2 : Vec F S1x1x64x256 .f32) (x3 : Vec F S1x256 .f32) (xs0 : Vec F S2048x256 .f32) (y : S2048x256.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S2048x256.size (by sl_kernel_rfl) y
/-- What the scratch holds after the body in this case: its pieces read back. -/
def sout1_B_0 (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : ¬cond1_0 i) (hc1 : ¬cond1_1 i)
    (x0 : Vec F S1x2048x256 .f32) (x1 : Vec F S1x64x256 .f32) (x2 : Vec F S1x1x64x256 .f32) (x3 : Vec F S1x256 .f32) (xs0 : Vec F S2048x256 .f32) : Vec F S2048x256 .f32 :=
  VS1_0.read (Elt F) (VS1_0.writes (Elt F) VS1_0.junk (kernelRun1_B c i arg3 harg3 arg4 harg4 arg5 harg5 arg6 harg6 arg7 harg7 arg8 harg8 hc0 hc1 x0 x1 x2 x3 xs0).2.1)
theorem cover1_C_4 (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : ¬cond1_0 i) (hc1 : cond1_1 i)
    (x0 : Vec F S1x2048x256 .f32) (x1 : Vec F S1x64x256 .f32) (x2 : Vec F S1x1x64x256 .f32) (x3 : Vec F S1x256 .f32) (xs0 : Vec F S2048x256 .f32) (y : S1x2048x256.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1x2048x256.size (by sl_kernel_rfl) y
/-- What the output window's buffer holds after the body at the last head: its pieces read back. -/
def out1_C_4 (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : ¬cond1_0 i) (hc1 : cond1_1 i)
    (x0 : Vec F S1x2048x256 .f32) (x1 : Vec F S1x64x256 .f32) (x2 : Vec F S1x1x64x256 .f32) (x3 : Vec F S1x256 .f32) (xs0 : Vec F S2048x256 .f32) : Vec F S1x2048x256 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)
theorem scover1_C_0 (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : ¬cond1_0 i) (hc1 : cond1_1 i)
    (x0 : Vec F S1x2048x256 .f32) (x1 : Vec F S1x64x256 .f32) (x2 : Vec F S1x1x64x256 .f32) (x3 : Vec F S1x256 .f32) (xs0 : Vec F S2048x256 .f32) (y : S2048x256.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S2048x256.size (by sl_kernel_rfl) y
/-- What the scratch holds after the body in this case: its pieces read back. -/
def sout1_C_0 (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : ¬cond1_0 i) (hc1 : cond1_1 i)
    (x0 : Vec F S1x2048x256 .f32) (x1 : Vec F S1x64x256 .f32) (x2 : Vec F S1x1x64x256 .f32) (x3 : Vec F S1x256 .f32) (xs0 : Vec F S2048x256 .f32) : Vec F S2048x256 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)

/-! ## What the buffers hold after each point -/

/-- After the body at position `n`: the output window's buffer (a placeholder where the window is idle) and the
    scratch — the case the point's head selects, run on the point's blocks and on what the point before left in
    the scratch. -/
def outsAt1 (c : Dev nD) : (n : ℕ) → n < cfg1.N → Vec F S1x2048x256 .f32 × Vec F S2048x256 .f32
  | 0, hn => ((VO1_4.read (Elt F) VO1_4.junk), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        ((VO1_4.read (Elt F) VO1_4.junk), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        ((VO1_4.read (Elt F) VO1_4.junk), sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

set_option maxHeartbeats 2000000 in
theorem outsAt1_A (c : Dev nD) (t : Fin cfg1.N) (h0 : t.val % 8 = 0) (h1 : ¬t.val % 8 = 7) :
    outsAt1 V c t.val t.isLt = ((VO1_4.read (Elt F) VO1_4.junk), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

set_option maxHeartbeats 2000000 in
theorem outsAt1_B (c : Dev nD) (t : Fin cfg1.N) (h0 : ¬t.val % 8 = 0) (h1 : ¬t.val % 8 = 7) :
    outsAt1 V c t.val t.isLt = ((VO1_4.read (Elt F) VO1_4.junk), sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

set_option maxHeartbeats 2000000 in
theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carried between points -/

/-- Before the first point: the scoped buffers at anything. Afterwards: the scratch at what the point before
    left, the other scoped buffers at anything, the generator register at some state. -/
def PhiS1 (c : Dev nD) : (n : ℕ) → n ≤ cfg1.N → sProp 𝕄
  | 0, _ => Pipeline.ΦA spec1 c
  | n + 1, hn => iprop(rest1 (F := F) c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(rest1 (F := F) c (owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(rest1 (F := F) c (owns (c : Thread nD τ) scM1_0 fullShare ((outsAt1 V c (n - 1) (by omega)).2)) ∗ (∃ r, prngReg c r)) := by
  cases n with
  | zero => exact absurd rfl hz
  | succ n => rfl

/-! ## The pipeline's proof data -/

/-- The arrays as the region finds them; after the body at a point each input's buffer at its block and the output's
    at `outsAt1`; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' buffers hold their blocks; the point's head says which case applies; the
    invariant hands the body the scratch at what the point before left (at anything at the first point) and takes it
    back at this point's contents; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        unfold rest1; iintro ⟨⟨⟨HB0, HB1, HB2, HB3, HB4, HB5, HB6, HB7, HB8, HB9, HB10, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HB0 HB1 HB2 HB3 HB4 HB5 HB6 HB7 HB8 HB9 HB10 Hg]
        · isplitl [HS0 HB0 HB1 HB2 HB3 HB4 HB5 HB6 HB7 HB8 HB9 HB10]
          · skip
            isplitl [HB0]; · iexact HB0
            isplitl [HB1]; · iexact HB1
            isplitl [HB2]; · iexact HB2
            isplitl [HB3]; · iexact HB3
            isplitl [HB4]; · iexact HB4
            isplitl [HB5]; · iexact HB5
            isplitl [HB6]; · iexact HB6
            isplitl [HB7]; · iexact HB7
            isplitl [HB8]; · iexact HB8
            isplitl [HB9]; · iexact HB9
            isplitl [HB10]; · iexact HB10
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        unfold rest1; iintro ⟨⟨⟨HB0, HB1, HB2, HB3, HB4, HB5, HB6, HB7, HB8, HB9, HB10, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HB0 HB1 HB2 HB3 HB4 HB5 HB6 HB7 HB8 HB9 HB10 Hg]
        · isplitl [HS0 HB0 HB1 HB2 HB3 HB4 HB5 HB6 HB7 HB8 HB9 HB10]
          · skip
            isplitl [HB0]; · iexact HB0
            isplitl [HB1]; · iexact HB1
            isplitl [HB2]; · iexact HB2
            isplitl [HB3]; · iexact HB3
            isplitl [HB4]; · iexact HB4
            isplitl [HB5]; · iexact HB5
            isplitl [HB6]; · iexact HB6
            isplitl [HB7]; · iexact HB7
            isplitl [HB8]; · iexact HB8
            isplitl [HB9]; · iexact HB9
            isplitl [HB10]; · iexact HB10
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C_0; (try dsimp only)
      by_cases hz : t.val = 0
      · exfalso; omega
      · rw [PhiS1_castSucc V c t, PhiS1_pos V c _ _ hz]
        unfold rest1; iintro ⟨⟨⟨HB0, HB1, HB2, HB3, HB4, HB5, HB6, HB7, HB8, HB9, HB10, HS0⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HB0 HB1 HB2 HB3 HB4 HB5 HB6 HB7 HB8 HB9 HB10 Hg]
        · isplitl [HS0 HB0 HB1 HB2 HB3 HB4 HB5 HB6 HB7 HB8 HB9 HB10]
          · skip
            isplitl [HB0]; · iexact HB0
            isplitl [HB1]; · iexact HB1
            isplitl [HB2]; · iexact HB2
            isplitl [HB3]; · iexact HB3
            isplitl [HB4]; · iexact HB4
            isplitl [HB5]; · iexact HB5
            isplitl [HB6]; · iexact HB6
            isplitl [HB7]; · iexact HB7
            isplitl [HB8]; · iexact HB8
            isplitl [HB9]; · iexact HB9
            isplitl [HB10]; · iexact HB10
            unfold owns; iexists _; isplitr
            swap; · iexact HS0
            ipureintro; exact View.read_writes_of_cover _ _ _ _ _ (scover1_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        unfold rest1; iintro ⟨⟨⟨HB0, HB1, HB2, HB3, HB4, HB5, HB6, HB7, HB8, HB9, HB10, HS0⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HB0 HB1 HB2 HB3 HB4 HB5 HB6 HB7 HB8 HB9 HB10 Hg]
        · isplitl [HS0 HB0 HB1 HB2 HB3 HB4 HB5 HB6 HB7 HB8 HB9 HB10]
          · skip
            isplitl [HB0]; · iexact HB0
            isplitl [HB1]; · iexact HB1
            isplitl [HB2]; · iexact HB2
            isplitl [HB3]; · iexact HB3
            isplitl [HB4]; · iexact HB4
            isplitl [HB5]; · iexact HB5
            isplitl [HB6]; · iexact HB6
            isplitl [HB7]; · iexact HB7
            isplitl [HB8]; · iexact HB8
            isplitl [HB9]; · iexact HB9
            isplitl [HB10]; · iexact HB10
            unfold owns; iexists _; isplitr
            swap; · iexact HS0
            ipureintro; exact View.read_writes_of_cover _ _ _ _ _ (scover1_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  unfold rest1
  iintro ⟨⟨HB0, HB1, HB2, HB3, HB4, HB5, HB6, HB7, HB8, HB9, HB10, HS0⟩, Hg⟩
  isplitl [HS0 HB0 HB1 HB2 HB3 HB4 HB5 HB6 HB7 HB8 HB9 HB10]
  · isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    isplitl [HB8]; · iexact HB8
    isplitl [HB9]; · iexact HB9
    isplitl [HB10]; · iexact HB10
    iexists _; iexact HS0
  iexact Hg

end Region1

end Cert.KernelIdeal.Fr

end
-- ==== Proof.KIRun.lean ====
/-
  The whole program run: the host stretch (the weight slices, reshapes and the transpose), the key-value reduction
  region, the query-application region. The contents of every unscoped buffer are followed through the three items;
  every weakly fair execution terminates with each unscoped buffer at the last of these contents — in particular the
  arguments as launched and the result array at what the second region's pipeline leaves.
-/
import proofs.«123484_j5523327943104_1_alg».proof.Proof.KI0Frame
import proofs.«123484_j5523327943104_1_alg».proof.Proof.KI1Frame
import proofs.«123484_j5523327943104_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit (it is entered straight from the first's exit). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

/-- The first argument is an input window's array in both regions: each leaves it as it found it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
/-- No region stages argument 1 and no host operation writes it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
/-- No region stages argument 2 and no host operation writes it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
/-- No region stages argument 3 and no host operation writes it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The result array at the end is what the second region's pipeline leaves in its output window's array. -/
theorem W3_main_v10 (c : Dev nD) : W3 m ρ c (Proc.devRef .tc main_v10) = (dat1 (V2 m ρ) c).arrAt 4 cfg1.N :=
  W3_arr m ρ c 4

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at the exit contents; the generator register goes into the invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of the program terminates, nothing faulting, with every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The value run: the result array ends at what the second region's pipeline leaves, the arguments as launched. -/
theorem run_value : θ_run defs (onTc (τ := τ) (main (F := F))) ⟨m, fun _ => 0, ρ⟩ (fun r => ∀ c : Dev nD,
      r.2.mem ((c.tc : Thread nD τ).loc main_v10) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v10 (by decide))).trans (W3_main_v10 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Fr

end
-- ==== Proof.Spec.lean ====
/-
  The mathematics of linear ("Galerkin") attention without softmax, on the extended reals, as two functions of
  the argument arrays x [4, 8192, 256], Wqkv [1536, 256], Wout [256, 512] and bout [256], read at literal
  coordinates.

  Both project x with the rows of Wqkv (rows 0–511 the queries, 512–1023 the keys, 1024–1535 the values;
  row 64·h + d is head h, channel d), normalise each key and each value row of 64 channels to mean 0 and
  variance 1 (biased variance, plus a small constant under the reciprocal square root), and form, per batch
  and head, the 64×64 matrix  dots[d, e] = Σ_n k[n, d] · v[n, e].

  The kernel's form sums that matrix tile by tile (four tiles of 2048 sequence positions, added into a zero
  accumulator in order), multiplies it by the head's 64 rows of Woutᵀ and by 2⁻¹³ first, and only then applies the
  queries, adding the eight heads into a zero accumulator in order and the bias last.
  The reference's form applies the queries to dots, divides by 8192, lays the heads side by side as 512 channels
  and multiplies by Woutᵀ, adding the bias last.
-/
import Mathlib
import Idealize.ShloMosaic.PureOps.Ideal

noncomputable section

namespace Cert.Spec

open Idealize.ShloMosaic

/-- 64, the number of channels of a head (the divisor of both means). -/
abbrev c64 : EReal := Ideal.ofBits .f32 0x42800000#32
/-- The small constant added to the variance. -/
abbrev eps : EReal := Ideal.ofBits .f32 0x3727C5AC#32
/-- 2⁻¹³ = 1/8192, the kernel's scale. -/
abbrev invn : EReal := Ideal.ofBits .f32 0x39000000#32
/-- 8192, the reference's divisor. -/
abbrev n8192 : EReal := Ideal.ofBits .f32 0x46000000#32

/-- Channel `d` of head `h` among the 512 inner channels. -/
def hd (h : Fin 8) (d : Fin 64) : Fin 512 := ⟨64 * h.val + d.val, by have := h.isLt; have := d.isLt; omega⟩
/-- The rows of Wqkv that project queries, keys and values. -/
def rowQ (h : Fin 8) (d : Fin 64) : Fin 1536 := ⟨64 * h.val + d.val, by have := h.isLt; have := d.isLt; omega⟩
def rowK (h : Fin 8) (d : Fin 64) : Fin 1536 := ⟨512 + (64 * h.val + d.val), by have := h.isLt; have := d.isLt; omega⟩
def rowV (h : Fin 8) (d : Fin 64) : Fin 1536 := ⟨1024 + (64 * h.val + d.val), by have := h.isLt; have := d.isLt; omega⟩
/-- Sequence position `r` of tile `t`. -/
def seqAt (t : Fin 4) (r : Fin 2048) : Fin 8192 := ⟨2048 * t.val + r.val, by have := t.isLt; have := r.isLt; omega⟩
/-- The head and the channel of an inner channel. -/
def hOf (f : Fin 512) : Fin 8 := ⟨f.val / 64, by have := f.isLt; omega⟩
def eOf (f : Fin 512) : Fin 64 := ⟨f.val % 64, Nat.mod_lt _ (by norm_num)⟩

section
variable (x : Fin 4 → Fin 8192 → Fin 256 → EReal) (Wqkv : Fin 1536 → Fin 256 → EReal)
  (Wout : Fin 256 → Fin 512 → EReal) (bout : Fin 256 → EReal)

/-- A projection of x with the rows `row h ·` of Wqkv. -/
def proj (row : Fin 8 → Fin 64 → Fin 1536) (b : Fin 4) (h : Fin 8) (n : Fin 8192) (d : Fin 64) : EReal :=
  ∑ c : Fin 256, x b n c * Wqkv (row h d) c

/-- The mean of 64 channels. -/
def mean (t : Fin 64 → EReal) : EReal := Ideal.div (∑ j : Fin 64, t j) c64

/-- A row of 64 channels normalised to mean 0 and variance 1. -/
def inorm (t : Fin 64 → EReal) (j : Fin 64) : EReal :=
  (t j - mean t) * Ideal.rsqrt (mean (fun j => (t j - mean t) * (t j - mean t)) + eps)

/-- Queries, and normalised keys and values. -/
def q (b : Fin 4) (h : Fin 8) (n : Fin 8192) (d : Fin 64) : EReal := proj x Wqkv rowQ b h n d
def kn (b : Fin 4) (h : Fin 8) (n : Fin 8192) (d : Fin 64) : EReal := inorm (fun j => proj x Wqkv rowK b h n j) d
def vn (b : Fin 4) (h : Fin 8) (n : Fin 8192) (e : Fin 64) : EReal := inorm (fun j => proj x Wqkv rowV b h n j) e

/-! ## The kernel's form -/

/-- One sequence tile's share of kᵀ·v. -/
def part (b : Fin 4) (h : Fin 8) (t : Fin 4) (d e : Fin 64) : EReal :=
  ∑ r : Fin 2048, kn x Wqkv b h (seqAt t r) d * vn x Wqkv b h (seqAt t r) e

/-- The accumulator after the four tiles, added in order into zero. -/
def accK (b : Fin 4) (h : Fin 8) (d e : Fin 64) : EReal :=
  (((0 + part x Wqkv b h 0 d e) + part x Wqkv b h 1 d e) + part x Wqkv b h 2 d e) + part x Wqkv b h 3 d e

/-- The per-head 64×256 matrix the first region leaves: the accumulator times the head's rows of Woutᵀ, scaled. -/
def M (b : Fin 4) (h : Fin 8) (d : Fin 64) (c : Fin 256) : EReal :=
  (∑ e : Fin 64, accK x Wqkv b h d e * Wout c (hd h e)) * invn

/-- One head's share of the output. -/
def headTerm (b : Fin 4) (n : Fin 8192) (c : Fin 256) (h : Fin 8) : EReal :=
  ∑ d : Fin 64, q x Wqkv b h n d * M x Wqkv Wout b h d c

/-- The kernel's result: the eight heads added in order into zero, then the bias. -/
def outK (b : Fin 4) (n : Fin 8192) (c : Fin 256) : EReal :=
  ((((((((0 + headTerm x Wqkv Wout b n c 0) + headTerm x Wqkv Wout b n c 1) + headTerm x Wqkv Wout b n c 2)
    + headTerm x Wqkv Wout b n c 3) + headTerm x Wqkv Wout b n c 4) + headTerm x Wqkv Wout b n c 5)
    + headTerm x Wqkv Wout b n c 6) + headTerm x Wqkv Wout b n c 7) + bout c

/-! ## The reference's form -/

def dotsR (b : Fin 4) (h : Fin 8) (d e : Fin 64) : EReal :=
  ∑ n : Fin 8192, kn x Wqkv b h n d * vn x Wqkv b h n e

def attn (b : Fin 4) (h : Fin 8) (n : Fin 8192) (e : Fin 64) : EReal :=
  Ideal.div (∑ d : Fin 64, q x Wqkv b h n d * dotsR x Wqkv b h d e) n8192

def outR (b : Fin 4) (n : Fin 8192) (c : Fin 256) : EReal :=
  (∑ f : Fin 512, attn x Wqkv b (hOf f) n (eOf f) * Wout c f) + bout c

end

end Cert.Spec

end
-- ==== Proof.KIHost.lean ====
/-
  The host stretch before the two regions, read at an index: it slices the projection weights into the query, key and
  value row blocks and reshapes each to [8, 64, 256] (head, channel, input channel); transposes the output weights and
  reshapes them the same way; and reshapes the bias to a row. Each of these arrays, read at literal coordinates, is an
  element of an argument array. The first argument reaches the regions as launched.
-/
import proofs.«123484_j5523327943104_1_alg».proof.Proof.KIRun
import proofs.«123484_j5523327943104_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- No host operation writes the first argument. -/
theorem V1_main_arg0 (c : Dev nD) : V1 m ρ c main_arg0 = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg0) = W0 m ρ c (Proc.devRef .tc main_arg0)).trans rfl

/-- The query rows as the host stretch lays them out: head `h`, channel `j` is row 64·h + j of the projection weights. -/
theorem V1_main_v1_apply (c : Dev nD) (h : Fin 8) (j : Fin 64) (cc : Fin 256) :
    (V1 m ρ c main_v1 : S8x64x256.Idx → Elt F .f32) (ix3 h j cc) = (m ((c : Thread nD τ).loc main_arg1) : S1536x256.Idx → Elt F .f32) (ix2 (Cert.Spec.rowQ h j) cc) := by
  have e : (V1 m ρ c main_v1 : S8x64x256.Idx → Elt F .f32)
      = shapeCast S8x64x256 (extractStridedSlice S512x256 ![0, 0] (m ((c : Thread nD τ).loc main_arg1)) slices_S1536x256_S512x256_0_0) shapeCasts_S512x256_S8x64x256 := by
    dsimp only [V1, W1, hostOps0]; after_results; rfl
  refine (congrFun e _).trans ?_
  refine (shapeCast_apply _ _ (ix3 h j cc) (ix2 (⟨64 * h.val + j.val, by have := h.isLt; have := j.isLt; omega⟩ : Fin 512) cc) ?_).trans ?_
  · rw [Shape.rowMajor_val_two, Shape.rowMajor_val_three]
    show (64 * h.val + j.val) * 256 + cc.val = (h.val * 64 + j.val) * 256 + cc.val
    omega
  · refine extractStridedSlice_apply _ _ _ _ (ix2 (Cert.Spec.rowQ h j) cc) fun a => ?_
    match a with
    | ⟨0, _⟩ => show (Cert.Spec.rowQ h j).val = 0 + (64 * h.val + j.val); simp only [Cert.Spec.rowQ]; omega
    | ⟨1, _⟩ => show cc.val = 0 + cc.val; omega

/-- The key rows as the host stretch lays them out: head `h`, channel `j` is row 512 + 64·h + j of the projection weights. -/
theorem V1_main_v3_apply (c : Dev nD) (h : Fin 8) (j : Fin 64) (cc : Fin 256) :
    (V1 m ρ c main_v3 : S8x64x256.Idx → Elt F .f32) (ix3 h j cc) = (m ((c : Thread nD τ).loc main_arg1) : S1536x256.Idx → Elt F .f32) (ix2 (Cert.Spec.rowK h j) cc) := by
  have e : (V1 m ρ c main_v3 : S8x64x256.Idx → Elt F .f32)
      = shapeCast S8x64x256 (extractStridedSlice S512x256 ![512, 0] (m ((c : Thread nD τ).loc main_arg1)) slices_S1536x256_S512x256_512_0) shapeCasts_S512x256_S8x64x256 := by
    dsimp only [V1, W1, hostOps0]; after_results; rfl
  refine (congrFun e _).trans ?_
  refine (shapeCast_apply _ _ (ix3 h j cc) (ix2 (⟨64 * h.val + j.val, by have := h.isLt; have := j.isLt; omega⟩ : Fin 512) cc) ?_).trans ?_
  · rw [Shape.rowMajor_val_two, Shape.rowMajor_val_three]
    show (64 * h.val + j.val) * 256 + cc.val = (h.val * 64 + j.val) * 256 + cc.val
    omega
  · refine extractStridedSlice_apply _ _ _ _ (ix2 (Cert.Spec.rowK h j) cc) fun a => ?_
    match a with
    | ⟨0, _⟩ => show (Cert.Spec.rowK h j).val = 512 + (64 * h.val + j.val); simp only [Cert.Spec.rowK]
    | ⟨1, _⟩ => show cc.val = 0 + cc.val; omega

/-- The value rows as the host stretch lays them out: head `h`, channel `j` is row 1024 + 64·h + j of the projection weights. -/
theorem V1_main_v5_apply (c : Dev nD) (h : Fin 8) (j : Fin 64) (cc : Fin 256) :
    (V1 m ρ c main_v5 : S8x64x256.Idx → Elt F .f32) (ix3 h j cc) = (m ((c : Thread nD τ).loc main_arg1) : S1536x256.Idx → Elt F .f32) (ix2 (Cert.Spec.rowV h j) cc) := by
  have e : (V1 m ρ c main_v5 : S8x64x256.Idx → Elt F .f32)
      = shapeCast S8x64x256 (extractStridedSlice S512x256 ![1024, 0] (m ((c : Thread nD τ).loc main_arg1)) slices_S1536x256_S512x256_1024_0) shapeCasts_S512x256_S8x64x256 := by
    dsimp only [V1, W1, hostOps0]; after_results; rfl
  refine (congrFun e _).trans ?_
  refine (shapeCast_apply _ _ (ix3 h j cc) (ix2 (⟨64 * h.val + j.val, by have := h.isLt; have := j.isLt; omega⟩ : Fin 512) cc) ?_).trans ?_
  · rw [Shape.rowMajor_val_two, Shape.rowMajor_val_three]
    show (64 * h.val + j.val) * 256 + cc.val = (h.val * 64 + j.val) * 256 + cc.val
    omega
  · refine extractStridedSlice_apply _ _ _ _ (ix2 (Cert.Spec.rowV h j) cc) fun a => ?_
    match a with
    | ⟨0, _⟩ => show (Cert.Spec.rowV h j).val = 1024 + (64 * h.val + j.val); simp only [Cert.Spec.rowV]
    | ⟨1, _⟩ => show cc.val = 0 + cc.val; omega

/-- The output weights as the host stretch lays them out: head `h`, channel `e`, output channel `c'` is the weight of
    inner channel 64·h + e for output channel `c'`. -/
theorem V1_main_v7_apply (c : Dev nD) (h : Fin 8) (e : Fin 64) (c' : Fin 256) :
    (V1 m ρ c main_v7 : S8x64x256.Idx → Elt F .f32) (ix3 h e c') = (m ((c : Thread nD τ).loc main_arg2) : S256x512.Idx → Elt F .f32) (ix2 c' (Cert.Spec.hd h e)) := by
  have e' : (V1 m ρ c main_v7 : S8x64x256.Idx → Elt F .f32)
      = shapeCast S8x64x256 (transpose S512x256 [1, 0] (m ((c : Thread nD τ).loc main_arg2)) transposes_S256x512_S512x256_1_0) shapeCasts_S512x256_S8x64x256 := by
    dsimp only [V1, W1, hostOps0]; after_results; rfl
  refine (congrFun e' _).trans ?_
  refine (shapeCast_apply _ _ (ix3 h e c') (ix2 (Cert.Spec.hd h e) c') ?_).trans ?_
  · rw [Shape.rowMajor_val_two, Shape.rowMajor_val_three]
    show (Cert.Spec.hd h e).val * 256 + c'.val = (h.val * 64 + e.val) * 256 + c'.val
    simp only [Cert.Spec.hd]; omega
  · refine transpose_apply _ _ _ _ (ix2 c' (Cert.Spec.hd h e)) fun b => ?_
    match b with
    | ⟨0, _⟩ => rfl
    | ⟨1, _⟩ => rfl

/-- The bias as a row. -/
theorem V1_main_v8_apply (c : Dev nD) (c' : Fin 256) :
    (V1 m ρ c main_v8 : S1x256.Idx → Elt F .f32) (ix2 0 c') = (m ((c : Thread nD τ).loc main_arg3) : S256.Idx → Elt F .f32) (ix1 c') := by
  have e' : (V1 m ρ c main_v8 : S1x256.Idx → Elt F .f32)
      = shapeCast S1x256 (m ((c : Thread nD τ).loc main_arg3)) shapeCasts_S256_S1x256 := by
    dsimp only [V1, W1, hostOps0]; after_results; rfl
  refine (congrFun e' _).trans ?_
  refine shapeCast_apply _ _ (ix2 0 c') (ix1 c') ?_
  rw [Shape.rowMajor_val_two, Shape.rowMajor_val_one]
  show c'.val = 0 * 256 + c'.val
  omega

end Cert.KernelIdeal.Fr

end
-- ==== Proof.KI0Pieces.lean ====
/-
  The key-value reduction kernel's found pieces read as values: at every sequence tile the scratch ends at the
  accumulate payload of the point's blocks and of what it held before (the zero block at the first tile); at the
  last tile the output buffer ends at the scaled product payload of the weights' block and of that scratch.
-/
import proofs.«123484_j5523327943104_1_alg».proof.Proof.KI0Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace R0
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl
end R0
open R0

/-- What one point adds: the accumulate payload of the point's blocks (x, the key rows, the value rows) on `acc`. -/
def step0 (x0 : Vec F S1x2048x256 .f32) (x1 : Vec F S1x64x256 .f32) (x2 : Vec F S1x64x256 .f32) (acc : Vec F S64x64 .f32) : Vec F S64x64 .f32 :=
  k0_pay1 (k0_pay5 x0 x2) (k0_pay6 x0 x1) (k0_pay7 x0 x2) acc

theorem sout0_B (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : ¬cond0_0 i) (hc1 : ¬cond0_1 i)
    (x0 : Vec F S1x2048x256 .f32) (x1 : Vec F S1x64x256 .f32) (x2 : Vec F S1x64x256 .f32) (x3 : Vec F S1x64x256 .f32) (xs0 : Vec F S64x64 .f32) :
    sout0_B_0 c i arg3 harg3 arg4 harg4 arg5 harg5 arg6 harg6 arg7 harg7 arg8 harg8 hc0 hc1 x0 x1 x2 x3 xs0 = step0 x0 x1 x2 xs0 := by
  unfold sout0_B_0 step0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz2]
  simp only [View.readAt_eq_ld, harg3.read_unread, harg4.read_unread, harg5.read_unread, harg6.read_unread, harg8.read_unread,
    View.ld_unit_zero (S := S1x2048x256) hz3, View.ld_unit_zero (S := S1x64x256) hz3, View.ld_unit_zero (S := S64x64) hz2]

theorem sout0_C (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : ¬cond0_0 i) (hc1 : cond0_1 i)
    (x0 : Vec F S1x2048x256 .f32) (x1 : Vec F S1x64x256 .f32) (x2 : Vec F S1x64x256 .f32) (x3 : Vec F S1x64x256 .f32) (xs0 : Vec F S64x64 .f32) :
    sout0_C_0 c i arg3 harg3 arg4 harg4 arg5 harg5 arg6 harg6 arg7 harg7 arg8 harg8 hc0 hc1 x0 x1 x2 x3 xs0 = step0 x0 x1 x2 xs0 := by
  unfold sout0_C_0 step0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg3.read_unread, harg4.read_unread, harg5.read_unread, harg6.read_unread, harg8.read_unread,
    View.ld_unit_zero (S := S1x2048x256) hz3, View.ld_unit_zero (S := S1x64x256) hz3, View.ld_unit_zero (S := S64x64) hz2]

theorem out0_C (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : ¬cond0_0 i) (hc1 : cond0_1 i)
    (x0 : Vec F S1x2048x256 .f32) (x1 : Vec F S1x64x256 .f32) (x2 : Vec F S1x64x256 .f32) (x3 : Vec F S1x64x256 .f32) (xs0 : Vec F S64x64 .f32) :
    out0_C_4 c i arg3 harg3 arg4 harg4 arg5 harg5 arg6 harg6 arg7 harg7 arg8 harg8 hc0 hc1 x0 x1 x2 x3 xs0 = k0_pay2 x3 (step0 x0 x1 x2 xs0) := by
  unfold out0_C_4 step0
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz4, View.readCov_unit_zero (S := S64x64) _ hz2]
  simp only [View.readAt_eq_ld, harg3.read_unread, harg4.read_unread, harg5.read_unread, harg6.read_unread, harg8.read_unread,
    View.ld_unit_zero (S := S1x2048x256) hz3, View.ld_unit_zero (S := S1x64x256) hz3, View.ld_unit_zero (S := S64x64) hz2]

theorem sout0_A (c : Dev nD) (i : grid0.Coords) (arg3 : Memref sig .tc .vmem S1x2048x256 .f32) (harg3 : arg3.IsWhole) (arg4 : Memref sig .tc .vmem S1x64x256 .f32) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x64x256 .f32) (harg7 : arg7.IsWhole) (arg8 : Memref sig .tc .vmem S64x64 .f32) (harg8 : arg8.IsWhole) (hc0 : cond0_0 i) (hc1 : ¬cond0_1 i)
    (x0 : Vec F S1x2048x256 .f32) (x1 : Vec F S1x64x256 .f32) (x2 : Vec F S1x64x256 .f32) (x3 : Vec F S1x64x256 .f32) :
    sout0_A_0 c i arg3 harg3 arg4 harg4 arg5 harg5 arg6 harg6 arg7 harg7 arg8 harg8 hc0 hc1 x0 x1 x2 x3 = step0 x0 x1 x2 (k0_pay3 (F := F)) := by
  unfold sout0_A_0 step0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S64x64) hz2, View.readCov_unit_zero (S := S64x64) _ hz2]
  simp only [View.readAt_eq_ld, harg3.read_unread, harg4.read_unread, harg5.read_unread, harg6.read_unread, harg8.read_unread,
    View.ld_unit_zero (S := S1x2048x256) hz3, View.ld_unit_zero (S := S1x64x256) hz3, View.ld_unit_zero (S := S64x64) hz2]

end Cert.KernelIdeal.Fr

end
-- ==== Proof.KI0Chain.lean ====
/-
  The key-value reduction kernel's scratch after each grid point in closed form: the accumulate step applied to the point's
  blocks and to the zero block at sequence tile 0, to what the point before left otherwise. What the frame's recursion
  found at each point is this, by induction on the point; and at the last sequence tile the output buffer holds the output
  payload of that scratch.
-/
import proofs.«123484_j5523327943104_1_alg».proof.Proof.KI0Pieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open R0

section
variable (V : (c : Dev nD) → (b : Ref sig .tc) → Buf (Elt F) ((c : Thread nD τ).loc b))

/-- The scratch after point `n`. -/
def sc0 (c : Dev nD) : (n : ℕ) → n < cfg0.N → Vec F S64x64 .f32
  | 0, h => step0 (iblk0 V c 0 ⟨0, h⟩) (iblk0 V c 1 ⟨0, h⟩) (iblk0 V c 2 ⟨0, h⟩) (k0_pay3 (F := F))
  | n + 1, h => step0 (iblk0 V c 0 ⟨n + 1, h⟩) (iblk0 V c 1 ⟨n + 1, h⟩) (iblk0 V c 2 ⟨n + 1, h⟩)
      (if (n + 1) % 4 = 0 then (k0_pay3 (F := F)) else sc0 c n (Nat.lt_of_succ_lt h))

theorem sc0_zero (c : Dev nD) (h : 0 < cfg0.N) :
    sc0 V c 0 h = step0 (iblk0 V c 0 ⟨0, h⟩) (iblk0 V c 1 ⟨0, h⟩) (iblk0 V c 2 ⟨0, h⟩) (k0_pay3 (F := F)) := rfl
theorem sc0_succ (c : Dev nD) (n : ℕ) (h : n + 1 < cfg0.N) :
    sc0 V c (n + 1) h = step0 (iblk0 V c 0 ⟨n + 1, h⟩) (iblk0 V c 1 ⟨n + 1, h⟩) (iblk0 V c 2 ⟨n + 1, h⟩)
      (if (n + 1) % 4 = 0 then (k0_pay3 (F := F)) else sc0 V c n (Nat.lt_of_succ_lt h)) := rfl

set_option maxHeartbeats 2000000 in
/-- What the frame's recursion found in the scratch after each point is the closed form. -/
theorem outsAt0_snd (c : Dev nD) : ∀ (n : ℕ) (h : n < cfg0.N), (outsAt0 V c n h).2 = sc0 V c n h
  | 0, h => by
    rw [outsAt0_A V c ⟨0, h⟩ rfl (fun h' => absurd (show (0 : ℕ) % 4 = 3 from h') (by decide))]
    dsimp only
    rw [sout0_A]
    rfl
  | n + 1, h => by
    by_cases h0 : (n + 1) % 4 = 0
    · have h1 : ¬(n + 1) % 4 = 3 := by omega
      rw [outsAt0_A V c ⟨n + 1, h⟩ h0 h1]
      dsimp only
      rw [sout0_A, sc0_succ, if_pos h0]
    · by_cases h1 : (n + 1) % 4 = 3
      · rw [outsAt0_C V c ⟨n + 1, h⟩ h0 h1]
        dsimp only
        rw [sout0_C, sc0_succ, if_neg h0]
        show step0 _ _ _ (outsAt0 V c n _).2 = step0 _ _ _ (sc0 V c n _)
        rw [outsAt0_snd c n]
      · rw [outsAt0_B V c ⟨n + 1, h⟩ h0 h1]
        dsimp only
        rw [sout0_B, sc0_succ, if_neg h0]
        show step0 _ _ _ (outsAt0 V c n _).2 = step0 _ _ _ (sc0 V c n _)
        rw [outsAt0_snd c n]

set_option maxHeartbeats 2000000 in
/-- At the last sequence tile the output buffer holds the output payload of the scratch after that point. -/
theorem outsAt0_fst (c : Dev nD) (t : Fin cfg0.N) (h1 : t.val % 4 = 3) :
    (outsAt0 V c t.val t.isLt).1 = k0_pay2 (iblk0 V c 3 t) (sc0 V c t.val t.isLt) := by
  have h0 : ¬t.val % 4 = 0 := by omega
  have e1 := outsAt0_snd V c t.val t.isLt
  rw [outsAt0_C V c t h0 h1] at e1 ⊢
  dsimp only at e1 ⊢
  rw [sout0_C] at e1
  rw [out0_C, ← e1]

end

end Cert.KernelIdeal.Fr

end
-- ==== Proof.LibMatmulRows.lean ====
/-
  A matrix product of the rows of two matrices, read at an index.

  A `tpu.matmul` whose dimension numbers contract axis 1 of the left operand with axis 1 of the right one, with no
  batch axes — an [A, K] matrix against a [B, K] matrix, every row of the first against every row of the second, the
  product a kernel writes as "x · yᵀ" without forming the transpose — into the zero accumulator is, at the ideal values
  and at output position (p, q), the sum over k < K of left(p, k) · right(q, k): the contraction shape has the one axis
  of extent K, and the operand indices at output (p, q) and contraction position k are (p, k) and (q, k).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a product of rows with rows: rows × contraction against rows × contraction. -/
abbrev rows2 (wf : DotDims.WF ⟨2, ![A, K]⟩ ⟨2, ![B, K]⟩ ⟨2, ![A, B]⟩ [1] [1] [0] [0] [] []) :
    DotDims ⟨2, ![A, K]⟩ ⟨2, ![B, K]⟩ ⟨2, ![A, B]⟩ := ⟨[1], [1], [0], [0], [], [], wf⟩

/-- Its contraction shape has one axis, -/
theorem rows2_rank (wf : DotDims.WF ⟨2, ![A, K]⟩ ⟨2, ![B, K]⟩ ⟨2, ![A, B]⟩ [1] [1] [0] [0] [] []) :
    (rows2 wf).contr.rank = 1 := rfl

/-- of extent `K`. -/
theorem rows2_size (wf : DotDims.WF ⟨2, ![A, K]⟩ ⟨2, ![B, K]⟩ ⟨2, ![A, B]⟩ [1] [1] [0] [0] [] []) :
    (rows2 wf).contr.size ⟨0, by rw [rows2_rank]; exact Nat.one_pos⟩ = K := rfl

/-- The product into the zero accumulator at (p, q) is `∑ k, l (p, k) * r (q, k)`. -/
theorem matmulRows_zero_apply (wf : DotDims.WF ⟨2, ![A, K]⟩ ⟨2, ![B, K]⟩ ⟨2, ![A, B]⟩ [1] [1] [0] [0] [] [])
    (l : FVec Ideal ⟨2, ![A, K]⟩ φ₁) (r : FVec Ideal ⟨2, ![B, K]⟩ φ₂) (p : Fin A) (q : Fin B) :
    matmul (rows2 wf) none l r (constant ⟨2, ![A, B]⟩ .f32 0x00000000#32) (ix2 p q)
      = ∑ k : Fin K, l (ix2 p k) * r (ix2 q k) := by
  refine (Ideal.matmul_constant_zero_apply (rows2 wf) none l r (ix2 p q)).trans ?_
  refine (Equiv.sum_comp (contrEquiv1 (rows2 wf) K (rows2_rank wf) (rows2_size wf)).symm _).symm.trans ?_
  refine Finset.sum_congr rfl fun k _ => ?_
  have hk := contrEquiv1_symm_val (rows2 wf) K (rows2_rank wf) (rows2_size wf) k
  have hl : (rows2 wf).lhsIdx (ix2 p q) ((contrEquiv1 (rows2 wf) K (rows2_rank wf) (rows2_size wf)).symm k) = ix2 p k := by
    funext a; apply Fin.ext
    match a with
    | ⟨0, _⟩ => simp [DotDims.lhsIdx]; rfl
    | ⟨1, _⟩ => exact (DotDims.lhsIdx_val_of_single (rows2 wf) (cl := 1) rfl (ix2 p q) _).trans hk
  have hr : (rows2 wf).rhsIdx (ix2 p q) ((contrEquiv1 (rows2 wf) K (rows2_rank wf) (rows2_size wf)).symm k) = ix2 q k := by
    funext a; apply Fin.ext
    match a with
    | ⟨0, _⟩ => simp [DotDims.rhsIdx]; rfl
    | ⟨1, _⟩ => exact (DotDims.rhsIdx_val_of_single (rows2 wf) (cr := 1) rfl (ix2 p q) _).trans hk
  show l _ * r _ = _
  rw [hl, hr]

end Cert.Lib

end
-- ==== Proof.KIPayProj.lean ====
/-
  The key/value/query projection of the first region, read at an index: the product of a block of x with the rows of
  a 64-row slice of the weight.
-/
import proofs.«123484_j5523327943104_1_alg».proof.Proof.Gen.KernelIdeal.Skeleton
import proofs.«123484_j5523327943104_1_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«123484_j5523327943104_1_alg».proof.Proof.LibMatmulRows

noncomputable section

open scoped BigOperators

namespace Cert.KernelIdeal.Pay

open Cert.KernelIdeal Cert.KernelIdeal.Gen Idealize.ShloMosaic Idealize.ShloMosaic.ValueIdx

/-- A block of 2048 positions projected with 64 rows of the weight: at position `r` and channel `e` the sum over the
    256 input channels of the block's row `r` times the weight's row `e` (rows against rows; the narrowing of both
    operands is the identity on the extended reals). -/
theorem k0_pay5_apply (x0 : FVec Ideal S1x2048x256 .f32) (w : FVec Ideal S1x64x256 .f32) (r : Fin 2048) (e : Fin 64) :
    k0_pay5 x0 w (ix2 r e) = ∑ cc : Fin 256, x0 (ix3 0 r cc) * w (ix3 0 e cc) := by
  unfold k0_pay5 k0_pay4
  refine (Cert.Lib.matmulRows_zero_apply dot_S2048x256_S64x256_S2048x64_1_1_0_0_n_n_wf _ _ r e).trans ?_
  refine Finset.sum_congr rfl fun cc _ => ?_
  rw [truncf_apply, truncf_apply, shapeCast_1ab_ab_apply, shapeCast_1ab_ab_apply]

end Cert.KernelIdeal.Pay

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.LibEntryReads.lean ====
/-
  Operations of a kernel body and of the host read at one entry, at the extended reals: rewriting rules for pushing
  an index through a body.

  A product whose dimension numbers are those of a plain matrix product ("contract axis 1 of the left operand with
  axis 0 of the right, no batch axes") — the kernel's into the zero accumulator, or the host's — of an [A, K] and a
  [K, B] matrix, read at (p, q), is ∑ₖ l (p, k) · r (k, q): only row p of the left operand enters.  Both are stated
  for ANY dimension record equal to the plain one, so that a program's own record is rewritten without restating it.
  The reciprocal square root, the exponential and the logarithm, of a vector or of a host tensor, act entry by entry.
  Together with the library's entrywise rules for the arithmetic operations these push a whole body applied to an
  index (p, q) down to the entries of its loaded blocks, by one simplification pass.
-/
import Idealize.ShloMosaic.Lib.ValueLayout
import proofs.«123484_j5523327943104_1_alg».proof.Proof.LibMatmul2
import proofs.«123484_j5523327943104_1_alg».proof.Proof.LibKeepdims

noncomputable section

open scoped BigOperators

namespace Cert.Lib

open Idealize.ShloMosaic Idealize.ShloMosaic.ValueIdx

variable {A K B : ℕ} {φ₁ φ₂ φ : FTy} {s : Shape}

/-- A product whose dimension numbers are those of a plain matrix product, into the zero accumulator, at (p, q). -/
theorem matmul_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    matmul D none l r (constant ⟨2, ![A, B]⟩ .f32 0x00000000#32) (ix2 p q) = ∑ k : Fin K, l (ix2 p k) * r (ix2 k q) := by
  subst hD
  exact Cert.Lib.matmul2_zero_apply wf l r p q

/-- The host's product with those dimension numbers, at (p, q). -/
theorem dotGeneral_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    Host.dotGeneral D none l r (ix2 p q) = ∑ k : Fin K, l (ix2 p k) * r (ix2 k q) := by
  subst hD
  refine (Ideal.dotGeneral_apply (Cert.Lib.plain2 wf) none .single l r (ix2 p q)).trans ?_
  exact (Ideal.matmul_constant_zero_apply (Cert.Lib.plain2 wf) none l r (ix2 p q)).symm.trans
    (Cert.Lib.matmul2_zero_apply wf l r p q)

/-- The pointwise transcendental operations, of a kernel vector and of a host tensor, act entry by entry. -/
theorem rsqrt_apply (a : FVec Ideal s φ) (i : s.Idx) : rsqrt a i = Ideal.rsqrt (a i) := rfl
theorem exp_apply (a : FVec Ideal s φ) (i : s.Idx) : exp a i = Ideal.exp (a i) := rfl
theorem log_apply (a : FVec Ideal s φ) (i : s.Idx) : log a i = Ideal.log (a i) := rfl
theorem host_rsqrt_apply (a : FVec Ideal s φ) (i : s.Idx) : Host.rsqrt a i = Ideal.rsqrt (a i) := rfl
theorem host_exp_apply (a : FVec Ideal s φ) (i : s.Idx) : Host.exp a i = Ideal.exp (a i) := rfl
theorem host_log_apply (a : FVec Ideal s φ) (i : s.Idx) : Host.log a i = Ideal.log (a i) := rfl

end Cert.Lib

end
-- ==== Proof.LibMatmulCols.lean ====
/-
  A matrix product of the columns of two matrices, read at an index.

  A `tpu.matmul` whose dimension numbers contract axis 0 of the left operand with axis 0 of the right one, with no
  batch axes — a [K, A] matrix against a [K, B] matrix, every column of the first against every column of the second,
  the product a kernel writes as "xᵀ · y" without forming the transpose — into the zero accumulator is, at the ideal
  values and at output position (p, q), the sum over k < K of left(k, p) · right(k, q): the contraction shape has the
  one axis of extent K, and the operand indices at output (p, q) and contraction position k are (k, p) and (k, q).

  With it, two layout steps such a kernel meets on its way to and from a four-axis block: a shape cast that drops, or
  adds, TWO leading unit axes — [1, 1, a, b] read as [a, b] and back — read at an index given by coordinates.
-/
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx

variable {A K B : ℕ} {φ₁ φ₂ : FTy}

/-- The dimension numbers of a product of columns with columns: contraction × columns against contraction × columns. -/
abbrev cols2 (wf : DotDims.WF ⟨2, ![K, A]⟩ ⟨2, ![K, B]⟩ ⟨2, ![A, B]⟩ [0] [0] [1] [1] [] []) :
    DotDims ⟨2, ![K, A]⟩ ⟨2, ![K, B]⟩ ⟨2, ![A, B]⟩ := ⟨[0], [0], [1], [1], [], [], wf⟩

/-- Its contraction shape has one axis, -/
theorem cols2_rank (wf : DotDims.WF ⟨2, ![K, A]⟩ ⟨2, ![K, B]⟩ ⟨2, ![A, B]⟩ [0] [0] [1] [1] [] []) :
    (cols2 wf).contr.rank = 1 := rfl

/-- of extent `K`. -/
theorem cols2_size (wf : DotDims.WF ⟨2, ![K, A]⟩ ⟨2, ![K, B]⟩ ⟨2, ![A, B]⟩ [0] [0] [1] [1] [] []) :
    (cols2 wf).contr.size ⟨0, by rw [cols2_rank]; exact Nat.one_pos⟩ = K := rfl

/-- The product into the zero accumulator at (p, q) is `∑ k, l (k, p) * r (k, q)`. -/
theorem matmulCols_zero_apply (wf : DotDims.WF ⟨2, ![K, A]⟩ ⟨2, ![K, B]⟩ ⟨2, ![A, B]⟩ [0] [0] [1] [1] [] [])
    (l : FVec Ideal ⟨2, ![K, A]⟩ φ₁) (r : FVec Ideal ⟨2, ![K, B]⟩ φ₂) (p : Fin A) (q : Fin B) :
    matmul (cols2 wf) none l r (constant ⟨2, ![A, B]⟩ .f32 0x00000000#32) (ix2 p q)
      = ∑ k : Fin K, l (ix2 k p) * r (ix2 k q) := by
  refine (Ideal.matmul_constant_zero_apply (cols2 wf) none l r (ix2 p q)).trans ?_
  refine (Equiv.sum_comp (contrEquiv1 (cols2 wf) K (cols2_rank wf) (cols2_size wf)).symm _).symm.trans ?_
  refine Finset.sum_congr rfl fun k _ => ?_
  have hk := contrEquiv1_symm_val (cols2 wf) K (cols2_rank wf) (cols2_size wf) k
  have hl : (cols2 wf).lhsIdx (ix2 p q) ((contrEquiv1 (cols2 wf) K (cols2_rank wf) (cols2_size wf)).symm k) = ix2 k p := by
    funext a; apply Fin.ext
    match a with
    | ⟨0, _⟩ => exact (DotDims.lhsIdx_val_of_single (cols2 wf) (cl := 0) rfl (ix2 p q) _).trans hk
    | ⟨1, _⟩ => simp [DotDims.lhsIdx]; rfl
  have hr : (cols2 wf).rhsIdx (ix2 p q) ((contrEquiv1 (cols2 wf) K (cols2_rank wf) (cols2_size wf)).symm k) = ix2 k q := by
    funext a; apply Fin.ext
    match a with
    | ⟨0, _⟩ => exact (DotDims.rhsIdx_val_of_single (cols2 wf) (cr := 0) rfl (ix2 p q) _).trans hk
    | ⟨1, _⟩ => simp [DotDims.rhsIdx]; rfl
  show l _ * r _ = _
  rw [hl, hr]

section UnitAxes
variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]
    simp only [Nat.zero_mul, Nat.zero_add])

end UnitAxes

end Cert.Lib

end
-- ==== Proof.KIPayApply.lean ====
/-
  The second region's three stores read at an index: the zero it starts from, one head's share added to the
  accumulator, and the bias added last.
-/
import proofs.«123484_j5523327943104_1_alg».proof.Proof.Gen.KernelIdeal.Skeleton
import proofs.«123484_j5523327943104_1_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«123484_j5523327943104_1_alg».proof.Proof.LibMatmulRows
import proofs.«123484_j5523327943104_1_alg».proof.Proof.LibEntryReads
import proofs.«123484_j5523327943104_1_alg».proof.Proof.LibMatmulCols

noncomputable section

open scoped BigOperators

namespace Cert.KernelIdeal.Pay

open Cert.KernelIdeal Cert.KernelIdeal.Gen Idealize.ShloMosaic Idealize.ShloMosaic.ValueIdx

/-- One head's share of the second region's accumulator: at position `r` and output channel `c`, what was there plus
    the sum over the head's 64 channels of the query (the block's row `r` against the weight's row `d`) times the
    head's matrix at `(d, c)`. -/
theorem k1_pay2_apply (x0 : FVec Ideal S1x2048x256 .f32) (wq : FVec Ideal S1x64x256 .f32)
    (mblk : FVec Ideal S1x1x64x256 .f32) (acc : FVec Ideal S2048x256 .f32) (r : Fin 2048) (c : Fin 256) :
    k1_pay2 x0 wq mblk acc (ix2 r c)
      = acc (ix2 r c) + ∑ d : Fin 64, (∑ cc : Fin 256, x0 (ix3 0 r cc) * wq (ix3 0 d cc)) * mblk (ix4 0 0 d c) := by
  unfold k1_pay2
  rw [shapeCast_self, addf_apply]
  refine congrArg (acc (ix2 r c) + ·) ?_
  refine (Cert.Lib.matmul_plain_apply _ dot_S2048x64_S64x256_S2048x256_1_0_0_1_n_n_wf rfl _ _ r c).trans ?_
  refine Finset.sum_congr rfl fun d _ => ?_
  rw [truncf_apply, truncf_apply, Cert.Lib.shapeCast_11ab_ab_apply]
  refine congrArg (· * mblk (ix4 0 0 d c)) ?_
  refine (Cert.Lib.matmulRows_zero_apply dot_S2048x256_S64x256_S2048x64_1_1_0_0_n_n_wf _ _ r d).trans ?_
  refine Finset.sum_congr rfl fun cc _ => ?_
  rw [truncf_apply, truncf_apply, shapeCast_1ab_ab_apply, shapeCast_1ab_ab_apply]

/-- The second region's last store: the accumulator plus the bias, the bias's one row read at every position. -/
theorem k1_pay3_apply (acc : FVec Ideal S2048x256 .f32) (bias : FVec Ideal S1x256 .f32) (r : Fin 2048) (c : Fin 256) :
    k1_pay3 acc bias (ix3 0 r c) = acc (ix2 r c) + bias (ix2 0 c) := by
  unfold k1_pay3
  rw [shapeCast_ab_1ab_apply, addf_apply, broadcastTo_1b_ab_apply, shapeCast_self]

/-- The second region's accumulator starts at zero. -/
theorem k1_pay1_apply (r : Fin 2048) (c : Fin 256) : k1_pay1 (F := Ideal) (ix2 r c) = 0 := by
  unfold k1_pay1
  rw [shapeCast_self, broadcast_apply]
  exact Ideal.ofBits_zero_f32

end Cert.KernelIdeal.Pay

end
-- ==== Proof.KIPayOut.lean ====
/-
  The first region's zero block and its last store, read at an index: the accumulated 64×64 matrix times the head's
  rows of the output weight, scaled.
-/
import proofs.«123484_j5523327943104_1_alg».proof.Proof.Gen.KernelIdeal.Skeleton
import proofs.«123484_j5523327943104_1_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«123484_j5523327943104_1_alg».proof.Proof.LibEntryReads
import proofs.«123484_j5523327943104_1_alg».proof.Proof.LibMatmulCols

noncomputable section

open scoped BigOperators

namespace Cert.KernelIdeal.Pay

open Cert.KernelIdeal Cert.KernelIdeal.Gen Idealize.ShloMosaic Idealize.ShloMosaic.ValueIdx

/-- The first region's result for one head: the 64×64 accumulator times the head's 64 rows of the output weight
    (a plain product), then scaled. -/
theorem k0_pay2_apply (wt : FVec Ideal S1x64x256 .f32) (acc : FVec Ideal S64x64 .f32) (d : Fin 64) (c : Fin 256) :
    k0_pay2 wt acc (ix4 0 0 d c) = (∑ e : Fin 64, acc (ix2 d e) * wt (ix3 0 e c)) * Cert.Spec.invn := by
  unfold k0_pay2
  rw [Cert.Lib.shapeCast_ab_11ab_apply, mulf_apply, broadcast_apply]
  refine congrArg (· * Cert.Spec.invn) ?_
  refine (Cert.Lib.matmul_plain_apply _ dot_S64x64_S64x256_S64x256_1_0_0_1_n_n_wf rfl _ _ d c).trans ?_
  refine Finset.sum_congr rfl fun e _ => ?_
  rw [truncf_apply, truncf_apply, shapeCast_1ab_ab_apply]

/-- The first region's accumulator starts at zero. -/
theorem k0_pay3_apply (d e : Fin 64) : k0_pay3 (F := Ideal) (ix2 d e) = 0 := by
  unfold k0_pay3
  rw [shapeCast_self, broadcast_apply]
  exact Ideal.ofBits_zero_f32

end Cert.KernelIdeal.Pay

end
-- ==== Proof.KIPayNorm.lean ====
/-
  The first region's normalisation read at an index: the column of row means, and the rows of a 2048×64 matrix
  normalised to mean 0 and variance 1.
-/
import proofs.«123484_j5523327943104_1_alg».proof.Proof.Gen.KernelIdeal.Skeleton
import proofs.«123484_j5523327943104_1_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«123484_j5523327943104_1_alg».proof.Proof.LibKeepdims
import proofs.«123484_j5523327943104_1_alg».proof.Proof.KIPayProj

noncomputable section

open scoped BigOperators

namespace Cert.KernelIdeal.Pay

open Cert.KernelIdeal Cert.KernelIdeal.Gen Idealize.ShloMosaic Idealize.ShloMosaic.ValueIdx

/-! ## The arithmetic of one normalisation, named

The first region's body takes the mean of each row of a 2048×64 matrix (a lane sum kept as a column, divided by 64)
three times, and normalises the rows of a matrix against a given column of means twice: once for the keys, inside
the part that also projects them, and once for the values, in the store that accumulates. The two terms are named
here so that each is read at an index once. -/

/-- The means of the rows of a 2048×64 matrix, as a column: the lane sum, kept as a column, divided by 64. -/
def meanCol (P : FVec Ideal S2048x64 .f32) : FVec Ideal S2048x1 .f32 :=
  divf (shapeCast S2048x1 (multiReduction .add [1] S2048 P 0x00000000#32 reduces_S2048x64_S2048 (.inl rfl) rfl) shapeCasts_S2048_S2048x1)
    (broadcast S2048x1 (Scalar.ofBits .f32 0x42800000#32))

/-- The rows of `P` normalised against the column `m`: each entry less its row's entry of `m`, times the reciprocal
    square root of the row's mean square of those differences plus the small constant. -/
def normWith (P : FVec Ideal S2048x64 .f32) (m : FVec Ideal S2048x1 .f32) : FVec Ideal S2048x64 .f32 :=
  mulf (subf P (broadcastTo S2048x64 m broadcasts_S2048x1_S2048x64))
    (broadcastTo S2048x64
      (rsqrt (addf
        (meanCol (mulf (subf P (broadcastTo S2048x64 m broadcasts_S2048x1_S2048x64))
          (subf P (broadcastTo S2048x64 m broadcasts_S2048x1_S2048x64))))
        (broadcast S2048x1 (Scalar.ofBits .f32 0x3727C5AC#32))))
      broadcasts_S2048x1_S2048x64)

/-- The column of means at row `r` is the mean of the row. -/
theorem meanCol_apply (P : FVec Ideal S2048x64 .f32) (r : Fin 2048) (u : Fin 1) :
    meanCol P (ix2 r u) = Cert.Spec.mean (fun j => P (ix2 r j)) := by
  unfold meanCol Cert.Spec.mean
  rw [divf_apply, broadcast_apply]
  refine congrArg (fun t => Ideal.div t Cert.Spec.c64) ?_
  refine (Cert.Lib.shapeCast_a_a1_apply _ _ r u).trans ?_
  exact Cert.Lib.rowSum_apply P _ _ _ _ r

/-- The normalised matrix at `(r, e)`. -/
theorem normWith_apply (P : FVec Ideal S2048x64 .f32) (m : FVec Ideal S2048x1 .f32) (r : Fin 2048) (e : Fin 64) :
    normWith P m (ix2 r e)
      = (P (ix2 r e) - m (ix2 r 0)) * Ideal.rsqrt (Ideal.div (∑ j : Fin 64, (P (ix2 r j) - m (ix2 r 0)) * (P (ix2 r j) - m (ix2 r 0))) Cert.Spec.c64 + Cert.Spec.eps) := by
  unfold normWith
  rw [mulf_apply, subf_apply, Cert.Lib.broadcastTo_a1_ab_apply, Cert.Lib.broadcastTo_a1_ab_apply]
  refine congrArg ((P (ix2 r e) - m (ix2 r 0)) * ·) ?_
  show Ideal.rsqrt (meanCol _ (ix2 r 0) + Cert.Spec.eps) = _
  rw [meanCol_apply]
  unfold Cert.Spec.mean
  refine congrArg (fun t => Ideal.rsqrt (Ideal.div t Cert.Spec.c64 + Cert.Spec.eps)) ?_
  refine Finset.sum_congr rfl fun j _ => ?_
  show (mulf _ _) (ix2 r j) = _
  rw [mulf_apply, subf_apply, Cert.Lib.broadcastTo_a1_ab_apply]

/-! ## The part's two other payloads -/

/-- The column of the values' row means. -/
theorem k0_pay7_apply (x0 : FVec Ideal S1x2048x256 .f32) (w : FVec Ideal S1x64x256 .f32) (r : Fin 2048) :
    k0_pay7 (F := Ideal) x0 w (ix2 r (0 : Fin 1)) = Cert.Spec.mean (fun j => ∑ cc : Fin 256, x0 (ix3 0 r cc) * w (ix3 0 j cc)) := by
  have e : k0_pay7 x0 w = meanCol (k0_pay5 x0 w) := rfl
  rw [e, meanCol_apply]
  exact congrArg Cert.Spec.mean (funext fun j => k0_pay5_apply x0 w r j)

/-- The normalised keys: the projection's rows normalised against their own means. -/
theorem k0_pay6_apply (x0 : FVec Ideal S1x2048x256 .f32) (w : FVec Ideal S1x64x256 .f32) (r : Fin 2048) (d : Fin 64) :
    k0_pay6 (F := Ideal) x0 w (ix2 r d) = Cert.Spec.inorm (fun j => ∑ cc : Fin 256, x0 (ix3 0 r cc) * w (ix3 0 j cc)) d := by
  have e : k0_pay6 x0 w = normWith (k0_pay5 x0 w) (meanCol (k0_pay5 x0 w)) := rfl
  rw [e, normWith_apply, meanCol_apply]
  have hP : (fun j => k0_pay5 x0 w (ix2 r j)) = fun j => ∑ cc : Fin 256, x0 (ix3 0 r cc) * w (ix3 0 j cc) :=
    funext fun j => k0_pay5_apply x0 w r j
  rw [← hP]
  rfl

end Cert.KernelIdeal.Pay

end
-- ==== Proof.KIPayAcc.lean ====
/-
  The first region's accumulating store read at an index: the product of the normalised keys' and values' columns
  over one tile of sequence positions, added to the accumulator.
-/
import proofs.«123484_j5523327943104_1_alg».proof.Proof.Gen.KernelIdeal.Skeleton
import proofs.«123484_j5523327943104_1_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«123484_j5523327943104_1_alg».proof.Proof.LibMatmulCols
import proofs.«123484_j5523327943104_1_alg».proof.Proof.KIPayNorm

noncomputable section

open scoped BigOperators

namespace Cert.KernelIdeal.Pay

open Cert.KernelIdeal Cert.KernelIdeal.Gen Idealize.ShloMosaic Idealize.ShloMosaic.ValueIdx

/-- The store that accumulates: what the accumulator held plus, over the tile's 2048 positions, the product of the
    normalised keys' column `d` with the values' column `e`, the values normalised here against the column of their
    means (columns against columns: the contraction runs over the positions). -/
theorem k0_pay1_apply (v13 v31 : FVec Ideal S2048x64 .f32) (v35 : FVec Ideal S2048x1 .f32) (acc : FVec Ideal S64x64 .f32)
    (d e : Fin 64) :
    k0_pay1 (F := Ideal) v13 v31 v35 acc (ix2 d e)
      = acc (ix2 d e) + ∑ r : Fin 2048, v31 (ix2 r d) * ((v13 (ix2 r e) - v35 (ix2 r 0)) * Ideal.rsqrt (Ideal.div (∑ j : Fin 64, (v13 (ix2 r j) - v35 (ix2 r 0)) * (v13 (ix2 r j) - v35 (ix2 r 0))) Cert.Spec.c64 + Cert.Spec.eps)) := by
  have h : k0_pay1 (F := Ideal) v13 v31 v35 acc
      = shapeCast S64x64 (addf acc (matmul dot_S2048x64_S2048x64_S64x64_0_0_1_1_n_n none (truncf .bf16 v31 bitsLt_bf16_f32)
          (truncf .bf16 (normWith v13 v35) bitsLt_bf16_f32) (constant S64x64 .f32 0x00000000#32))) shapeCasts_S64x64_S64x64 := rfl
  rw [h, shapeCast_self, addf_apply]
  refine congrArg (acc (ix2 d e) + ·) ?_
  refine (Cert.Lib.matmulCols_zero_apply dot_S2048x64_S2048x64_S64x64_0_0_1_1_n_n_wf _ _ d e).trans ?_
  refine Finset.sum_congr rfl fun r _ => ?_
  rw [truncf_apply, truncf_apply, normWith_apply]

/-- One sequence tile's step of the accumulator, over the block of x and the head's key and value rows of the weight:
    the sum over the tile's positions of the normalised key at channel `d` times the normalised value at channel `e`. -/
theorem k0_step_apply (x0 : FVec Ideal S1x2048x256 .f32) (wk wv : FVec Ideal S1x64x256 .f32) (acc : FVec Ideal S64x64 .f32)
    (d e : Fin 64) :
    k0_pay1 (F := Ideal) (k0_pay5 x0 wv) (k0_pay6 x0 wk) (k0_pay7 x0 wv) acc (ix2 d e)
      = acc (ix2 d e) + ∑ r : Fin 2048,
          Cert.Spec.inorm (fun j => ∑ cc : Fin 256, x0 (ix3 0 r cc) * wk (ix3 0 j cc)) d
            * Cert.Spec.inorm (fun j => ∑ cc : Fin 256, x0 (ix3 0 r cc) * wv (ix3 0 j cc)) e := by
  rw [k0_pay1_apply]
  refine congrArg (acc (ix2 d e) + ·) ?_
  refine Finset.sum_congr rfl fun r _ => ?_
  rw [k0_pay6_apply, k0_pay7_apply]
  have hP : (fun j => k0_pay5 x0 wv (ix2 r j)) = fun j => ∑ cc : Fin 256, x0 (ix3 0 r cc) * wv (ix3 0 j cc) :=
    funext fun j => k0_pay5_apply x0 wv r j
  rw [← hP]
  rfl

end Cert.KernelIdeal.Pay

end
-- ==== Proof.KIPay.lean ====
/-
  The kernel's payloads read at an index, at the extended reals: every store of the two regions as a closed
  expression in the entries of the blocks it loads.
-/
import proofs.«123484_j5523327943104_1_alg».proof.Proof.KIPayProj
import proofs.«123484_j5523327943104_1_alg».proof.Proof.KIPayApply
import proofs.«123484_j5523327943104_1_alg».proof.Proof.KIPayOut
import proofs.«123484_j5523327943104_1_alg».proof.Proof.KIPayNorm
import proofs.«123484_j5523327943104_1_alg».proof.Proof.KIPayAcc
-- ==== Proof.KI0Value.lean ====
/-
  What the first region leaves in its result array, as one function of the argument arrays: at index (b, h, d, c) the
  per-head matrix M of the specification — the head's kᵀ·v accumulated over the four sequence tiles, times the head's
  rows of the transposed output weights, times 2⁻¹³.

  Grid point t of the first region is batch t / 32, head (t / 4) mod 8, sequence tile t mod 4. Its x block is rows
  2048·tile … of batch b; its key, value and output-weight blocks are head h's 64 rows; its output block is (b, h).
  The output window is written back at the last tile only, from the scratch the four tiles accumulated.
-/
import proofs.«123484_j5523327943104_1_alg».proof.Proof.KIHost
import proofs.«123484_j5523327943104_1_alg».proof.Proof.KI0Chain
import proofs.«123484_j5523327943104_1_alg».proof.Proof.KIPay

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Pay R0

variable (m : (ℓ : Loc nD τ sig) → Buf (Elt Ideal) ℓ) (ρ : Dev nD → PrngReg)

/-! ## The argument arrays at literal coordinates -/

abbrev Xm (c : Dev nD) : Fin 4 → Fin 8192 → Fin 256 → EReal := fun b n cc => (m ((c : Thread nD τ).loc main_arg0) : S4x8192x256.Idx → EReal) (ix3 b n cc)
abbrev Wm (c : Dev nD) : Fin 1536 → Fin 256 → EReal := fun f cc => (m ((c : Thread nD τ).loc main_arg1) : S1536x256.Idx → EReal) (ix2 f cc)
abbrev Wom (c : Dev nD) : Fin 256 → Fin 512 → EReal := fun c' f => (m ((c : Thread nD τ).loc main_arg2) : S256x512.Idx → EReal) (ix2 c' f)
abbrev bm (c : Dev nD) : Fin 256 → EReal := fun c' => (m ((c : Thread nD τ).loc main_arg3) : S256.Idx → EReal) (ix1 c')

/-- The array the first region leaves: the specification's per-head matrix. -/
def G0 (c : Dev nD) : S4x8x64x256.Idx → EReal := fun i => Cert.Spec.M (Xm m c) (Wm m c) (Wom m c) (i 0) (i 1) (i 2) (i 3)

/-! ## The printed index maps, decided over the grid -/

theorem idx0 : ∀ t : Fin cfg0.N,
    (win0_0.index t (0 : Fin 3) = t.val / 32 ∧ win0_0.index t (1 : Fin 3) = t.val % 4 ∧ win0_0.index t (2 : Fin 3) = 0)
    ∧ (win0_1.index t (0 : Fin 3) = t.val / 4 % 8 ∧ win0_1.index t (1 : Fin 3) = 0 ∧ win0_1.index t (2 : Fin 3) = 0)
    ∧ (win0_2.index t (0 : Fin 3) = t.val / 4 % 8 ∧ win0_2.index t (1 : Fin 3) = 0 ∧ win0_2.index t (2 : Fin 3) = 0)
    ∧ (win0_3.index t (0 : Fin 3) = t.val / 4 % 8 ∧ win0_3.index t (1 : Fin 3) = 0 ∧ win0_3.index t (2 : Fin 3) = 0)
    ∧ (win0_4.index t (0 : Fin 4) = t.val / 32 ∧ win0_4.index t (1 : Fin 4) = t.val / 4 % 8 ∧ win0_4.index t (2 : Fin 4) = 0 ∧ win0_4.index t (3 : Fin 4) = 0) :=
  (by decide +kernel : ∀ t : Fin grid0.N, _)

/-- Every output block is some last-tile point's. -/
theorem onto0 : ∀ (b : Fin 4) (h : Fin 8), ∃ t : Fin cfg0.N, t.val = 32 * b.val + 4 * h.val + 3 :=
  (by decide +kernel : ∀ (b : Fin 4) (h : Fin 8), ∃ t : Fin grid0.N, t.val = 32 * b.val + 4 * h.val + 3)

/-! ## The blocks, read at an index -/

theorem blk0_x (c : Dev nD) (t : Fin cfg0.N) (b : Fin 4) (nt : Fin 4) (hb : t.val / 32 = b.val) (hn : t.val % 4 = nt.val)
    (r : Fin 2048) (cc : Fin 256) :
    (iblk0 (V1 m ρ) c 0 t : S1x2048x256.Idx → EReal) (ix3 0 r cc) = Xm m c b (Cert.Spec.seqAt nt r) cc := by
  obtain ⟨⟨e0, e1, e2⟩, -⟩ := idx0 t
  unfold iblk0
  rw [View.read_apply]
  show (V1 m ρ c main_arg0 : S4x8192x256.Idx → EReal) _ = (m ((c : Thread nD τ).loc main_arg0) : S4x8192x256.Idx → EReal) _
  rw [V1_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 2048 + 1 * r.val = 2048 * nt.val + r.val; omega
  | ⟨2, _⟩ => show win0_0.index t (2 : Fin 3) * 256 + 1 * cc.val = cc.val; omega

theorem blk0_k (c : Dev nD) (t : Fin cfg0.N) (h : Fin 8) (hh : t.val / 4 % 8 = h.val) (j : Fin 64) (cc : Fin 256) :
    (iblk0 (V1 m ρ) c 1 t : S1x64x256.Idx → EReal) (ix3 0 j cc) = Wm m c (Cert.Spec.rowK h j) cc := by
  obtain ⟨-, ⟨e0, e1, e2⟩, -⟩ := idx0 t
  refine Eq.trans ?_ (V1_main_v3_apply m ρ c h j cc)
  unfold iblk0
  rw [View.read_apply]
  show (V1 m ρ c main_v3 : S8x64x256.Idx → EReal) _ = (V1 m ρ c main_v3 : S8x64x256.Idx → EReal) _
  refine congrArg _ (funext fun a => Fin.ext ?_)
  match a with
  | ⟨0, _⟩ => show win0_1.index t (0 : Fin 3) * 1 + 1 * 0 = h.val; omega
  | ⟨1, _⟩ => show win0_1.index t (1 : Fin 3) * 64 + 1 * j.val = j.val; omega
  | ⟨2, _⟩ => show win0_1.index t (2 : Fin 3) * 256 + 1 * cc.val = cc.val; omega

theorem blk0_v (c : Dev nD) (t : Fin cfg0.N) (h : Fin 8) (hh : t.val / 4 % 8 = h.val) (j : Fin 64) (cc : Fin 256) :
    (iblk0 (V1 m ρ) c 2 t : S1x64x256.Idx → EReal) (ix3 0 j cc) = Wm m c (Cert.Spec.rowV h j) cc := by
  obtain ⟨-, -, ⟨e0, e1, e2⟩, -⟩ := idx0 t
  refine Eq.trans ?_ (V1_main_v5_apply m ρ c h j cc)
  unfold iblk0
  rw [View.read_apply]
  show (V1 m ρ c main_v5 : S8x64x256.Idx → EReal) _ = (V1 m ρ c main_v5 : S8x64x256.Idx → EReal) _
  refine congrArg _ (funext fun a => Fin.ext ?_)
  match a with
  | ⟨0, _⟩ => show win0_2.index t (0 : Fin 3) * 1 + 1 * 0 = h.val; omega
  | ⟨1, _⟩ => show win0_2.index t (1 : Fin 3) * 64 + 1 * j.val = j.val; omega
  | ⟨2, _⟩ => show win0_2.index t (2 : Fin 3) * 256 + 1 * cc.val = cc.val; omega

theorem blk0_w (c : Dev nD) (t : Fin cfg0.N) (h : Fin 8) (hh : t.val / 4 % 8 = h.val) (e : Fin 64) (c' : Fin 256) :
    (iblk0 (V1 m ρ) c 3 t : S1x64x256.Idx → EReal) (ix3 0 e c') = Wom m c c' (Cert.Spec.hd h e) := by
  obtain ⟨-, -, -, ⟨e0, e1, e2⟩, -⟩ := idx0 t
  refine Eq.trans ?_ (V1_main_v7_apply m ρ c h e c')
  unfold iblk0
  rw [View.read_apply]
  show (V1 m ρ c main_v7 : S8x64x256.Idx → EReal) _ = (V1 m ρ c main_v7 : S8x64x256.Idx → EReal) _
  refine congrArg _ (funext fun a => Fin.ext ?_)
  match a with
  | ⟨0, _⟩ => show win0_3.index t (0 : Fin 3) * 1 + 1 * 0 = h.val; omega
  | ⟨1, _⟩ => show win0_3.index t (1 : Fin 3) * 64 + 1 * e.val = e.val; omega
  | ⟨2, _⟩ => show win0_3.index t (2 : Fin 3) * 256 + 1 * c'.val = c'.val; omega

/-! ## One accumulate step, and the four of a (batch, head) -/

/-- One point's step at an index: what was there plus the tile's share of kᵀ·v. -/
theorem step0_at (c : Dev nD) (t : Fin cfg0.N) (b : Fin 4) (h : Fin 8) (nt : Fin 4)
    (hb : t.val / 32 = b.val) (hh : t.val / 4 % 8 = h.val) (hn : t.val % 4 = nt.val)
    (acc : FVec Ideal S64x64 .f32) (d e : Fin 64) :
    step0 (F := Ideal) (iblk0 (V1 m ρ) c 0 t) (iblk0 (V1 m ρ) c 1 t) (iblk0 (V1 m ρ) c 2 t) acc (ix2 d e)
      = acc (ix2 d e) + Cert.Spec.part (Xm m c) (Wm m c) b h nt d e := by
  unfold step0
  refine (k0_step_apply _ _ _ _ d e).trans ?_
  simp only [blk0_x m ρ c t b nt hb hn, blk0_k m ρ c t h hh, blk0_v m ρ c t h hh]
  rfl

theorem sc0_reset (c : Dev nD) (V : (c : Dev nD) → (b : Ref sig .tc) → Buf (Elt Ideal) ((c : Thread nD τ).loc b)) :
    ∀ (n : ℕ) (h : n < cfg0.N), n % 4 = 0 →
      sc0 V c n h = step0 (iblk0 V c 0 ⟨n, h⟩) (iblk0 V c 1 ⟨n, h⟩) (iblk0 V c 2 ⟨n, h⟩) (k0_pay3 (F := Ideal))
  | 0, h, _ => rfl
  | n + 1, h, h0 => by rw [sc0_succ, if_pos h0]

theorem sc0_acc (c : Dev nD) (V : (c : Dev nD) → (b : Ref sig .tc) → Buf (Elt Ideal) ((c : Thread nD τ).loc b))
    (n k : ℕ) (hk : k = n + 1) (h : k < cfg0.N) (h0 : ¬k % 4 = 0) :
    sc0 V c k h = step0 (iblk0 V c 0 ⟨k, h⟩) (iblk0 V c 1 ⟨k, h⟩) (iblk0 V c 2 ⟨k, h⟩) (sc0 V c n (by omega)) := by
  subst hk
  rw [sc0_succ, if_neg h0]

/-- At a last-tile point the scratch holds the specification's accumulator of the point's batch and head. -/
theorem sc0_last (c : Dev nD) (b : Fin 4) (h : Fin 8) (n : ℕ) (hn3 : n + 3 < cfg0.N)
    (hb : (n + 3) / 32 = b.val) (hh : (n + 3) / 4 % 8 = h.val) (h0 : n % 4 = 0) (d e : Fin 64) :
    sc0 (V1 m ρ) c (n + 3) hn3 (ix2 d e) = Cert.Spec.accK (Xm m c) (Wm m c) b h d e := by
  have hN : cfg0.N = 128 := N_0
  rw [sc0_acc c (V1 m ρ) (n + 2) (n + 3) rfl hn3 (by omega)]
  rw [step0_at m ρ c ⟨n + 3, hn3⟩ b h 3 hb hh (by show (n + 3) % 4 = 3; omega)]
  rw [sc0_acc c (V1 m ρ) (n + 1) (n + 2) rfl (by omega) (by omega)]
  rw [step0_at m ρ c ⟨n + 2, by omega⟩ b h 2 (by show (n + 2) / 32 = b.val; omega) (by show (n + 2) / 4 % 8 = h.val; omega) (by show (n + 2) % 4 = 2; omega)]
  rw [sc0_acc c (V1 m ρ) n (n + 1) rfl (by omega) (by omega)]
  rw [step0_at m ρ c ⟨n + 1, by omega⟩ b h 1 (by show (n + 1) / 32 = b.val; omega) (by show (n + 1) / 4 % 8 = h.val; omega) (by show (n + 1) % 4 = 1; omega)]
  rw [sc0_reset c (V1 m ρ) n (by omega) h0]
  rw [step0_at m ρ c ⟨n, by omega⟩ b h 0 (by show n / 32 = b.val; omega) (by show n / 4 % 8 = h.val; omega) (by show n % 4 = 0; omega)]
  rw [k0_pay3_apply]
  rfl

/-- The batch and the head of a grid point. -/
def bOf0 (t : Fin cfg0.N) : Fin 4 := ⟨t.val / 32, by have := t.isLt; have hN : cfg0.N = 128 := N_0; omega⟩
def hOf0 (t : Fin cfg0.N) : Fin 8 := ⟨t.val / 4 % 8, Nat.mod_lt _ (by norm_num)⟩

theorem sc0_last' (c : Dev nD) (t : Fin cfg0.N) (h3 : t.val % 4 = 3) (d e : Fin 64) :
    sc0 (V1 m ρ) c t.val t.isLt (ix2 d e) = Cert.Spec.accK (Xm m c) (Wm m c) (bOf0 t) (hOf0 t) d e := by
  obtain ⟨tv, ht⟩ := t
  obtain ⟨n, rfl⟩ : ∃ n, tv = n + 3 := ⟨tv - 3, by have : tv % 4 = 3 := h3; omega⟩
  exact sc0_last m ρ c _ _ n ht rfl rfl (by have : (n + 3) % 4 = 3 := h3; omega) d e

/-! ## From blocks to the array -/

theorem unit4 (y : S1x1x64x256.Idx) : y = ix4 (0 : Fin 1) (0 : Fin 1) (y 2) (y 3) := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => rfl
  | ⟨3, _⟩ => rfl

/-- What a last-tile point writes back is its block of `G0`. -/
theorem flushed0_eq (c : Dev nD) (t : Fin cfg0.N) (hf : (cfg0.win 4).flush t = true) :
    (dat0 (V1 m ρ) c).flushed 4 t = ((cfg0.win 4).blk t).view.read (Elt Ideal) (G0 m c) := by
  have hN : cfg0.N = 128 := N_0
  have h3 : t.val % 4 = 3 := (flush0_4 t).mp hf
  have ht : t.val < 128 := lt_of_lt_of_eq t.isLt hN
  obtain ⟨-, -, -, -, ⟨e0, e1, e2, e3⟩⟩ := idx0 t
  show (cfg0.win 4).cut (grid0.coords t) ((dat0 (V1 m ρ) c).after 4 t) = _
  rw [after0_4, outsAt0_fst (V1 m ρ) c t h3]
  funext y
  obtain ⟨d, c', rfl⟩ : ∃ (d : Fin 64) (c' : Fin 256), y = ix4 (0 : Fin 1) (0 : Fin 1) d c' := ⟨y 2, y 3, unit4 y⟩
  show k0_pay2 (F := Ideal) (iblk0 (V1 m ρ) c 3 t) (sc0 (V1 m ρ) c t.val t.isLt) (ix4 0 0 d c') = G0 m c (((cfg0.win 4).blk t).view.emb (ix4 0 0 d c'))
  have hemb : ((cfg0.win 4).blk t).view.emb (ix4 (0 : Fin 1) (0 : Fin 1) d c') = (ix4 (bOf0 t) (hOf0 t) d c' : S4x8x64x256.Idx) := by
    funext a; apply Fin.ext
    match a with
    | ⟨0, _⟩ => show win0_4.index t (0 : Fin 4) * 1 + 1 * 0 = t.val / 32; omega
    | ⟨1, _⟩ => show win0_4.index t (1 : Fin 4) * 1 + 1 * 0 = t.val / 4 % 8; omega
    | ⟨2, _⟩ => show win0_4.index t (2 : Fin 4) * 64 + 1 * d.val = d.val; omega
    | ⟨3, _⟩ => show win0_4.index t (3 : Fin 4) * 256 + 1 * c'.val = c'.val; omega
  rw [hemb]
  refine (k0_pay2_apply _ _ d c').trans ?_
  simp only [sc0_last' m ρ c t h3 d, blk0_w m ρ c t (hOf0 t) rfl]
  rfl

theorem mem_blk0 (t : Fin cfg0.N) (i : S4x8x64x256.Idx) :
    i ∈ ((cfg0.win 4).blk t).view.set ↔ ∀ a : Fin 4, win0_4.index t a * S1x1x64x256.size a ≤ (i a).val ∧ (i a).val < win0_4.index t a * S1x1x64x256.size a + S1x1x64x256.size a := by
  show i ∈ ((View.whole main_v9).slice (win0_4.rect t)).set ↔ _
  rw [View.set_slice_whole, Rect.mem_set_unit]
  exact Iff.rfl

/-- The first region's result array after the run. -/
theorem final0 (c : Dev nD) : (dat0 (V1 m ρ) c).arrAt 4 cfg0.N = G0 m c :=
  (dat0 (V1 m ρ) c).arrAt_eq_of_cover 4 (G0 m c) (flushed0_eq m ρ c) fun i => by
    have hi0 : (i 0).val < 4 := (i 0).isLt
    have hi1 : (i 1).val < 8 := (i 1).isLt
    have hi2 : (i 2).val < 64 := (i 2).isLt
    have hi3 : (i 3).val < 256 := (i 3).isLt
    obtain ⟨t, ht⟩ := onto0 ⟨(i 0).val, hi0⟩ ⟨(i 1).val, hi1⟩
    have ht' : t.val = 32 * (i 0).val + 4 * (i 1).val + 3 := ht
    obtain ⟨-, -, -, -, ⟨e0, e1, e2, e3⟩⟩ := idx0 t
    refine ⟨t, (flush0_4 t).mpr (by omega), ?_⟩
    rw [mem_blk0]
    intro a
    match a with
    | ⟨0, _⟩ => show win0_4.index t (0 : Fin 4) * 1 ≤ (i 0).val ∧ (i 0).val < win0_4.index t (0 : Fin 4) * 1 + 1; omega
    | ⟨1, _⟩ => show win0_4.index t (1 : Fin 4) * 1 ≤ (i 1).val ∧ (i 1).val < win0_4.index t (1 : Fin 4) * 1 + 1; omega
    | ⟨2, _⟩ => show win0_4.index t (2 : Fin 4) * 64 ≤ (i 2).val ∧ (i 2).val < win0_4.index t (2 : Fin 4) * 64 + 64; omega
    | ⟨3, _⟩ => show win0_4.index t (3 : Fin 4) * 256 ≤ (i 3).val ∧ (i 3).val < win0_4.index t (3 : Fin 4) * 256 + 256; omega

end Cert.KernelIdeal.Fr

end
-- ==== Proof.KI1Pieces.lean ====
/-
  The query-application kernel's found pieces read as values: at every head the scratch ends at the accumulate
  payload of the point's blocks and of what it held before (the zero block at the first head); at the last head the
  output buffer ends at that scratch plus the bias row.
-/
import proofs.«123484_j5523327943104_1_alg».proof.Proof.KI1Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace R1
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl
end R1
open R1

/-- What one point adds: the accumulate payload of the point's blocks (x, the query rows, the head's matrix) on `acc`. -/
def step1 (x0 : Vec F S1x2048x256 .f32) (x1 : Vec F S1x64x256 .f32) (x2 : Vec F S1x1x64x256 .f32) (acc : Vec F S2048x256 .f32) : Vec F S2048x256 .f32 :=
  k1_pay2 x0 x1 x2 acc

theorem sout1_B (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : ¬cond1_0 i) (hc1 : ¬cond1_1 i)
    (x0 : Vec F S1x2048x256 .f32) (x1 : Vec F S1x64x256 .f32) (x2 : Vec F S1x1x64x256 .f32) (x3 : Vec F S1x256 .f32) (xs0 : Vec F S2048x256 .f32) :
    sout1_B_0 c i arg3 harg3 arg4 harg4 arg5 harg5 arg6 harg6 arg7 harg7 arg8 harg8 hc0 hc1 x0 x1 x2 x3 xs0 = step1 x0 x1 x2 xs0 := by
  unfold sout1_B_0 step1
  rw [View.read_writes_eq_canon _ _ _ (scover1_B_0 c i arg3 harg3 arg4 harg4 arg5 harg5 arg6 harg6 arg7 harg7 arg8 harg8 hc0 hc1 x0 x1 x2 x3 xs0)]
  unfold kernelRun1_B
  dsimp only
  sl_unfold_words
  rw [View.canon_unit_zero hz2]
  simp only [View.readAt_eq_ld, harg3.read_unread, harg4.read_unread, harg5.read_unread, harg6.read_unread, harg8.read_unread,
    View.ld_unit_zero (S := S1x2048x256) hz3, View.ld_unit_zero (S := S1x64x256) hz3, View.ld_unit_zero (S := S1x1x64x256) hz4, View.ld_unit_zero (S := S1x256) hz2, View.ld_unit_zero (S := S2048x256) hz2]

theorem sout1_C (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : ¬cond1_0 i) (hc1 : cond1_1 i)
    (x0 : Vec F S1x2048x256 .f32) (x1 : Vec F S1x64x256 .f32) (x2 : Vec F S1x1x64x256 .f32) (x3 : Vec F S1x256 .f32) (xs0 : Vec F S2048x256 .f32) :
    sout1_C_0 c i arg3 harg3 arg4 harg4 arg5 harg5 arg6 harg6 arg7 harg7 arg8 harg8 hc0 hc1 x0 x1 x2 x3 xs0 = step1 x0 x1 x2 xs0 := by
  unfold sout1_C_0 step1
  rw [View.read_writes_eq_canon _ _ _ (scover1_C_0 c i arg3 harg3 arg4 harg4 arg5 harg5 arg6 harg6 arg7 harg7 arg8 harg8 hc0 hc1 x0 x1 x2 x3 xs0)]
  unfold kernelRun1_C
  dsimp only
  sl_unfold_words
  rw [View.canon_unit_zero hz2]
  simp only [View.readAt_eq_ld, harg3.read_unread, harg4.read_unread, harg5.read_unread, harg6.read_unread, harg8.read_unread,
    View.ld_unit_zero (S := S1x2048x256) hz3, View.ld_unit_zero (S := S1x64x256) hz3, View.ld_unit_zero (S := S1x1x64x256) hz4, View.ld_unit_zero (S := S1x256) hz2, View.ld_unit_zero (S := S2048x256) hz2]

theorem out1_C (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : ¬cond1_0 i) (hc1 : cond1_1 i)
    (x0 : Vec F S1x2048x256 .f32) (x1 : Vec F S1x64x256 .f32) (x2 : Vec F S1x1x64x256 .f32) (x3 : Vec F S1x256 .f32) (xs0 : Vec F S2048x256 .f32) :
    out1_C_4 c i arg3 harg3 arg4 harg4 arg5 harg5 arg6 harg6 arg7 harg7 arg8 harg8 hc0 hc1 x0 x1 x2 x3 xs0 = k1_pay3 (step1 x0 x1 x2 xs0) x3 := by
  unfold out1_C_4 step1
  rw [View.read_writes_eq_canon _ _ _ (cover1_C_4 c i arg3 harg3 arg4 harg4 arg5 harg5 arg6 harg6 arg7 harg7 arg8 harg8 hc0 hc1 x0 x1 x2 x3 xs0)]
  unfold kernelRun1_C
  dsimp only
  sl_unfold_words
  rw [View.canon_unit_zero hz3, View.readCov_unit_zero (S := S2048x256) _ hz2]
  simp only [View.readAt_eq_ld, harg3.read_unread, harg4.read_unread, harg5.read_unread, harg6.read_unread, harg8.read_unread,
    View.ld_unit_zero (S := S1x2048x256) hz3, View.ld_unit_zero (S := S1x64x256) hz3, View.ld_unit_zero (S := S1x1x64x256) hz4, View.ld_unit_zero (S := S1x256) hz2, View.ld_unit_zero (S := S2048x256) hz2]

theorem sout1_A (c : Dev nD) (i : grid1.Coords) (arg3 : Memref sig .tc .vmem S1x2048x256 .f32) (harg3 : arg3.IsWhole) (arg4 : Memref sig .tc .vmem S1x64x256 .f32) (harg4 : arg4.IsWhole) (arg5 : Memref sig .tc .vmem S1x1x64x256 .f32) (harg5 : arg5.IsWhole) (arg6 : Memref sig .tc .vmem S1x256 .f32) (harg6 : arg6.IsWhole) (arg7 : Memref sig .tc .vmem S1x2048x256 .f32) (harg7 : arg7.IsWhole) (arg8 : Memref sig .tc .vmem S2048x256 .f32) (harg8 : arg8.IsWhole) (hc0 : cond1_0 i) (hc1 : ¬cond1_1 i)
    (x0 : Vec F S1x2048x256 .f32) (x1 : Vec F S1x64x256 .f32) (x2 : Vec F S1x1x64x256 .f32) (x3 : Vec F S1x256 .f32) :
    sout1_A_0 c i arg3 harg3 arg4 harg4 arg5 harg5 arg6 harg6 arg7 harg7 arg8 harg8 hc0 hc1 x0 x1 x2 x3 = step1 x0 x1 x2 (k1_pay1 (F := F)) := by
  unfold sout1_A_0 step1
  rw [View.read_writes_eq_canon _ _ _ (scover1_A_0 c i arg3 harg3 arg4 harg4 arg5 harg5 arg6 harg6 arg7 harg7 arg8 harg8 hc0 hc1 x0 x1 x2 x3)]
  unfold kernelRun1_A
  dsimp only
  sl_unfold_words
  rw [View.canon_cons_unit_zero (S := S2048x256) hz2, View.readCov_unit_zero (S := S2048x256) _ hz2]
  simp only [View.readAt_eq_ld, harg3.read_unread, harg4.read_unread, harg5.read_unread, harg6.read_unread, harg8.read_unread,
    View.ld_unit_zero (S := S1x2048x256) hz3, View.ld_unit_zero (S := S1x64x256) hz3, View.ld_unit_zero (S := S1x1x64x256) hz4, View.ld_unit_zero (S := S1x256) hz2, View.ld_unit_zero (S := S2048x256) hz2]

end Cert.KernelIdeal.Fr

end
-- ==== Proof.KI1Chain.lean ====
/-
  The query-application kernel's scratch after each grid point in closed form: the accumulate step applied to the point's
  blocks and to the zero block at head 0, to what the point before left otherwise. What the frame's recursion
  found at each point is this, by induction on the point; and at the last head the output buffer holds the output
  payload of that scratch.
-/
import proofs.«123484_j5523327943104_1_alg».proof.Proof.KI1Pieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open R1

section
variable (V : (c : Dev nD) → (b : Ref sig .tc) → Buf (Elt F) ((c : Thread nD τ).loc b))

/-- The scratch after point `n`. -/
def sc1 (c : Dev nD) : (n : ℕ) → n < cfg1.N → Vec F S2048x256 .f32
  | 0, h => step1 (iblk1 V c 0 ⟨0, h⟩) (iblk1 V c 1 ⟨0, h⟩) (iblk1 V c 2 ⟨0, h⟩) (k1_pay1 (F := F))
  | n + 1, h => step1 (iblk1 V c 0 ⟨n + 1, h⟩) (iblk1 V c 1 ⟨n + 1, h⟩) (iblk1 V c 2 ⟨n + 1, h⟩)
      (if (n + 1) % 8 = 0 then (k1_pay1 (F := F)) else sc1 c n (Nat.lt_of_succ_lt h))

theorem sc1_zero (c : Dev nD) (h : 0 < cfg1.N) :
    sc1 V c 0 h = step1 (iblk1 V c 0 ⟨0, h⟩) (iblk1 V c 1 ⟨0, h⟩) (iblk1 V c 2 ⟨0, h⟩) (k1_pay1 (F := F)) := rfl
theorem sc1_succ (c : Dev nD) (n : ℕ) (h : n + 1 < cfg1.N) :
    sc1 V c (n + 1) h = step1 (iblk1 V c 0 ⟨n + 1, h⟩) (iblk1 V c 1 ⟨n + 1, h⟩) (iblk1 V c 2 ⟨n + 1, h⟩)
      (if (n + 1) % 8 = 0 then (k1_pay1 (F := F)) else sc1 V c n (Nat.lt_of_succ_lt h)) := rfl

set_option maxHeartbeats 2000000 in
/-- What the frame's recursion found in the scratch after each point is the closed form. -/
theorem outsAt1_snd (c : Dev nD) : ∀ (n : ℕ) (h : n < cfg1.N), (outsAt1 V c n h).2 = sc1 V c n h
  | 0, h => by
    rw [outsAt1_A V c ⟨0, h⟩ rfl (fun h' => absurd (show (0 : ℕ) % 8 = 7 from h') (by decide))]
    dsimp only
    rw [sout1_A]
    rfl
  | n + 1, h => by
    by_cases h0 : (n + 1) % 8 = 0
    · have h1 : ¬(n + 1) % 8 = 7 := by omega
      rw [outsAt1_A V c ⟨n + 1, h⟩ h0 h1]
      dsimp only
      rw [sout1_A, sc1_succ, if_pos h0]
    · by_cases h1 : (n + 1) % 8 = 7
      · rw [outsAt1_C V c ⟨n + 1, h⟩ h0 h1]
        dsimp only
        rw [sout1_C, sc1_succ, if_neg h0]
        show step1 _ _ _ (outsAt1 V c n _).2 = step1 _ _ _ (sc1 V c n _)
        rw [outsAt1_snd c n]
      · rw [outsAt1_B V c ⟨n + 1, h⟩ h0 h1]
        dsimp only
        rw [sout1_B, sc1_succ, if_neg h0]
        show step1 _ _ _ (outsAt1 V c n _).2 = step1 _ _ _ (sc1 V c n _)
        rw [outsAt1_snd c n]

set_option maxHeartbeats 2000000 in
/-- At the last head the output buffer holds the output payload of the scratch after that point. -/
theorem outsAt1_fst (c : Dev nD) (t : Fin cfg1.N) (h1 : t.val % 8 = 7) :
    (outsAt1 V c t.val t.isLt).1 = k1_pay3 (sc1 V c t.val t.isLt) (iblk1 V c 3 t) := by
  have h0 : ¬t.val % 8 = 0 := by omega
  have e1 := outsAt1_snd V c t.val t.isLt
  rw [outsAt1_C V c t h0 h1] at e1 ⊢
  dsimp only at e1 ⊢
  rw [sout1_C] at e1
  rw [out1_C, ← e1]

end

end Cert.KernelIdeal.Fr

end
-- ==== Proof.KI1Value.lean ====
/-
  What the second region leaves in the result array, as one function of the argument arrays: at index (b, n, c) the
  specification's kernel form — the eight heads' shares q·M added in order into zero, plus the bias.

  Grid point t of the second region is batch t / 32, sequence tile (t / 8) mod 4, head t mod 8. Its x block is rows
  2048·tile … of batch b; its query rows are head h's; its matrix block is block (b, h) of the array the first region
  left; its bias block is the whole row; its output block is (b, tile). The output window is written back at the last
  head only, from the scratch the eight heads accumulated.
-/
import proofs.«123484_j5523327943104_1_alg».proof.Proof.KI0Value
import proofs.«123484_j5523327943104_1_alg».proof.Proof.KI1Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Pay R1

variable (m : (ℓ : Loc nD τ sig) → Buf (Elt Ideal) ℓ) (ρ : Dev nD → PrngReg)

/-- The result array the second region leaves: the specification's kernel form. -/
def G1 (c : Dev nD) : S4x8192x256.Idx → EReal := fun i => Cert.Spec.outK (Xm m c) (Wm m c) (Wom m c) (bm m c) (i 0) (i 1) (i 2)

/-! ## The arrays the second region finds -/

theorem V2_main_arg0 (c : Dev nD) : V2 m ρ c main_arg0 = m ((c : Thread nD τ).loc main_arg0) :=
  ((W2_arr m ρ c 0).trans (((dat0 (V1 m ρ) c).arrAt_in 0 rfl _).trans (A_eq0 (V1 m ρ) c 0))).trans (V1_main_arg0 m ρ c)
theorem V2_main_v1 (c : Dev nD) : V2 m ρ c main_v1 = V1 m ρ c main_v1 := W2_of_ne m ρ c main_v1 (by decide)
theorem V2_main_v8 (c : Dev nD) : V2 m ρ c main_v8 = V1 m ρ c main_v8 := W2_of_ne m ρ c main_v8 (by decide)
/-- The matrix array is what the first region left. -/
theorem V2_main_v9 (c : Dev nD) : (V2 m ρ c main_v9 : S4x8x64x256.Idx → EReal) = G0 m c :=
  (W2_arr m ρ c 4).trans (final0 m ρ c)

/-! ## The printed index maps, decided over the grid -/

theorem idx1 : ∀ t : Fin cfg1.N,
    (win1_0.index t (0 : Fin 3) = t.val / 32 ∧ win1_0.index t (1 : Fin 3) = t.val / 8 % 4 ∧ win1_0.index t (2 : Fin 3) = 0)
    ∧ (win1_1.index t (0 : Fin 3) = t.val % 8 ∧ win1_1.index t (1 : Fin 3) = 0 ∧ win1_1.index t (2 : Fin 3) = 0)
    ∧ (win1_2.index t (0 : Fin 4) = t.val / 32 ∧ win1_2.index t (1 : Fin 4) = t.val % 8 ∧ win1_2.index t (2 : Fin 4) = 0 ∧ win1_2.index t (3 : Fin 4) = 0)
    ∧ (win1_3.index t (0 : Fin 2) = 0 ∧ win1_3.index t (1 : Fin 2) = 0)
    ∧ (win1_4.index t (0 : Fin 3) = t.val / 32 ∧ win1_4.index t (1 : Fin 3) = t.val / 8 % 4 ∧ win1_4.index t (2 : Fin 3) = 0) :=
  (by decide +kernel : ∀ t : Fin grid1.N, _)

theorem onto1 : ∀ (b : Fin 4) (nt : Fin 4), ∃ t : Fin cfg1.N, t.val = 32 * b.val + 8 * nt.val + 7 :=
  (by decide +kernel : ∀ (b : Fin 4) (nt : Fin 4), ∃ t : Fin grid1.N, t.val = 32 * b.val + 8 * nt.val + 7)

/-! ## The blocks, read at an index -/

theorem blk1_x (c : Dev nD) (t : Fin cfg1.N) (b : Fin 4) (nt : Fin 4) (hb : t.val / 32 = b.val) (hn : t.val / 8 % 4 = nt.val)
    (r : Fin 2048) (cc : Fin 256) :
    (iblk1 (V2 m ρ) c 0 t : S1x2048x256.Idx → EReal) (ix3 0 r cc) = Xm m c b (Cert.Spec.seqAt nt r) cc := by
  obtain ⟨⟨e0, e1, e2⟩, -⟩ := idx1 t
  unfold iblk1
  rw [View.read_apply]
  show (V2 m ρ c main_arg0 : S4x8192x256.Idx → EReal) _ = (m ((c : Thread nD τ).loc main_arg0) : S4x8192x256.Idx → EReal) _
  rw [V2_main_arg0]
  refine congrArg _ (funext fun a => Fin.ext ?_)
  match a with
  | ⟨0, _⟩ => show win1_0.index t (0 : Fin 3) * 1 + 1 * 0 = b.val; omega
  | ⟨1, _⟩ => show win1_0.index t (1 : Fin 3) * 2048 + 1 * r.val = 2048 * nt.val + r.val; omega
  | ⟨2, _⟩ => show win1_0.index t (2 : Fin 3) * 256 + 1 * cc.val = cc.val; omega

theorem blk1_q (c : Dev nD) (t : Fin cfg1.N) (h : Fin 8) (hh : t.val % 8 = h.val) (j : Fin 64) (cc : Fin 256) :
    (iblk1 (V2 m ρ) c 1 t : S1x64x256.Idx → EReal) (ix3 0 j cc) = Wm m c (Cert.Spec.rowQ h j) cc := by
  obtain ⟨-, ⟨e0, e1, e2⟩, -⟩ := idx1 t
  refine Eq.trans ?_ (V1_main_v1_apply m ρ c h j cc)
  unfold iblk1
  rw [View.read_apply]
  show (V2 m ρ c main_v1 : S8x64x256.Idx → EReal) _ = (V1 m ρ c main_v1 : S8x64x256.Idx → EReal) _
  rw [V2_main_v1]
  refine congrArg _ (funext fun a => Fin.ext ?_)
  match a with
  | ⟨0, _⟩ => show win1_1.index t (0 : Fin 3) * 1 + 1 * 0 = h.val; omega
  | ⟨1, _⟩ => show win1_1.index t (1 : Fin 3) * 64 + 1 * j.val = j.val; omega
  | ⟨2, _⟩ => show win1_1.index t (2 : Fin 3) * 256 + 1 * cc.val = cc.val; omega

theorem blk1_m (c : Dev nD) (t : Fin cfg1.N) (b : Fin 4) (h : Fin 8) (hb : t.val / 32 = b.val) (hh : t.val % 8 = h.val) (d : Fin 64) (c' : Fin 256) :
    (iblk1 (V2 m ρ) c 2 t : S1x1x64x256.Idx → EReal) (ix4 0 0 d c') = Cert.Spec.M (Xm m c) (Wm m c) (Wom m c) b h d c' := by
  obtain ⟨-, -, ⟨e0, e1, e2, e3⟩, -⟩ := idx1 t
  unfold iblk1
  rw [View.read_apply]
  show (V2 m ρ c main_v9 : S4x8x64x256.Idx → EReal) _ = _
  rw [V2_main_v9]
  show G0 m c _ = G0 m c (ix4 b h d c')
  refine congrArg _ (funext fun a => Fin.ext ?_)
  match a with
  | ⟨0, _⟩ => show win1_2.index t (0 : Fin 4) * 1 + 1 * 0 = b.val; omega
  | ⟨1, _⟩ => show win1_2.index t (1 : Fin 4) * 1 + 1 * 0 = h.val; omega
  | ⟨2, _⟩ => show win1_2.index t (2 : Fin 4) * 64 + 1 * d.val = d.val; omega
  | ⟨3, _⟩ => show win1_2.index t (3 : Fin 4) * 256 + 1 * c'.val = c'.val; omega

theorem blk1_b (c : Dev nD) (t : Fin cfg1.N) (c' : Fin 256) :
    (iblk1 (V2 m ρ) c 3 t : S1x256.Idx → EReal) (ix2 0 c') = bm m c c' := by
  obtain ⟨-, -, -, ⟨e0, e1⟩, -⟩ := idx1 t
  refine Eq.trans ?_ (V1_main_v8_apply m ρ c c')
  unfold iblk1
  rw [View.read_apply]
  show (V2 m ρ c main_v8 : S1x256.Idx → EReal) _ = (V1 m ρ c main_v8 : S1x256.Idx → EReal) _
  rw [V2_main_v8]
  refine congrArg _ (funext fun a => Fin.ext ?_)
  match a with
  | ⟨0, _⟩ => show win1_3.index t (0 : Fin 2) * 1 + 1 * 0 = 0; omega
  | ⟨1, _⟩ => show win1_3.index t (1 : Fin 2) * 256 + 1 * c'.val = c'.val; omega

/-! ## One accumulate step, and the eight of a (batch, tile) -/

theorem step1_at (c : Dev nD) (t : Fin cfg1.N) (b : Fin 4) (nt : Fin 4) (h : Fin 8)
    (hb : t.val / 32 = b.val) (hn : t.val / 8 % 4 = nt.val) (hh : t.val % 8 = h.val)
    (acc : FVec Ideal S2048x256 .f32) (r : Fin 2048) (c' : Fin 256) :
    step1 (F := Ideal) (iblk1 (V2 m ρ) c 0 t) (iblk1 (V2 m ρ) c 1 t) (iblk1 (V2 m ρ) c 2 t) acc (ix2 r c')
      = acc (ix2 r c') + Cert.Spec.headTerm (Xm m c) (Wm m c) (Wom m c) b (Cert.Spec.seqAt nt r) c' h := by
  unfold step1
  refine (k1_pay2_apply _ _ _ _ r c').trans ?_
  simp only [blk1_x m ρ c t b nt hb hn, blk1_q m ρ c t h hh, blk1_m m ρ c t b h hb hh]
  rfl

theorem sc1_reset (c : Dev nD) (V : (c : Dev nD) → (b : Ref sig .tc) → Buf (Elt Ideal) ((c : Thread nD τ).loc b)) :
    ∀ (n : ℕ) (h : n < cfg1.N), n % 8 = 0 →
      sc1 V c n h = step1 (iblk1 V c 0 ⟨n, h⟩) (iblk1 V c 1 ⟨n, h⟩) (iblk1 V c 2 ⟨n, h⟩) (k1_pay1 (F := Ideal))
  | 0, h, _ => rfl
  | n + 1, h, h0 => by rw [sc1_succ, if_pos h0]

theorem sc1_acc (c : Dev nD) (V : (c : Dev nD) → (b : Ref sig .tc) → Buf (Elt Ideal) ((c : Thread nD τ).loc b))
    (n k : ℕ) (hk : k = n + 1) (h : k < cfg1.N) (h0 : ¬k % 8 = 0) :
    sc1 V c k h = step1 (iblk1 V c 0 ⟨k, h⟩) (iblk1 V c 1 ⟨k, h⟩) (iblk1 V c 2 ⟨k, h⟩) (sc1 V c n (by omega)) := by
  subst hk
  rw [sc1_succ, if_neg h0]

/-- At a last-head point the scratch holds the eight heads' shares added in order into zero. -/
theorem sc1_last (c : Dev nD) (b : Fin 4) (nt : Fin 4) (n : ℕ) (hn7 : n + 7 < cfg1.N)
    (hb : (n + 7) / 32 = b.val) (hnt : (n + 7) / 8 % 4 = nt.val) (h0 : n % 8 = 0) (r : Fin 2048) (c' : Fin 256) :
    sc1 (V2 m ρ) c (n + 7) hn7 (ix2 r c') + bm m c c'
      = Cert.Spec.outK (Xm m c) (Wm m c) (Wom m c) (bm m c) b (Cert.Spec.seqAt nt r) c' := by
  have hN : cfg1.N = 128 := N_1
  rw [sc1_acc c (V2 m ρ) (n + 6) (n + 7) rfl (by omega) (by omega)]
  rw [step1_at m ρ c ⟨n + 7, by omega⟩ b nt 7 (by show (n + 7) / 32 = b.val; omega) (by show (n + 7) / 8 % 4 = nt.val; omega) (by show (n + 7) % 8 = 7; omega)]
  rw [sc1_acc c (V2 m ρ) (n + 5) (n + 6) rfl (by omega) (by omega)]
  rw [step1_at m ρ c ⟨n + 6, by omega⟩ b nt 6 (by show (n + 6) / 32 = b.val; omega) (by show (n + 6) / 8 % 4 = nt.val; omega) (by show (n + 6) % 8 = 6; omega)]
  rw [sc1_acc c (V2 m ρ) (n + 4) (n + 5) rfl (by omega) (by omega)]
  rw [step1_at m ρ c ⟨n + 5, by omega⟩ b nt 5 (by show (n + 5) / 32 = b.val; omega) (by show (n + 5) / 8 % 4 = nt.val; omega) (by show (n + 5) % 8 = 5; omega)]
  rw [sc1_acc c (V2 m ρ) (n + 3) (n + 4) rfl (by omega) (by omega)]
  rw [step1_at m ρ c ⟨n + 4, by omega⟩ b nt 4 (by show (n + 4) / 32 = b.val; omega) (by show (n + 4) / 8 % 4 = nt.val; omega) (by show (n + 4) % 8 = 4; omega)]
  rw [sc1_acc c (V2 m ρ) (n + 2) (n + 3) rfl (by omega) (by omega)]
  rw [step1_at m ρ c ⟨n + 3, by omega⟩ b nt 3 (by show (n + 3) / 32 = b.val; omega) (by show (n + 3) / 8 % 4 = nt.val; omega) (by show (n + 3) % 8 = 3; omega)]
  rw [sc1_acc c (V2 m ρ) (n + 1) (n + 2) rfl (by omega) (by omega)]
  rw [step1_at m ρ c ⟨n + 2, by omega⟩ b nt 2 (by show (n + 2) / 32 = b.val; omega) (by show (n + 2) / 8 % 4 = nt.val; omega) (by show (n + 2) % 8 = 2; omega)]
  rw [sc1_acc c (V2 m ρ) n (n + 1) rfl (by omega) (by omega)]
  rw [step1_at m ρ c ⟨n + 1, by omega⟩ b nt 1 (by show (n + 1) / 32 = b.val; omega) (by show (n + 1) / 8 % 4 = nt.val; omega) (by show (n + 1) % 8 = 1; omega)]
  rw [sc1_reset c (V2 m ρ) n (by omega) h0]
  rw [step1_at m ρ c ⟨n, by omega⟩ b nt 0 (by show n / 32 = b.val; omega) (by show n / 8 % 4 = nt.val; omega) (by show n % 8 = 0; omega)]
  rw [k1_pay1_apply]
  rfl

/-- The batch and the sequence tile of a grid point. -/
def bOf1 (t : Fin cfg1.N) : Fin 4 := ⟨t.val / 32, by have := t.isLt; have hN : cfg1.N = 128 := N_1; omega⟩
def nOf1 (t : Fin cfg1.N) : Fin 4 := ⟨t.val / 8 % 4, Nat.mod_lt _ (by norm_num)⟩

theorem sc1_last' (c : Dev nD) (t : Fin cfg1.N) (h7 : t.val % 8 = 7) (r : Fin 2048) (c' : Fin 256) :
    sc1 (V2 m ρ) c t.val t.isLt (ix2 r c') + bm m c c'
      = Cert.Spec.outK (Xm m c) (Wm m c) (Wom m c) (bm m c) (bOf1 t) (Cert.Spec.seqAt (nOf1 t) r) c' := by
  obtain ⟨tv, ht⟩ := t
  obtain ⟨n, rfl⟩ : ∃ n, tv = n + 7 := ⟨tv - 7, by have : tv % 8 = 7 := h7; omega⟩
  exact sc1_last m ρ c _ _ n ht rfl rfl (by have : (n + 7) % 8 = 7 := h7; omega) r c'

/-! ## From blocks to the array -/

theorem unit3 (y : S1x2048x256.Idx) : y = ix3 (0 : Fin 1) (y 1) (y 2) := by
  funext a
  match a with
  | ⟨0, _⟩ => exact Fin.ext (by have h : (y 0).val < 1 := (y 0).isLt; show (y 0).val = 0; omega)
  | ⟨1, _⟩ => rfl
  | ⟨2, _⟩ => rfl

/-- What a last-head point writes back is its block of `G1`. -/
theorem flushed1_eq (c : Dev nD) (t : Fin cfg1.N) (hf : (cfg1.win 4).flush t = true) :
    (dat1 (V2 m ρ) c).flushed 4 t = ((cfg1.win 4).blk t).view.read (Elt Ideal) (G1 m c) := by
  have hN : cfg1.N = 128 := N_1
  have h7 : t.val % 8 = 7 := (flush1_4 t).mp hf
  have ht : t.val < 128 := lt_of_lt_of_eq t.isLt hN
  obtain ⟨-, -, -, -, ⟨e0, e1, e2⟩⟩ := idx1 t
  show (cfg1.win 4).cut (grid1.coords t) ((dat1 (V2 m ρ) c).after 4 t) = _
  rw [after1_4, outsAt1_fst (V2 m ρ) c t h7]
  funext y
  obtain ⟨r, c', rfl⟩ : ∃ (r : Fin 2048) (c' : Fin 256), y = ix3 (0 : Fin 1) r c' := ⟨y 1, y 2, unit3 y⟩
  show k1_pay3 (F := Ideal) (sc1 (V2 m ρ) c t.val t.isLt) (iblk1 (V2 m ρ) c 3 t) (ix3 0 r c') = G1 m c (((cfg1.win 4).blk t).view.emb (ix3 0 r c'))
  have hemb : ((cfg1.win 4).blk t).view.emb (ix3 (0 : Fin 1) r c') = (ix3 (bOf1 t) (Cert.Spec.seqAt (nOf1 t) r) c' : S4x8192x256.Idx) := by
    funext a; apply Fin.ext
    match a with
    | ⟨0, _⟩ => show win1_4.index t (0 : Fin 3) * 1 + 1 * 0 = t.val / 32; omega
    | ⟨1, _⟩ => show win1_4.index t (1 : Fin 3) * 2048 + 1 * r.val = 2048 * (t.val / 8 % 4) + r.val; omega
    | ⟨2, _⟩ => show win1_4.index t (2 : Fin 3) * 256 + 1 * c'.val = c'.val; omega
  rw [hemb]
  refine (k1_pay3_apply _ _ r c').trans ?_
  rw [blk1_b m ρ c t c']
  exact sc1_last' m ρ c t h7 r c'

theorem mem_blk1 (t : Fin cfg1.N) (i : S4x8192x256.Idx) :
    i ∈ ((cfg1.win 4).blk t).view.set ↔ ∀ a : Fin 3, win1_4.index t a * S1x2048x256.size a ≤ (i a).val ∧ (i a).val < win1_4.index t a * S1x2048x256.size a + S1x2048x256.size a := by
  show i ∈ ((View.whole main_v10).slice (win1_4.rect t)).set ↔ _
  rw [View.set_slice_whole, Rect.mem_set_unit]
  exact Iff.rfl

/-- The result array after the run. -/
theorem final1 (c : Dev nD) : (dat1 (V2 m ρ) c).arrAt 4 cfg1.N = G1 m c :=
  (dat1 (V2 m ρ) c).arrAt_eq_of_cover 4 (G1 m c) (flushed1_eq m ρ c) fun i => by
    have hi0 : (i 0).val < 4 := (i 0).isLt
    have hi1 : (i 1).val < 8192 := (i 1).isLt
    have hi2 : (i 2).val < 256 := (i 2).isLt
    obtain ⟨t, ht⟩ := onto1 ⟨(i 0).val, hi0⟩ ⟨(i 1).val / 2048, by omega⟩
    have ht' : t.val = 32 * (i 0).val + 8 * ((i 1).val / 2048) + 7 := ht
    obtain ⟨-, -, -, -, ⟨e0, e1, e2⟩⟩ := idx1 t
    refine ⟨t, (flush1_4 t).mpr (by omega), ?_⟩
    rw [mem_blk1]
    intro a
    match a with
    | ⟨0, _⟩ => show win1_4.index t (0 : Fin 3) * 1 ≤ (i 0).val ∧ (i 0).val < win1_4.index t (0 : Fin 3) * 1 + 1; omega
    | ⟨1, _⟩ => show win1_4.index t (1 : Fin 3) * 2048 ≤ (i 1).val ∧ (i 1).val < win1_4.index t (1 : Fin 3) * 2048 + 2048; omega
    | ⟨2, _⟩ => show win1_4.index t (2 : Fin 3) * 256 ≤ (i 2).val ∧ (i 2).val < win1_4.index t (2 : Fin 3) * 256 + 256; omega

/-- The kernel's run, read: the result array at the specification's kernel form, the arguments unchanged. -/
theorem run_kernel : θ_run defs (onTc (τ := τ) (main (F := Ideal))) ⟨m, fun _ => 0, ρ⟩ (fun r => ∀ c : Dev nD,
      r.2.mem ((c.tc : Thread nD τ).loc main_v10) = G1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (final1 m ρ c), (h c).2⟩) (run_value m ρ)

end Cert.KernelIdeal.Fr

end
-- ==== Proof.LibInstNorm.lean ====
/-
  An instance-normalised finite row is finite.

  An instance norm takes a row of entries, subtracts the row's mean, and multiplies by the reciprocal square
  root of the row's (biased) variance plus a positive offset; the mean and the variance are sums divided by a
  positive real, the length of the row. When every entry of the row is a real number, so is every entry of the
  result: the mean is a real; each centred entry is a real; the variance is a sum of real squares times a
  positive real, hence a nonnegative real; adding the positive offset gives a positive real, and the reciprocal
  square root of a positive real is the inverse of a nonzero real. No infinity and no junk value can appear.
-/
import Mathlib
import Idealize.ShloMosaic.PureOps.Ideal

namespace Cert.Lib

open Idealize.ShloMosaic

/-- A finite sum of reals over a whole finite type, read in the extended reals, is the real sum. -/
theorem univ_sum_coe {ι : Type*} [Fintype ι] (f : ι → ℝ) :
    ∑ i, ((f i : ℝ) : EReal) = ((∑ i, f i : ℝ) : EReal) := by
  classical
  have h : ∀ s : Finset ι, ∑ i ∈ s, ((f i : ℝ) : EReal) = ((∑ i ∈ s, f i : ℝ) : EReal) := by
    intro s
    induction s using Finset.induction_on with
    | empty => simp
    | insert a s ha ih => rw [Finset.sum_insert ha, Finset.sum_insert ha, ih, EReal.coe_add]
  exact h Finset.univ

/-- The reciprocal square root of a positive real is a real, the inverse of its square root. -/
theorem rsqrt_coe_of_pos {r : ℝ} (hr : 0 < r) : Ideal.rsqrt (r : EReal) = (((Real.sqrt r)⁻¹ : ℝ) : EReal) := by
  rw [Ideal.rsqrt_coe, if_neg (not_lt.2 hr.le), if_neg hr.ne']

/-- A row of reals, centred at its mean and multiplied by the reciprocal square root of its variance plus a
    positive real `e`, is a row of reals. The mean and the variance divide by the positive real `c`. The value
    is the real one expects: `(t j - μ) / sqrt (var + e)` with `μ = (Σ t) / c` and `var = (Σ (t - μ)²) / c`. -/
theorem inorm_row_coe {ι : Type*} [Fintype ι] (t : ι → ℝ) {c e : ℝ} (hc : 0 < c) (he : 0 < e) (j : ι) :
    ((t j : EReal) - Ideal.div (∑ i, (t i : EReal)) (c : EReal)) *
      Ideal.rsqrt (Ideal.div (∑ i, ((t i : EReal) - Ideal.div (∑ i, (t i : EReal)) (c : EReal)) *
        ((t i : EReal) - Ideal.div (∑ i, (t i : EReal)) (c : EReal))) (c : EReal) + (e : EReal))
      = (((t j - (∑ i, t i) * (1 / c)) *
          (Real.sqrt ((∑ i, (t i - (∑ i, t i) * (1 / c)) * (t i - (∑ i, t i) * (1 / c))) * (1 / c) + e))⁻¹ : ℝ) : EReal) := by
  have hpos : 0 < (∑ i, (t i - (∑ i, t i) * (1 / c)) * (t i - (∑ i, t i) * (1 / c))) * (1 / c) + e := by
    have h1 : 0 ≤ ∑ i, (t i - (∑ i, t i) * (1 / c)) * (t i - (∑ i, t i) * (1 / c)) :=
      Finset.sum_nonneg fun i _ => mul_self_nonneg _
    have h2 : 0 ≤ 1 / c := (one_div_pos.2 hc).le
    have h3 := mul_nonneg h1 h2
    linarith
  rw [univ_sum_coe, Ideal.div_coe hc.ne', ← EReal.coe_mul]
  simp only [← EReal.coe_sub, ← EReal.coe_mul, univ_sum_coe]
  rw [Ideal.div_coe hc.ne', ← EReal.coe_mul, ← EReal.coe_add, rsqrt_coe_of_pos hpos, ← EReal.coe_mul]

/-- The same, as an existence statement: every entry of the normalised row is a real. -/
theorem inorm_row_real {ι : Type*} [Fintype ι] (t : ι → ℝ) {c e : ℝ} (hc : 0 < c) (he : 0 < e) (j : ι) :
    ∃ r : ℝ, ((t j : EReal) - Ideal.div (∑ i, (t i : EReal)) (c : EReal)) *
      Ideal.rsqrt (Ideal.div (∑ i, ((t i : EReal) - Ideal.div (∑ i, (t i : EReal)) (c : EReal)) *
        ((t i : EReal) - Ideal.div (∑ i, (t i : EReal)) (c : EReal))) (c : EReal) + (e : EReal)) = (r : EReal) :=
  ⟨_, inorm_row_coe t hc he j⟩

end Cert.Lib
-- ==== Proof.AlgConsts.lean ====
/-
  The four float words the specification keeps as bit patterns, as the extended reals they denote:
  64 and 8192 (the two divisors), 2⁻¹³ = 1/8192 (the scale), and the small constant under the reciprocal
  square root, of which only this is needed: it is a positive real.
  One module evaluates them all, once each.
-/
import Mathlib
import Idealize.ShloMosaic.PureOps.Ideal
import proofs.«123484_j5523327943104_1_alg».proof.Proof.Spec

namespace Cert.Spec

open Idealize.ShloMosaic

/-- The word `0x42800000` is 2⁶ = 64. -/
theorem c64_eq : c64 = ((64 : ℝ) : EReal) := by
  simp [c64, Ideal.ofBits, Ideal.ieee, -EReal.coe_mul]; norm_num

/-- The word `0x46000000` is 2¹³ = 8192. -/
theorem n8192_eq : n8192 = ((8192 : ℝ) : EReal) := by
  simp [n8192, Ideal.ofBits, Ideal.ieee, -EReal.coe_mul]; norm_num

/-- The word `0x39000000` is 2⁻¹³ = 1/8192. -/
theorem invn_eq : invn = ((1 / 8192 : ℝ) : EReal) := by
  simp [invn, Ideal.ofBits, Ideal.ieee, -EReal.coe_mul]; norm_num

/-- The word `0x3727C5AC` is a positive real (10995116 · 2⁻⁴⁰, about 10⁻⁵). -/
theorem eps_pos : ∃ e : ℝ, 0 < e ∧ eps = (e : EReal) := by
  simp [eps, Ideal.ofBits, Ideal.ieee, -EReal.coe_mul]

end Cert.Spec
-- ==== Proof.AlgLaw.lean ====
/-
  The algebraic law of linear attention, over the reals and over abstract finite index types.

  Heads `h`, channels `d` (of the keys and queries) and `e` (of the values), sequence positions `n`. The
  sequence is cut into tiles: position `sq t r` is place `r` of tile `t`, and every position is met exactly
  once, so a sum over positions is the double sum over tiles and places. The heads' value channels are laid
  side by side: inner channel `lay h e` is channel `e` of head `h`, read back by `hOf` and `eOf`, and a sum
  over inner channels is the double sum over heads and channels.

  One form contracts the sequence first, tile by tile, then the value channel against the output weights,
  scales, and applies the queries last; the other applies the queries to the contracted sequence, scales, and
  contracts the inner channel against the output weights. Both are the same fourfold sum
  Σ_h Σ_d Σ_e Σ_n Q[h,d] · K[h,n,d] · V[h,n,e] · w[lay h e] · s, in two orders.
-/
import Mathlib

namespace Cert.Spec

open scoped BigOperators

/-- A sum over an index that a pair of indices enumerates exactly once is the double sum. -/
theorem sum_eq_sum_pair {A B C : Type*} [Fintype A] [Fintype B] [Fintype C] (p : A × B ≃ C) (g : C → ℝ) :
    ∑ c, g c = ∑ a, ∑ b, g (p (a, b)) := by
  rw [← p.sum_comp g, Fintype.sum_prod_type]

/-- The two orders of the fourfold sum. -/
theorem attn_law {H D E N T R F : Type*} [Fintype H] [Fintype D] [Fintype E] [Fintype N] [Fintype T]
    [Fintype R] [Fintype F] (sq : T → R → N) (lay : H → E → F) (hOf : F → H) (eOf : F → E)
    (hsq : ∀ g : N → ℝ, ∑ n, g n = ∑ t, ∑ r, g (sq t r))
    (hlay : ∀ g : F → ℝ, ∑ f, g f = ∑ h, ∑ e, g (lay h e))
    (hh : ∀ h e, hOf (lay h e) = h) (he : ∀ h e, eOf (lay h e) = e)
    (Q : H → D → ℝ) (K : H → N → D → ℝ) (V : H → N → E → ℝ) (w : F → ℝ) (s : ℝ) :
    ∑ h, ∑ d, Q h d * ((∑ e, (∑ t, ∑ r, K h (sq t r) d * V h (sq t r) e) * w (lay h e)) * s)
      = ∑ f, ((∑ d, Q (hOf f) d * ∑ n, K (hOf f) n d * V (hOf f) n (eOf f)) * s) * w f := by
  rw [hlay]
  refine Finset.sum_congr rfl fun h _ => ?_
  simp only [hh, he, hsq, Finset.mul_sum, Finset.sum_mul]
  rw [Finset.sum_comm]
  refine Finset.sum_congr rfl fun e _ => Finset.sum_congr rfl fun d _ => Finset.sum_congr rfl fun t _ =>
    Finset.sum_congr rfl fun r _ => ?_
  ring

end Cert.Spec
-- ==== Proof.AlgIndex.lean ====
/-
  The two regroupings of the specification's index sets.

  A sequence position below 8192 is place `r` of tile `t` for exactly one pair `(t, r)` (its quotient and its
  remainder by 2048); an inner channel below 512 is channel `e` of head `h` for exactly one pair `(h, e)` (its
  quotient and its remainder by 64). So a sum over positions is a double sum over tiles and places, and a sum
  over inner channels is a double sum over heads and channels.
-/
import Mathlib
import proofs.«123484_j5523327943104_1_alg».proof.Proof.Spec
import proofs.«123484_j5523327943104_1_alg».proof.Proof.AlgLaw

namespace Cert.Spec

/-- The head of inner channel `64·h + e` is `h`. -/
theorem hOf_hd (h : Fin 8) (e : Fin 64) : hOf (hd h e) = h := by
  apply Fin.ext
  have := h.isLt
  have := e.isLt
  simp only [hOf, hd]
  omega

/-- The channel of inner channel `64·h + e` is `e`. -/
theorem eOf_hd (h : Fin 8) (e : Fin 64) : eOf (hd h e) = e := by
  apply Fin.ext
  have := h.isLt
  have := e.isLt
  simp only [eOf, hd]
  omega

/-- An inner channel is 64 times its head plus its channel. -/
theorem hd_hOf_eOf (f : Fin 512) : hd (hOf f) (eOf f) = f := by
  apply Fin.ext
  have := f.isLt
  simp only [hd, hOf, eOf]
  omega

/-- Heads and channels enumerate the inner channels exactly once. -/
def hdEquiv : Fin 8 × Fin 64 ≃ Fin 512 where
  toFun p := hd p.1 p.2
  invFun f := (hOf f, eOf f)
  left_inv := fun p => Prod.ext (hOf_hd p.1 p.2) (eOf_hd p.1 p.2)
  right_inv := hd_hOf_eOf

/-- The tile of position `2048·t + r` is `t` and its place is `r`; a position is 2048 times its tile plus its
    place: tiles and places enumerate the positions exactly once. -/
def seqEquiv : Fin 4 × Fin 2048 ≃ Fin 8192 where
  toFun p := seqAt p.1 p.2
  invFun n := (⟨n.val / 2048, by have := n.isLt; omega⟩, ⟨n.val % 2048, Nat.mod_lt _ (by norm_num)⟩)
  left_inv := by
    intro p
    have := p.1.isLt
    have := p.2.isLt
    refine Prod.ext (Fin.ext ?_) (Fin.ext ?_) <;> simp only [seqAt] <;> omega
  right_inv := by
    intro n
    apply Fin.ext
    have := n.isLt
    simp only [seqAt]
    omega

/-- A sum over the 8192 positions is the sum over the four tiles of the sums over a tile's 2048 places. -/
theorem sum_seq (g : Fin 8192 → ℝ) : ∑ n, g n = ∑ t : Fin 4, ∑ r : Fin 2048, g (seqAt t r) :=
  sum_eq_sum_pair seqEquiv g

/-- A sum over the 512 inner channels is the sum over the eight heads of the sums over a head's 64 channels. -/
theorem sum_hd (g : Fin 512 → ℝ) : ∑ f, g f = ∑ h : Fin 8, ∑ e : Fin 64, g (hd h e) :=
  sum_eq_sum_pair hdEquiv g

end Cert.Spec
-- ==== Proof.AlgReal.lean ====
/-
  With finite inputs, every query and every normalised key and value of the specification is a real number.

  A projection is a finite sum of products of reals. A key or value row of 64 channels is normalised by
  subtracting its mean and multiplying by the reciprocal square root of its variance plus the small constant;
  the divisor 64 and the small constant are positive reals, so the normalised row of a real row is real.
-/
import Mathlib
import Idealize.ShloMosaic.PureOps.Ideal
import proofs.«123484_j5523327943104_1_alg».proof.Proof.Spec
import proofs.«123484_j5523327943104_1_alg».proof.Proof.LibInstNorm
import proofs.«123484_j5523327943104_1_alg».proof.Proof.AlgConsts

namespace Cert.Spec

open Idealize.ShloMosaic

/-- A row of 64 reals, normalised, is a row of reals. -/
theorem inorm_real (t : Fin 64 → ℝ) (j : Fin 64) : ∃ r : ℝ, inorm (fun i => (t i : EReal)) j = (r : EReal) := by
  obtain ⟨e, he, hε⟩ := eps_pos
  unfold inorm mean
  rw [c64_eq, hε]
  exact Cert.Lib.inorm_row_real t (by norm_num) he j

section
variable (x : Fin 4 → Fin 8192 → Fin 256 → EReal) (Wqkv : Fin 1536 → Fin 256 → EReal)
  (hx : ∀ b n c, ∃ r : ℝ, x b n c = (r : EReal)) (hW : ∀ f c, ∃ r : ℝ, Wqkv f c = (r : EReal))
include hx hW

/-- A projection of finite inputs is a real: a finite sum of products of reals. -/
theorem proj_real (row : Fin 8 → Fin 64 → Fin 1536) (b : Fin 4) (h : Fin 8) (n : Fin 8192) (d : Fin 64) :
    ∃ r : ℝ, proj x Wqkv row b h n d = (r : EReal) := by
  choose xr hxr using hx
  choose wr hwr using hW
  refine ⟨∑ c, xr b n c * wr (row h d) c, ?_⟩
  unfold proj
  simp only [hxr, hwr, ← EReal.coe_mul]
  exact Cert.Lib.univ_sum_coe _

/-- Every query is a real. -/
theorem q_real (b : Fin 4) (h : Fin 8) (n : Fin 8192) (d : Fin 64) : ∃ r : ℝ, q x Wqkv b h n d = (r : EReal) :=
  proj_real x Wqkv hx hW rowQ b h n d

/-- Every normalised key is a real. -/
theorem kn_real (b : Fin 4) (h : Fin 8) (n : Fin 8192) (d : Fin 64) : ∃ r : ℝ, kn x Wqkv b h n d = (r : EReal) := by
  choose P hP using proj_real x Wqkv hx hW rowK b h n
  unfold kn
  simp only [hP]
  exact inorm_real P d

/-- Every normalised value is a real. -/
theorem vn_real (b : Fin 4) (h : Fin 8) (n : Fin 8192) (e : Fin 64) : ∃ r : ℝ, vn x Wqkv b h n e = (r : EReal) := by
  choose P hP using proj_real x Wqkv hx hW rowV b h n
  unfold vn
  simp only [hP]
  exact inorm_real P e

end

end Cert.Spec
-- ==== Proof.Algebra.lean ====
/-
  The kernel's form and the reference's form of linear attention agree on finite inputs.

  With finite inputs the queries and the normalised keys and values are reals (the normalisation divides by
  64 and takes the reciprocal square root of a variance plus a positive constant, so no infinity and no junk
  value appears), and the output weights are reals; so every sum below is a sum of reals. The kernel adds four
  tiles and eight heads in order into a zero accumulator — a sum over the four tiles, a sum over the eight
  heads; the reference divides by 8192 where the kernel multiplies by 2⁻¹³ — the same product. What is left is
  the law of the fourfold sum over heads, key channels, value channels and positions, read in two orders, with
  the positions regrouped into tiles and the 512 inner channels into heads and channels. The bias is added
  last to a real on both sides and needs no finiteness.
-/
import Mathlib
import Idealize.ShloMosaic.PureOps.Ideal
import proofs.«123484_j5523327943104_1_alg».proof.Proof.Spec
import proofs.«123484_j5523327943104_1_alg».proof.Proof.LibInstNorm
import proofs.«123484_j5523327943104_1_alg».proof.Proof.AlgConsts
import proofs.«123484_j5523327943104_1_alg».proof.Proof.AlgLaw
import proofs.«123484_j5523327943104_1_alg».proof.Proof.AlgIndex
import proofs.«123484_j5523327943104_1_alg».proof.Proof.AlgReal

namespace Cert.Spec

open Idealize.ShloMosaic

/-- Four tiles added in order into zero: the sum over the four tiles. -/
theorem accK_eq (x : Fin 4 → Fin 8192 → Fin 256 → EReal) (Wqkv : Fin 1536 → Fin 256 → EReal)
    (b : Fin 4) (h : Fin 8) (d e : Fin 64) : accK x Wqkv b h d e = ∑ t, part x Wqkv b h t d e := by
  unfold accK
  rw [Fin.sum_univ_four, zero_add]

/-- Eight heads added in order into zero, then the bias: the sum over the eight heads, then the bias. -/
theorem outK_eq (x : Fin 4 → Fin 8192 → Fin 256 → EReal) (Wqkv : Fin 1536 → Fin 256 → EReal)
    (Wout : Fin 256 → Fin 512 → EReal) (bout : Fin 256 → EReal) (b : Fin 4) (n : Fin 8192) (c : Fin 256) :
    outK x Wqkv Wout bout b n c = (∑ h, headTerm x Wqkv Wout b n c h) + bout c := by
  unfold outK
  rw [Fin.sum_univ_eight, zero_add]

/-- On finite inputs the kernel's form and the reference's form are the same function: both are, at every
    batch, position and output channel, the bias plus the fourfold sum over heads, key channels, value channels
    and positions of query · key · value · output weight / 8192. -/
theorem outK_eq_outR (x : Fin 4 → Fin 8192 → Fin 256 → EReal) (Wqkv : Fin 1536 → Fin 256 → EReal)
    (Wout : Fin 256 → Fin 512 → EReal) (bout : Fin 256 → EReal)
    (hx : ∀ b n c, ∃ r : ℝ, x b n c = (r : EReal)) (hW : ∀ f c, ∃ r : ℝ, Wqkv f c = (r : EReal))
    (hWo : ∀ c f, ∃ r : ℝ, Wout c f = (r : EReal)) :
    outK x Wqkv Wout bout = outR x Wqkv Wout bout := by
  -- real witnesses for the queries, the normalised keys and values, and the output weights
  choose Q hQ using q_real x Wqkv hx hW
  choose K hK using kn_real x Wqkv hx hW
  choose V hV using vn_real x Wqkv hx hW
  choose wo hwo using hWo
  -- the kernel's side, from the inside out, as reals
  have hpart : ∀ b h t d e, part x Wqkv b h t d e
      = ((∑ r, K b h (seqAt t r) d * V b h (seqAt t r) e : ℝ) : EReal) := by
    intro b h t d e
    unfold part
    simp only [hK, hV, ← EReal.coe_mul, Cert.Lib.univ_sum_coe]
  have hacc : ∀ b h d e, accK x Wqkv b h d e
      = ((∑ t, ∑ r, K b h (seqAt t r) d * V b h (seqAt t r) e : ℝ) : EReal) := by
    intro b h d e
    rw [accK_eq]
    simp only [hpart, Cert.Lib.univ_sum_coe]
  have hM : ∀ b h d c, M x Wqkv Wout b h d c
      = (((∑ e, (∑ t, ∑ r, K b h (seqAt t r) d * V b h (seqAt t r) e) * wo c (hd h e)) * (1 / 8192) : ℝ) : EReal) := by
    intro b h d c
    unfold M
    simp only [hacc, hwo, invn_eq, ← EReal.coe_mul, Cert.Lib.univ_sum_coe]
  have hhead : ∀ b n c h, headTerm x Wqkv Wout b n c h
      = ((∑ d, Q b h n d * ((∑ e, (∑ t, ∑ r, K b h (seqAt t r) d * V b h (seqAt t r) e) * wo c (hd h e))
          * (1 / 8192)) : ℝ) : EReal) := by
    intro b n c h
    unfold headTerm
    simp only [hQ, hM, ← EReal.coe_mul, Cert.Lib.univ_sum_coe]
  -- the reference's side, from the inside out, as reals
  have hdots : ∀ b h d e, dotsR x Wqkv b h d e = ((∑ n, K b h n d * V b h n e : ℝ) : EReal) := by
    intro b h d e
    unfold dotsR
    simp only [hK, hV, ← EReal.coe_mul, Cert.Lib.univ_sum_coe]
  have hattn : ∀ b h n e, attn x Wqkv b h n e
      = (((∑ d, Q b h n d * ∑ m, K b h m d * V b h m e) * (1 / 8192) : ℝ) : EReal) := by
    intro b h n e
    unfold attn
    rw [n8192_eq, Ideal.div_coe (by norm_num)]
    simp only [hQ, hdots, ← EReal.coe_mul, Cert.Lib.univ_sum_coe]
  funext b n c
  rw [outK_eq]
  unfold outR
  simp only [hhead, hattn, hwo, ← EReal.coe_mul, Cert.Lib.univ_sum_coe]
  refine congrArg (fun z : ℝ => (z : EReal) + bout c) ?_
  exact attn_law seqAt hd hOf eOf sum_seq sum_hd hOf_hd eOf_hd (fun h d => Q b h n d) (fun h m d => K b h m d)
    (fun h m e => V b h m e) (wo c) (1 / 8192)

end Cert.Spec
-- ==== Proof.RefIsSpec.lean ====
/-
  The reference program's result, read one element at a time, is the reference form `Cert.Spec.outR` of linear
  attention.

  The program multiplies x by Wqkvᵀ, cuts the 1536 columns into queries, keys and values (columns 0–511, 512–1023,
  1024–1535), reads each block of 512 columns as 8 heads of 64 channels (column 64·h + d is channel d of head h) and
  moves the head axis in front of the sequence axis. Each key row and each value row of 64 channels is normalised:
  the mean is the row's sum divided by 64, the variance is the sum of the squared deviations divided by 64, and the
  row minus its mean is multiplied by the reciprocal square root of the variance plus a small constant. Both sums
  start from the zero word, which is the extended real 0. Per batch and head, entry (d, e) of kᵀ·v sums the products
  of channel d of the keys and channel e of the values over the 8192 positions; the queries are applied to that
  matrix and the result is divided by 8192. The heads are then laid side by side again (inner channel f is channel
  f % 64 of head f / 64), multiplied by Woutᵀ, and the bias is added.

  Each lemma below states one of these stages at literal coordinates; an index that the program computes through
  a slice, a reshape and a transpose is identified with its coordinates by row-major arithmetic.
-/
import proofs.«123484_j5523327943104_1_alg».proof.Proof.Gen.ReferenceIdeal.Read
import proofs.«123484_j5523327943104_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx
open Cert.Spec (proj mean inorm q kn vn dotsR attn outR rowQ rowK rowV hOf eOf c64 eps n8192)

/-- The argument arrays read at literal coordinates. -/
abbrev xs (a0 : (⟨S4x8192x256, .f32⟩ : BufTy).Contents (Elt Ideal)) : Fin 4 → Fin 8192 → Fin 256 → EReal :=
  fun b n c => a0 (ix3 b n c)
abbrev wqkv (a1 : (⟨S1536x256, .f32⟩ : BufTy).Contents (Elt Ideal)) : Fin 1536 → Fin 256 → EReal :=
  fun f c => a1 (ix2 f c)
abbrev wout (a2 : (⟨S256x512, .f32⟩ : BufTy).Contents (Elt Ideal)) : Fin 256 → Fin 512 → EReal :=
  fun c f => a2 (ix2 c f)
abbrev bias (a3 : (⟨S256, .f32⟩ : BufTy).Contents (Elt Ideal)) : Fin 256 → EReal :=
  fun c => a3 (ix1 c)

/-- Two indices of rank 4 (3, 2) whose coordinates agree by computation are equal. -/
local macro "idx4" : tactic =>
  `(tactic| exact funext fun a => by match a with | ⟨0, _⟩ => rfl | ⟨1, _⟩ => rfl | ⟨2, _⟩ => rfl | ⟨3, _⟩ => rfl)
local macro "idx3" : tactic =>
  `(tactic| exact funext fun a => by match a with | ⟨0, _⟩ => rfl | ⟨1, _⟩ => rfl | ⟨2, _⟩ => rfl)
local macro "idx2" : tactic =>
  `(tactic| exact funext fun a => by match a with | ⟨0, _⟩ => rfl | ⟨1, _⟩ => rfl)

section
variable (a0 : (⟨S4x8192x256, .f32⟩ : BufTy).Contents (Elt Ideal)) (a1 : (⟨S1536x256, .f32⟩ : BufTy).Contents (Elt Ideal))
  (a2 : (⟨S256x512, .f32⟩ : BufTy).Contents (Elt Ideal)) (a3 : (⟨S256, .f32⟩ : BufTy).Contents (Elt Ideal))

/-! ## The projection -/

/-- Entry (b, n, f) of x·Wqkvᵀ is the inner product of row (b, n) of x with row f of Wqkv. -/
theorem proj0 (b : Fin 4) (n : Fin 8192) (f : Fin 1536) :
    val_main_v0 (F := Ideal) a0 a1 (ix3 b n f) = ∑ c : Fin 256, a0 (ix3 b n c) * a1 (ix2 f c) := by
  rw [val_main_v0_apply]
  refine Finset.sum_congr rfl fun k _ => ?_
  have el : lidx_main_v0 (ix3 b n f) k = ix3 b n k := by idx3
  have er : ridx_main_v0 (ix3 b n f) k = ix2 f k := by idx2
  rw [el, er]

/-! ## Queries, keys and values by head: slice, split the 512 channels as 8 × 64, swap the head and sequence axes.
    Channel d of head h is column 64·h + d of the slice, which starts at column 0, 512 or 1024. -/

theorem idxQ (b : Fin 4) (h : Fin 8) (n : Fin 8192) (d : Fin 64) :
    idx_main_v1 (idx_main_v4 (idx_main_v5 (ix4 b h n d))) = ix3 b n (rowQ h d) :=
  funext fun a => Fin.ext (by
    have hb := b.isLt; have hh := h.isLt; have hn := n.isLt; have hd := d.isLt
    match a with
    | ⟨0, _⟩ => show (((b.val * 8192 + n.val) * 8 + h.val) * 64 + d.val) / 4194304 = b.val; omega
    | ⟨1, _⟩ => show (((b.val * 8192 + n.val) * 8 + h.val) * 64 + d.val) / 512 % 8192 = n.val; omega
    | ⟨2, _⟩ => show (((b.val * 8192 + n.val) * 8 + h.val) * 64 + d.val) % 512 = 64 * h.val + d.val; omega)

theorem idxK (b : Fin 4) (h : Fin 8) (n : Fin 8192) (d : Fin 64) :
    idx_main_v2 (idx_main_v6 (idx_main_v7 (ix4 b h n d))) = ix3 b n (rowK h d) :=
  funext fun a => Fin.ext (by
    have hb := b.isLt; have hh := h.isLt; have hn := n.isLt; have hd := d.isLt
    match a with
    | ⟨0, _⟩ => show (((b.val * 8192 + n.val) * 8 + h.val) * 64 + d.val) / 4194304 = b.val; omega
    | ⟨1, _⟩ => show (((b.val * 8192 + n.val) * 8 + h.val) * 64 + d.val) / 512 % 8192 = n.val; omega
    | ⟨2, _⟩ => show 512 + (((b.val * 8192 + n.val) * 8 + h.val) * 64 + d.val) % 512 = 512 + (64 * h.val + d.val); omega)

theorem idxV (b : Fin 4) (h : Fin 8) (n : Fin 8192) (d : Fin 64) :
    idx_main_v3 (idx_main_v8 (idx_main_v9 (ix4 b h n d))) = ix3 b n (rowV h d) :=
  funext fun a => Fin.ext (by
    have hb := b.isLt; have hh := h.isLt; have hn := n.isLt; have hd := d.isLt
    match a with
    | ⟨0, _⟩ => show (((b.val * 8192 + n.val) * 8 + h.val) * 64 + d.val) / 4194304 = b.val; omega
    | ⟨1, _⟩ => show (((b.val * 8192 + n.val) * 8 + h.val) * 64 + d.val) / 512 % 8192 = n.val; omega
    | ⟨2, _⟩ => show 1024 + (((b.val * 8192 + n.val) * 8 + h.val) * 64 + d.val) % 512 = 1024 + (64 * h.val + d.val); omega)

/-- The queries. -/
theorem q_eq (b : Fin 4) (h : Fin 8) (n : Fin 8192) (d : Fin 64) :
    val_main_v5 (F := Ideal) a0 a1 (ix4 b h n d) = q (xs a0) (wqkv a1) b h n d := by
  rw [val_main_v5_apply, val_main_v4_apply, val_main_v1_apply, idxQ, proj0]
  rfl

/-- The keys before normalisation. -/
theorem k_eq (b : Fin 4) (h : Fin 8) (n : Fin 8192) (d : Fin 64) :
    val_main_v7 (F := Ideal) a0 a1 (ix4 b h n d) = proj (xs a0) (wqkv a1) rowK b h n d := by
  rw [val_main_v7_apply, val_main_v6_apply, val_main_v2_apply, idxK, proj0]
  rfl

/-- The values before normalisation. -/
theorem v_eq (b : Fin 4) (h : Fin 8) (n : Fin 8192) (d : Fin 64) :
    val_main_v9 (F := Ideal) a0 a1 (ix4 b h n d) = proj (xs a0) (wqkv a1) rowV b h n d := by
  rw [val_main_v9_apply, val_main_v8_apply, val_main_v3_apply, idxV, proj0]
  rfl

/-! ## Normalising a row of 64 channels: the mean, the biased variance, and the row minus its mean times the
    reciprocal square root of the variance plus the small constant. The sums start from the zero word. -/

/-- The mean of a key row. -/
theorem meanK (b : Fin 4) (h : Fin 8) (n : Fin 8192) (z : Fin 1) :
    val_main_v13 (F := Ideal) a0 a1 (ix4 b h n z)
      = Ideal.div (∑ j : Fin 64, proj (xs a0) (wqkv a1) rowK b h n j) c64 := by
  rw [val_main_v13_apply, val_main_v11_apply, val_main_v10_apply, val_main_v12_apply, val_main_cst_0_apply,
    val_main_cst_apply]
  simp only [Ideal.hostDivf_def, Ideal.ofBits_def, Ideal.ofBits_zero_f32, zero_add]
  refine congrArg (Ideal.div · _) (Finset.sum_congr rfl fun k _ => ?_)
  have e : idx_main_v10 (idx_main_v11 (ix4 b h n z)) k = ix4 b h n k := by idx4
  rw [e, k_eq]

/-- The variance of a key row. -/
theorem varK (b : Fin 4) (h : Fin 8) (n : Fin 8192) (z : Fin 1) :
    val_main_v20 (F := Ideal) a0 a1 (ix4 b h n z)
      = Ideal.div (∑ j : Fin 64,
          (proj (xs a0) (wqkv a1) rowK b h n j - Ideal.div (∑ j : Fin 64, proj (xs a0) (wqkv a1) rowK b h n j) c64)
          * (proj (xs a0) (wqkv a1) rowK b h n j - Ideal.div (∑ j : Fin 64, proj (xs a0) (wqkv a1) rowK b h n j) c64)) c64 := by
  rw [val_main_v20_apply, val_main_v18_apply, val_main_v17_apply, val_main_v19_apply, val_main_cst_2_apply,
    val_main_cst_1_apply]
  simp only [Ideal.hostDivf_def, Ideal.ofBits_def, Ideal.ofBits_zero_f32, zero_add]
  refine congrArg (Ideal.div · _) (Finset.sum_congr rfl fun k _ => ?_)
  have e17 : idx_main_v17 (idx_main_v18 (ix4 b h n z)) k = ix4 b h n k := by idx4
  have e14 : idx_main_v14 (ix4 b h n k) = ix4 b h n (⟨0, Nat.one_pos⟩ : Fin 1) := by idx4
  rw [e17, val_main_v16_apply, val_main_v15_apply, val_main_v14_apply, e14, meanK, k_eq]
  rfl

/-- The normalised keys. -/
theorem kn_eq (b : Fin 4) (h : Fin 8) (n : Fin 8192) (d : Fin 64) :
    val_main_v27 (F := Ideal) a0 a1 (ix4 b h n d) = kn (xs a0) (wqkv a1) b h n d := by
  have e21 : idx_main_v21 (ix4 b h n d) = ix4 b h n (⟨0, Nat.one_pos⟩ : Fin 1) := by idx4
  have e26 : idx_main_v26 (ix4 b h n d) = ix4 b h n (⟨0, Nat.one_pos⟩ : Fin 1) := by idx4
  rw [val_main_v27_apply, val_main_v22_apply, val_main_v21_apply, val_main_v26_apply, val_main_v25_apply,
    val_main_v24_apply, val_main_v23_apply, val_main_cst_3_apply, e21, e26, meanK, varK, k_eq]
  rfl

/-- The mean of a value row. -/
theorem meanV (b : Fin 4) (h : Fin 8) (n : Fin 8192) (z : Fin 1) :
    val_main_v31 (F := Ideal) a0 a1 (ix4 b h n z)
      = Ideal.div (∑ j : Fin 64, proj (xs a0) (wqkv a1) rowV b h n j) c64 := by
  rw [val_main_v31_apply, val_main_v29_apply, val_main_v28_apply, val_main_v30_apply, val_main_cst_5_apply,
    val_main_cst_4_apply]
  simp only [Ideal.hostDivf_def, Ideal.ofBits_def, Ideal.ofBits_zero_f32, zero_add]
  refine congrArg (Ideal.div · _) (Finset.sum_congr rfl fun k _ => ?_)
  have e : idx_main_v28 (idx_main_v29 (ix4 b h n z)) k = ix4 b h n k := by idx4
  rw [e, v_eq]

/-- The variance of a value row. -/
theorem varV (b : Fin 4) (h : Fin 8) (n : Fin 8192) (z : Fin 1) :
    val_main_v38 (F := Ideal) a0 a1 (ix4 b h n z)
      = Ideal.div (∑ j : Fin 64,
          (proj (xs a0) (wqkv a1) rowV b h n j - Ideal.div (∑ j : Fin 64, proj (xs a0) (wqkv a1) rowV b h n j) c64)
          * (proj (xs a0) (wqkv a1) rowV b h n j - Ideal.div (∑ j : Fin 64, proj (xs a0) (wqkv a1) rowV b h n j) c64)) c64 := by
  rw [val_main_v38_apply, val_main_v36_apply, val_main_v35_apply, val_main_v37_apply, val_main_cst_7_apply,
    val_main_cst_6_apply]
  simp only [Ideal.hostDivf_def, Ideal.ofBits_def, Ideal.ofBits_zero_f32, zero_add]
  refine congrArg (Ideal.div · _) (Finset.sum_congr rfl fun k _ => ?_)
  have e35 : idx_main_v35 (idx_main_v36 (ix4 b h n z)) k = ix4 b h n k := by idx4
  have e32 : idx_main_v32 (ix4 b h n k) = ix4 b h n (⟨0, Nat.one_pos⟩ : Fin 1) := by idx4
  rw [e35, val_main_v34_apply, val_main_v33_apply, val_main_v32_apply, e32, meanV, v_eq]
  rfl

/-- The normalised values. -/
theorem vn_eq (b : Fin 4) (h : Fin 8) (n : Fin 8192) (e : Fin 64) :
    val_main_v45 (F := Ideal) a0 a1 (ix4 b h n e) = vn (xs a0) (wqkv a1) b h n e := by
  have e39 : idx_main_v39 (ix4 b h n e) = ix4 b h n (⟨0, Nat.one_pos⟩ : Fin 1) := by idx4
  have e44 : idx_main_v44 (ix4 b h n e) = ix4 b h n (⟨0, Nat.one_pos⟩ : Fin 1) := by idx4
  rw [val_main_v45_apply, val_main_v40_apply, val_main_v39_apply, val_main_v44_apply, val_main_v43_apply,
    val_main_v42_apply, val_main_v41_apply, val_main_cst_8_apply, e39, e44, meanV, varV, v_eq]
  rfl

/-! ## The attention products -/

/-- kᵀ·v per batch and head: entry (d, e) sums over the 8192 positions. -/
theorem dots_eq (b : Fin 4) (h : Fin 8) (d e : Fin 64) :
    val_main_v46 (F := Ideal) a0 a1 (ix4 b h d e) = dotsR (xs a0) (wqkv a1) b h d e := by
  rw [val_main_v46_apply]
  unfold Cert.Spec.dotsR
  refine Finset.sum_congr rfl fun k _ => ?_
  have el : lidx_main_v46 (ix4 b h d e) k = ix4 b h k d := by idx4
  have er : ridx_main_v46 (ix4 b h d e) k = ix4 b h k e := by idx4
  rw [el, er, kn_eq, vn_eq]

/-- The queries applied to kᵀ·v, divided by the sequence length. -/
theorem attn_eq (b : Fin 4) (h : Fin 8) (n : Fin 8192) (e : Fin 64) :
    val_main_v49 (F := Ideal) a0 a1 (ix4 b h n e) = attn (xs a0) (wqkv a1) b h n e := by
  rw [val_main_v49_apply, val_main_v47_apply, val_main_v48_apply, val_main_cst_9_apply]
  simp only [Ideal.hostDivf_def, Ideal.ofBits_def]
  unfold Cert.Spec.attn
  refine congrArg (Ideal.div · _) (Finset.sum_congr rfl fun k _ => ?_)
  have el : lidx_main_v47 (ix4 b h n e) k = ix4 b h n k := by idx4
  have er : ridx_main_v47 (ix4 b h n e) k = ix4 b h k e := by idx4
  rw [el, er, q_eq, dots_eq]

/-- Heads laid side by side: inner channel f is channel f % 64 of head f / 64. -/
theorem lay_eq (b : Fin 4) (n : Fin 8192) (f : Fin 512) :
    val_main_v51 (F := Ideal) a0 a1 (ix3 b n f) = attn (xs a0) (wqkv a1) b (hOf f) n (eOf f) := by
  have e : idx_main_v50 (idx_main_v51 (ix3 b n f)) = ix4 b (hOf f) n (eOf f) := funext fun a => Fin.ext (by
    have hb := b.isLt; have hn := n.isLt; have hf := f.isLt
    match a with
    | ⟨0, _⟩ => show ((b.val * 8192 + n.val) * 512 + f.val) / 4194304 = b.val; omega
    | ⟨1, _⟩ => show ((b.val * 8192 + n.val) * 512 + f.val) / 64 % 8 = f.val / 64; omega
    | ⟨2, _⟩ => show ((b.val * 8192 + n.val) * 512 + f.val) / 512 % 8192 = n.val; omega
    | ⟨3, _⟩ => show ((b.val * 8192 + n.val) * 512 + f.val) % 64 = f.val % 64; omega)
  rw [val_main_v51_apply, val_main_v50_apply, e, attn_eq]

/-! ## The result -/

/-- The reference's result at (b, n, c): the 512 inner channels against row c of Wout, plus the bias. -/
theorem ref_is_spec (b : Fin 4) (n : Fin 8192) (c : Fin 256) :
    Cert.ReferenceIdeal.Read.val_main_v55 (F := Ideal) a0 a1 a2 a3 (ValueIdx.ix3 b n c)
      = Cert.Spec.outR (fun b n c => a0 (ValueIdx.ix3 b n c)) (fun f c => a1 (ValueIdx.ix2 f c))
          (fun c f => a2 (ValueIdx.ix2 c f)) (fun c => a3 (ValueIdx.ix1 c)) b n c := by
  have e3 : idx_main_v53 (idx_main_v54 (ix3 b n c)) = ix1 c :=
    funext fun a => by match a with | ⟨0, _⟩ => rfl
  rw [val_main_v55_apply, val_main_v52_apply, val_main_v54_apply, val_main_v53_apply, e3]
  simp only [Ideal.addf_def]
  unfold Cert.Spec.outR
  refine congrArg (· + _) (Finset.sum_congr rfl fun k _ => ?_)
  have el : lidx_main_v52 (ix3 b n c) k = ix3 b n k := by idx3
  have er : ridx_main_v52 (ix3 b n c) k = ix2 c k := by idx2
  rw [el, er, lay_eq]

end
end Cert.ReferenceIdeal.RefValue
-- ==== Proof.KIFinite.lean ====
/-
  FINITENESS FROM THE PRECONDITION. The claim's precondition says, of each float argument array `a`, that
  `|a| < +∞` holds at every index (an absolute value, a comparison against the broadcast of the word of +∞, a
  conjunction over all axes), and joins the four statements by `and`. At the extended reals the absolute value is
  `max x (-x)` and the word 0x7F800000 denotes `⊤`; `max x (-x) < ⊤` excludes `x = ⊤` (then the maximum is `⊤`) and
  `x = ⊥` (then `-x = ⊤`), so `x` is a real number. This module states that element fact once, for any shape, and
  reads it off the precondition for the first three arguments.
-/
import proofs.«123484_j5523327943104_1_alg».proof.Defs
import proofs.«123484_j5523327943104_1_alg».proof.Proof.Gen.Pre_finite_inputs
import Idealize.ShloMosaic.Lib.ReduceAll
import Idealize.ShloMosaic.Lib.ValueIdx
import Idealize.ShloMosaic.PureOps.Ideal

noncomputable section

namespace Cert.KernelIdeal.Fin

open Idealize.ShloMosaic Idealize.SL.Sem Cert.KernelIdeal

/-- The scalar shape has one index. -/
instance subsingleton_scalar_idx : Subsingleton Cert.Pre_finite_inputs.S_.Idx :=
  ⟨fun a b => funext fun d => d.elim0⟩

/-- The f32 word 0x7F800000 (sign 0, exponent all ones, significand 0) denotes `+∞ = ⊤`. -/
theorem ofBits_inf : Ideal.ofBits .f32 0x7F800000#32 = (⊤ : EReal) := by
  simp [Ideal.ofBits, Ideal.ieee]

/-- An extended real whose absolute value `max x (-x)` is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- THE ELEMENT FACT, for any shape: where the comparison `|a| < +∞` (the right side the broadcast of the splat of
    the word of +∞) reads 1, the element of `a` is a real number. -/
theorem real_of_cmp {s : Shape} (hb : Cert.Pre_finite_inputs.S_.BroadcastsInDim s (![] : Fin 0 → Fin s.rank))
    (a : FVec Ideal s .f32) (i : s.Idx)
    (h : cmpf .olt (Host.absf a)
          (broadcastInDim s ![] hb (constant (F := Ideal) Cert.Pre_finite_inputs.S_ .f32 0x7F800000#32)) i = 1#1) :
    ∃ r : ℝ, (a i : EReal) = (r : EReal) := by
  have h' : Ideal.cmp .olt (max (a i) (-(a i))) (Ideal.ofBits .f32 0x7F800000#32) = 1#1 := h
  rw [ofBits_inf] at h'
  refine real_of_abs_lt_top (a i) ?_
  unfold Ideal.cmp at h'
  by_contra hn
  simp [hn] at h'

/-- FINITENESS FROM THE PRECONDITION: every element of the first three argument arrays is a real number. The
    precondition's value at the scalar shape's one index is a conjunction of four `all`s; each of the first three
    gives the comparison `|a| < +∞` at every index of its array, and the element fact reads it. -/
theorem finite_of_pre [hPre_finite_inputs : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    (∀ i : S4x8192x256.Idx, ∃ r : ℝ, (m ((c.tc : Thread nD τ).loc main_arg0) : S4x8192x256.Idx → EReal) i = (r : EReal))
    ∧ (∀ i : S1536x256.Idx, ∃ r : ℝ, (m ((c.tc : Thread nD τ).loc main_arg1) : S1536x256.Idx → EReal) i = (r : EReal))
    ∧ (∀ i : S256x512.Idx, ∃ r : ℝ, (m ((c.tc : Thread nD τ).loc main_arg2) : S256x512.Idx → EReal) i = (r : EReal)) := by
  have e := congrFun (h c) ValueIdx.ix0
  dsimp only [Cert.Pre_finite_inputs.fn, Cert.Pre_finite_inputs.fn_part1] at e
  obtain ⟨e012, -⟩ := IntOp.andi_eq_one.1 (e : IntOp.andi _ _ = 1#1)
  obtain ⟨e01, e2⟩ := IntOp.andi_eq_one.1 (e012 : IntOp.andi _ _ = 1#1)
  obtain ⟨e0, e1⟩ := IntOp.andi_eq_one.1 (e01 : IntOp.andi _ _ = 1#1)
  exact ⟨fun i => real_of_cmp _ _ i (Host.reduce_andi_all _ _ _ _ _ e0 i),
         fun i => real_of_cmp _ _ i (Host.reduce_andi_all _ _ _ _ _ e1 i),
         fun i => real_of_cmp _ _ i (Host.reduce_andi_all _ _ _ _ _ e2 i)⟩

end Cert.KernelIdeal.Fin

end
-- ==== Proof.lean ====
/-
  Linear attention without softmax, fused into two kernels, against its jnp reference.

  The kernel's first region builds, per batch and head, the 64×64 matrix kᵀ·v of the normalised keys and values —
  accumulated over four sequence tiles in a scratch — and leaves its product with the head's rows of the transposed
  output weights, scaled by 2⁻¹³; the second region applies the queries to those matrices, accumulating the eight
  heads in a scratch, and adds the bias. The reference applies the queries to kᵀ·v, divides by 8192, lays the heads
  side by side and multiplies by the output weights.

  Frames: each region's body is run once per control case (first, middle, last point of the accumulation), the
  scratch carried between points by an invariant that names its contents; the two regions and the host stretch
  before them are composed in order. The same text serves the word-level program and its idealization.
  Value: at the ideal instance the result array is the specification's kernel form of the argument arrays, the
  reference's result its reference form; with every input finite both are sums of reals, equal by regrouping the
  sums and reassociating the triple product (x·2⁻¹³ = x/8192 on every extended real).
-/
import proofs.«123484_j5523327943104_1_alg».proof.Defs
import proofs.«123484_j5523327943104_1_alg».proof.Proof.Gen.Kernel
import proofs.«123484_j5523327943104_1_alg».proof.Proof.Gen.KernelIdeal
import proofs.«123484_j5523327943104_1_alg».proof.Proof.Gen.ReferenceIdeal
import proofs.«123484_j5523327943104_1_alg».proof.Proof.Gen.ReferenceIdeal.Run
import proofs.«123484_j5523327943104_1_alg».proof.Proof.Gen.ReferenceIdeal.Read
import proofs.«123484_j5523327943104_1_alg».proof.Proof.Gen.Pre_finite_inputs
import proofs.«123484_j5523327943104_1_alg».proof.Proof.KBRun
import proofs.«123484_j5523327943104_1_alg».proof.Proof.KI1Value
import proofs.«123484_j5523327943104_1_alg».proof.Proof.Algebra
import proofs.«123484_j5523327943104_1_alg».proof.Proof.RefIsSpec
import proofs.«123484_j5523327943104_1_alg».proof.Proof.KIFinite
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Fr.frame m ρ

theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at one function of the arguments: the kernel's form of the specification, which with finite
    inputs is the reference's form. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Fr.G1 m c, Cert.KernelIdeal.Fr.run_kernel m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, (hagree c).1, (hagree c).2.1, (hagree c).2.2.1, (hagree c).2.2.2]
  obtain ⟨hx, hW, hWo⟩ := Cert.KernelIdeal.Fin.finite_of_pre m hpre c
  funext i
  obtain ⟨b, n, c', rfl⟩ : ∃ (b : Fin 4) (n : Fin 8192) (c' : Fin 256), i = ValueIdx.ix3 b n c' :=
    ⟨i 0, i 1, i 2, ValueIdx.eq_ix3 i⟩
  refine (Cert.ReferenceIdeal.RefValue.ref_is_spec _ _ _ _ b n c').trans ?_
  rw [← Cert.Spec.outK_eq_outR _ _ _ _ (fun b n cc => hx _) (fun f cc => hW _) (fun c' f => hWo _)]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
